-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32768x3 : Shape := ⟨3, ![32, 32768, 3]⟩
abbrev S2x4 : Shape := ⟨2, ![2, 4]⟩
abbrev S4 : Shape := ⟨1, ![4]⟩
abbrev S1x4 : Shape := ⟨2, ![1, 4]⟩
abbrev S_ : Shape := ⟨0, ![]⟩

class Facts : Prop where
  bcast_S_S32x32768x3 : S_.BroadcastsInDim S32x32768x3 (![] : Fin 0 → Fin S32x32768x3.rank)
  reducesTo_S32x32768x3_S_d0_1_2 : S32x32768x3.ReducesTo [0, 1, 2] S_
  h_S_ : 0 < S_.numel
  bcast_S_S2x4 : S_.BroadcastsInDim S2x4 (![] : Fin 0 → Fin S2x4.rank)
  reducesTo_S2x4_S_d0_1 : S2x4.ReducesTo [0, 1] S_
  bcast_S_S4 : S_.BroadcastsInDim S4 (![] : Fin 0 → Fin S4.rank)
  reducesTo_S4_S_d0 : S4.ReducesTo [0] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S1x4 .f32) (main_arg5 : FVec F S1x4 .f32) (main_v13 : IVec S_ 1) (main_v16 : IVec S2x4 1) : IVec S_ 1 :=
  let main_c_5 : IVec S_ 1 := constantI S_ 1 1#1
  let main_v17 : IVec S_ 1 := (fun x v => Host.reduce IntOp.andi x v reducesTo_S2x4_S_d0_1 h_S_) main_v16 main_c_5
  let main_v18 : IVec S_ 1 := andi main_v13 main_v17
  let main_v19 : FVec F S1x4 .f32 := Host.absf main_arg4
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  let main_v24 : FVec F S1x4 .f32 := Host.absf main_arg5
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  main_v28

def fn {F : FTy → Type} [FloatOps F] (main_arg0 : FVec F S32x32768x3 .f32) (main_arg1 : FVec F S2x4 .f32) (main_arg2 : FVec F S4 .f32) (main_arg3 : FVec F S2x4 .f32) (main_arg4 : FVec F S1x4 .f32) (main_arg5 : FVec F S1x4 .f32) : IVec S_ 1 :=
  let main_v0 : FVec F S32x32768x3 .f32 := Host.absf main_arg0
  let main_cst : FVec F S_ .f32 := constant S_ .f32 0x7F800000#32
  let main_v1 : FVec F S32x32768x3 .f32 := broadcastInDim S32x32768x3 ![] bcast_S_S32x32768x3 main_cst
  let main_v2 : IVec S32x32768x3 1 := cmpf .olt main_v0 main_v1
  let main_c : IVec S_ 1 := constantI S_ 1 1#1
  let main_v3 : IVec S_ 1 := (fun x v => Host.reduce IntOp.andi x v reducesTo_S32x32768x3_S_d0_1_2 h_S_) main_v2 main_c
  let main_v4 : FVec F S2x4 .f32 := Host.absf main_arg1
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S2x4 .f32 := Host.absf main_arg3
  let main_cst_4 : FVec F S_ .f32 := constant S_ .f32 0x7F800000#32
  let main_v15 : FVec F S2x4 .f32 := broadcastInDim S2x4 ![] bcast_S_S2x4 main_cst_4
  let main_v16 : IVec S2x4 1 := cmpf .olt main_v14 main_v15
  fn_part1 (F := F) main_arg4 main_arg5 main_v13 main_v16
-- ==== Kernel.lean ====
abbrev S32x32768x3 : Shape := ⟨3, ![32, 32768, 3]⟩
abbrev S2x4 : Shape := ⟨2, ![2, 4]⟩
abbrev S4 : Shape := ⟨1, ![4]⟩
abbrev S1x4 : Shape := ⟨2, ![1, 4]⟩
abbrev S32x3x32768 : Shape := ⟨3, ![32, 3, 32768]⟩
abbrev S_ : Shape := ⟨0, ![]⟩
abbrev S64 : Shape := ⟨1, ![64]⟩
abbrev S1 : Shape := ⟨1, ![1]⟩
abbrev S1x64 : Shape := ⟨2, ![1, 64]⟩
abbrev S16x64 : Shape := ⟨2, ![16, 64]⟩
abbrev S4x64 : Shape := ⟨2, ![4, 64]⟩
abbrev S20x64 : Shape := ⟨2, ![20, 64]⟩
abbrev S32x32768x64 : Shape := ⟨3, ![32, 32768, 64]⟩
abbrev S1x3x8192 : Shape := ⟨3, ![1, 3, 8192]⟩
abbrev S1x8192x64 : Shape := ⟨3, ![1, 8192, 64]⟩
abbrev S3x8192 : Shape := ⟨2, ![3, 8192]⟩
abbrev S1x8192 : Shape := ⟨2, ![1, 8192]⟩
abbrev S8192 : Shape := ⟨1, ![8192]⟩
abbrev S20x8192 : Shape := ⟨2, ![20, 8192]⟩
abbrev S8192x64 : Shape := ⟨2, ![8192, 64]⟩
abbrev S32x32768x16x4 : Shape := ⟨4, ![32, 32768, 16, 4]⟩

abbrev nBuf : Space → Nat
  | .hbm => 221
  | .vmem => 5
  | .smem => 0
  | _ => 0

abbrev hbmTy0_0 (i : Nat) : BufTy := match i % 128 with
  | 0 => ⟨S32x32768x3, .f32⟩
  | 1 => ⟨S2x4, .f32⟩
  | 2 => ⟨S4, .f32⟩
  | 3 => ⟨S2x4, .f32⟩
  | 4 => ⟨S1x4, .f32⟩
  | 5 => ⟨S1x4, .f32⟩
  | 6 => ⟨S32x3x32768, .f32⟩
  | 7 => ⟨S1x4, .f32⟩
  | 8 => ⟨S4, .f32⟩
  | 9 => ⟨S_, .f32⟩
  | 10 => ⟨S4, .f32⟩
  | 11 => ⟨S4, .f32⟩
  | 12 => ⟨S4, .f32⟩
  | 13 => ⟨S_, .f32⟩
  | 14 => ⟨S64, .f32⟩
  | 15 => ⟨S_, .i32⟩
  | 16 => ⟨S1, .i32⟩
  | 17 => ⟨S64, .f32⟩
  | 18 => ⟨S1x4, .f32⟩
  | 19 => ⟨S4, .f32⟩
  | 20 => ⟨S_, .f32⟩
  | 21 => ⟨S4, .f32⟩
  | 22 => ⟨S4, .f32⟩
  | 23 => ⟨S_, .f32⟩
  | 24 => ⟨S64, .f32⟩
  | 25 => ⟨S_, .i32⟩
  | 26 => ⟨S1, .i32⟩
  | 27 => ⟨S64, .f32⟩
  | 28 => ⟨S1x4, .f32⟩
  | 29 => ⟨S4, .f32⟩
  | 30 => ⟨S_, .f32⟩
  | 31 => ⟨S4, .f32⟩
  | 32 => ⟨S4, .f32⟩
  | 33 => ⟨S_, .f32⟩
  | 34 => ⟨S64, .f32⟩
  | 35 => ⟨S_, .i32⟩
  | 36 => ⟨S1, .i32⟩
  | 37 => ⟨S64, .f32⟩
  | 38 => ⟨S1x4, .f32⟩
  | 39 => ⟨S4, .f32⟩
  | 40 => ⟨S_, .f32⟩
  | 41 => ⟨S4, .f32⟩
  | 42 => ⟨S4, .f32⟩
  | 43 => ⟨S_, .f32⟩
  | 44 => ⟨S64, .f32⟩
  | 45 => ⟨S_, .i32⟩
  | 46 => ⟨S1, .i32⟩
  | 47 => ⟨S64, .f32⟩
  | 48 => ⟨S1x4, .f32⟩
  | 49 => ⟨S4, .f32⟩
  | 50 => ⟨S_, .f32⟩
  | 51 => ⟨S4, .f32⟩
  | 52 => ⟨S4, .f32⟩
  | 53 => ⟨S_, .f32⟩
  | 54 => ⟨S64, .f32⟩
  | 55 => ⟨S_, .i32⟩
  | 56 => ⟨S1, .i32⟩
  | 57 => ⟨S64, .f32⟩
  | 58 => ⟨S1x4, .f32⟩
  | 59 => ⟨S4, .f32⟩
  | 60 => ⟨S_, .f32⟩
  | 61 => ⟨S4, .f32⟩
  | 62 => ⟨S4, .f32⟩
  | 63 => ⟨S_, .f32⟩
  | 64 => ⟨S64, .f32⟩
  | 65 => ⟨S_, .i32⟩
  | 66 => ⟨S1, .i32⟩
  | 67 => ⟨S64, .f32⟩
  | 68 => ⟨S1x4, .f32⟩
  | 69 => ⟨S4, .f32⟩
  | 70 => ⟨S_, .f32⟩
  | 71 => ⟨S4, .f32⟩
  | 72 => ⟨S4, .f32⟩
  | 73 => ⟨S_, .f32⟩
  | 74 => ⟨S64, .f32⟩
  | 75 => ⟨S_, .i32⟩
  | 76 => ⟨S1, .i32⟩
  | 77 => ⟨S64, .f32⟩
  | 78 => ⟨S1x4, .f32⟩
  | 79 => ⟨S4, .f32⟩
  | 80 => ⟨S_, .f32⟩
  | 81 => ⟨S4, .f32⟩
  | 82 => ⟨S4, .f32⟩
  | 83 => ⟨S_, .f32⟩
  | 84 => ⟨S64, .f32⟩
  | 85 => ⟨S_, .i32⟩
  | 86 => ⟨S1, .i32⟩
  | 87 => ⟨S64, .f32⟩
  | 88 => ⟨S4, .f32⟩
  | 89 => ⟨S_, .f32⟩
  | 90 => ⟨S4, .f32⟩
  | 91 => ⟨S4, .f32⟩
  | 92 => ⟨S_, .f32⟩
  | 93 => ⟨S64, .f32⟩
  | 94 => ⟨S_, .i32⟩
  | 95 => ⟨S1, .i32⟩
  | 96 => ⟨S64, .f32⟩
  | 97 => ⟨S4, .f32⟩
  | 98 => ⟨S_, .f32⟩
  | 99 => ⟨S4, .f32⟩
  | 100 => ⟨S4, .f32⟩
  | 101 => ⟨S_, .f32⟩
  | 102 => ⟨S64, .f32⟩
  | 103 => ⟨S_, .i32⟩
  | 104 => ⟨S1, .i32⟩
  | 105 => ⟨S64, .f32⟩
  | 106 => ⟨S4, .f32⟩
  | 107 => ⟨S_, .f32⟩
  | 108 => ⟨S4, .f32⟩
  | 109 => ⟨S4, .f32⟩
  | 110 => ⟨S_, .f32⟩
  | 111 => ⟨S64, .f32⟩
  | 112 => ⟨S_, .i32⟩
  | 113 => ⟨S1, .i32⟩
  | 114 => ⟨S64, .f32⟩
  | 115 => ⟨S4, .f32⟩
  | 116 => ⟨S_, .f32⟩
  | 117 => ⟨S4, .f32⟩
  | 118 => ⟨S4, .f32⟩
  | 119 => ⟨S_, .f32⟩
  | 120 => ⟨S64, .f32⟩
  | 121 => ⟨S_, .i32⟩
  | 122 => ⟨S1, .i32⟩
  | 123 => ⟨S64, .f32⟩
  | 124 => ⟨S4, .f32⟩
  | 125 => ⟨S_, .f32⟩
  | 126 => ⟨S4, .f32⟩
  | 127 => ⟨S4, .f32⟩
  | _ => ⟨S32x32768x3, .f32⟩

abbrev hbmTy0_1 (i : Nat) : BufTy := match i % 128 with
  | 0 => ⟨S_, .f32⟩
  | 1 => ⟨S64, .f32⟩
  | 2 => ⟨S_, .i32⟩
  | 3 => ⟨S1, .i32⟩
  | 4 => ⟨S64, .f32⟩
  | 5 => ⟨S4, .f32⟩
  | 6 => ⟨S_, .f32⟩
  | 7 => ⟨S4, .f32⟩
  | 8 => ⟨S4, .f32⟩
  | 9 => ⟨S_, .f32⟩
  | 10 => ⟨S64, .f32⟩
  | 11 => ⟨S_, .i32⟩
  | 12 => ⟨S1, .i32⟩
  | 13 => ⟨S64, .f32⟩
  | 14 => ⟨S4, .f32⟩
  | 15 => ⟨S_, .f32⟩
  | 16 => ⟨S4, .f32⟩
  | 17 => ⟨S4, .f32⟩
  | 18 => ⟨S_, .f32⟩
  | 19 => ⟨S64, .f32⟩
  | 20 => ⟨S_, .i32⟩
  | 21 => ⟨S1, .i32⟩
  | 22 => ⟨S64, .f32⟩
  | 23 => ⟨S4, .f32⟩
  | 24 => ⟨S_, .f32⟩
  | 25 => ⟨S4, .f32⟩
  | 26 => ⟨S4, .f32⟩
  | 27 => ⟨S_, .f32⟩
  | 28 => ⟨S64, .f32⟩
  | 29 => ⟨S_, .i32⟩
  | 30 => ⟨S1, .i32⟩
  | 31 => ⟨S64, .f32⟩
  | 32 => ⟨S4, .f32⟩
  | 33 => ⟨S_, .f32⟩
  | 34 => ⟨S4, .f32⟩
  | 35 => ⟨S4, .f32⟩
  | 36 => ⟨S_, .f32⟩
  | 37 => ⟨S64, .f32⟩
  | 38 => ⟨S_, .i32⟩
  | 39 => ⟨S1, .i32⟩
  | 40 => ⟨S64, .f32⟩
  | 41 => ⟨S4, .f32⟩
  | 42 => ⟨S_, .f32⟩
  | 43 => ⟨S4, .f32⟩
  | 44 => ⟨S4, .f32⟩
  | 45 => ⟨S_, .f32⟩
  | 46 => ⟨S64, .f32⟩
  | 47 => ⟨S_, .i32⟩
  | 48 => ⟨S1, .i32⟩
  | 49 => ⟨S64, .f32⟩
  | 50 => ⟨S4, .f32⟩
  | 51 => ⟨S_, .f32⟩
  | 52 => ⟨S4, .f32⟩
  | 53 => ⟨S4, .f32⟩
  | 54 => ⟨S_, .f32⟩
  | 55 => ⟨S64, .f32⟩
  | 56 => ⟨S_, .i32⟩
  | 57 => ⟨S1, .i32⟩
  | 58 => ⟨S64, .f32⟩
  | 59 => ⟨S4, .f32⟩
  | 60 => ⟨S_, .f32⟩
  | 61 => ⟨S4, .f32⟩
  | 62 => ⟨S4, .f32⟩
  | 63 => ⟨S_, .f32⟩
  | 64 => ⟨S64, .f32⟩
  | 65 => ⟨S_, .i32⟩
  | 66 => ⟨S1, .i32⟩
  | 67 => ⟨S64, .f32⟩
  | 68 => ⟨S1x64, .f32⟩
  | 69 => ⟨S1x64, .f32⟩
  | 70 => ⟨S1x64, .f32⟩
  | 71 => ⟨S1x64, .f32⟩
  | 72 => ⟨S1x64, .f32⟩
  | 73 => ⟨S1x64, .f32⟩
  | 74 => ⟨S1x64, .f32⟩
  | 75 => ⟨S1x64, .f32⟩
  | 76 => ⟨S1x64, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S1x64, .f32⟩
  | 88 => ⟨S16x64, .f32⟩
  | 89 => ⟨S4x64, .f32⟩
  | 90 => ⟨S20x64, .f32⟩
  | 91 => ⟨S32x32768x64, .f32⟩
  | 92 => ⟨S32x32768x16x4, .f32⟩
  | _ => ⟨S32x32768x3, .f32⟩

abbrev hbmTy (i : Nat) : BufTy := match i / 128 with
  | 0 => hbmTy0_0 i
  | 1 => hbmTy0_1 i
  | _ => ⟨S32x32768x3, .f32⟩

abbrev bufTy : (tb : Table) → Fin (tcTables nBuf tb) → BufTy
  | .hbm, ⟨i, _⟩ => hbmTy i
  | .local _ .vmem, ⟨0, _⟩ => ⟨S1x3x8192, .f32⟩
  | .local _ .vmem, ⟨1, _⟩ => ⟨S1x3x8192, .f32⟩
  | .local _ .vmem, ⟨2, _⟩ => ⟨S20x64, .f32⟩
  | .local _ .vmem, ⟨3, _⟩ => ⟨S1x8192x64, .f32⟩
  | .local _ .vmem, ⟨4, _⟩ => ⟨S1x8192x64, .f32⟩
  | _, _ => ⟨S32x32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_c_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_c_12 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_13 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_c_15 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_16 : Ref sig .tc := ⟨.hbm, 70, rfl⟩
abbrev main_v46 : Ref sig .tc := ⟨.hbm, 71, rfl⟩
abbrev main_v47 : Ref sig .tc := ⟨.hbm, 72, rfl⟩
abbrev main_cst_17 : Ref sig .tc := ⟨.hbm, 73, rfl⟩
abbrev main_v48 : Ref sig .tc := ⟨.hbm, 74, rfl⟩
abbrev main_c_18 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_19 : Ref sig .tc := ⟨.hbm, 80, rfl⟩
abbrev main_v53 : Ref sig .tc := ⟨.hbm, 81, rfl⟩
abbrev main_v54 : Ref sig .tc := ⟨.hbm, 82, rfl⟩
abbrev main_cst_20 : Ref sig .tc := ⟨.hbm, 83, rfl⟩
abbrev main_v55 : Ref sig .tc := ⟨.hbm, 84, rfl⟩
abbrev main_c_21 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_22 : Ref sig .tc := ⟨.hbm, 89, rfl⟩
abbrev main_v59 : Ref sig .tc := ⟨.hbm, 90, rfl⟩
abbrev main_v60 : Ref sig .tc := ⟨.hbm, 91, rfl⟩
abbrev main_cst_23 : Ref sig .tc := ⟨.hbm, 92, rfl⟩
abbrev main_v61 : Ref sig .tc := ⟨.hbm, 93, rfl⟩
abbrev main_c_24 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_25 : Ref sig .tc := ⟨.hbm, 98, rfl⟩
abbrev main_v65 : Ref sig .tc := ⟨.hbm, 99, rfl⟩
abbrev main_v66 : Ref sig .tc := ⟨.hbm, 100, rfl⟩
abbrev main_cst_26 : Ref sig .tc := ⟨.hbm, 101, rfl⟩
abbrev main_v67 : Ref sig .tc := ⟨.hbm, 102, rfl⟩
abbrev main_c_27 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_28 : Ref sig .tc := ⟨.hbm, 107, rfl⟩
abbrev main_v71 : Ref sig .tc := ⟨.hbm, 108, rfl⟩
abbrev main_v72 : Ref sig .tc := ⟨.hbm, 109, rfl⟩
abbrev main_cst_29 : Ref sig .tc := ⟨.hbm, 110, rfl⟩
abbrev main_v73 : Ref sig .tc := ⟨.hbm, 111, rfl⟩
abbrev main_c_30 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_31 : Ref sig .tc := ⟨.hbm, 116, rfl⟩
abbrev main_v77 : Ref sig .tc := ⟨.hbm, 117, rfl⟩
abbrev main_v78 : Ref sig .tc := ⟨.hbm, 118, rfl⟩
abbrev main_cst_32 : Ref sig .tc := ⟨.hbm, 119, rfl⟩
abbrev main_v79 : Ref sig .tc := ⟨.hbm, 120, rfl⟩
abbrev main_c_33 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_34 : Ref sig .tc := ⟨.hbm, 125, rfl⟩
abbrev main_v83 : Ref sig .tc := ⟨.hbm, 126, rfl⟩
abbrev main_v84 : Ref sig .tc := ⟨.hbm, 127, rfl⟩
abbrev main_cst_35 : Ref sig .tc := ⟨.hbm, 128, rfl⟩
abbrev main_v85 : Ref sig .tc := ⟨.hbm, 129, rfl⟩
abbrev main_c_36 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_37 : Ref sig .tc := ⟨.hbm, 134, rfl⟩
abbrev main_v89 : Ref sig .tc := ⟨.hbm, 135, rfl⟩
abbrev main_v90 : Ref sig .tc := ⟨.hbm, 136, rfl⟩
abbrev main_cst_38 : Ref sig .tc := ⟨.hbm, 137, rfl⟩
abbrev main_v91 : Ref sig .tc := ⟨.hbm, 138, rfl⟩
abbrev main_c_39 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_40 : Ref sig .tc := ⟨.hbm, 143, rfl⟩
abbrev main_v95 : Ref sig .tc := ⟨.hbm, 144, rfl⟩
abbrev main_v96 : Ref sig .tc := ⟨.hbm, 145, rfl⟩
abbrev main_cst_41 : Ref sig .tc := ⟨.hbm, 146, rfl⟩
abbrev main_v97 : Ref sig .tc := ⟨.hbm, 147, rfl⟩
abbrev main_c_42 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_43 : Ref sig .tc := ⟨.hbm, 152, rfl⟩
abbrev main_v101 : Ref sig .tc := ⟨.hbm, 153, rfl⟩
abbrev main_v102 : Ref sig .tc := ⟨.hbm, 154, rfl⟩
abbrev main_cst_44 : Ref sig .tc := ⟨.hbm, 155, rfl⟩
abbrev main_v103 : Ref sig .tc := ⟨.hbm, 156, rfl⟩
abbrev main_c_45 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_46 : Ref sig .tc := ⟨.hbm, 161, rfl⟩
abbrev main_v107 : Ref sig .tc := ⟨.hbm, 162, rfl⟩
abbrev main_v108 : Ref sig .tc := ⟨.hbm, 163, rfl⟩
abbrev main_cst_47 : Ref sig .tc := ⟨.hbm, 164, rfl⟩
abbrev main_v109 : Ref sig .tc := ⟨.hbm, 165, rfl⟩
abbrev main_c_48 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_49 : Ref sig .tc := ⟨.hbm, 170, rfl⟩
abbrev main_v113 : Ref sig .tc := ⟨.hbm, 171, rfl⟩
abbrev main_v114 : Ref sig .tc := ⟨.hbm, 172, rfl⟩
abbrev main_cst_50 : Ref sig .tc := ⟨.hbm, 173, rfl⟩
abbrev main_v115 : Ref sig .tc := ⟨.hbm, 174, rfl⟩
abbrev main_c_51 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_52 : Ref sig .tc := ⟨.hbm, 179, rfl⟩
abbrev main_v119 : Ref sig .tc := ⟨.hbm, 180, rfl⟩
abbrev main_v120 : Ref sig .tc := ⟨.hbm, 181, rfl⟩
abbrev main_cst_53 : Ref sig .tc := ⟨.hbm, 182, rfl⟩
abbrev main_v121 : Ref sig .tc := ⟨.hbm, 183, rfl⟩
abbrev main_c_54 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_55 : Ref sig .tc := ⟨.hbm, 188, rfl⟩
abbrev main_v125 : Ref sig .tc := ⟨.hbm, 189, rfl⟩
abbrev main_v126 : Ref sig .tc := ⟨.hbm, 190, rfl⟩
abbrev main_cst_56 : Ref sig .tc := ⟨.hbm, 191, rfl⟩
abbrev main_v127 : Ref sig .tc := ⟨.hbm, 192, rfl⟩
abbrev main_c_57 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S20x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S32x32768x3_S32x3x32768_0_2_1 : S32x32768x3.Transposes [0, 2, 1] S32x3x32768
  slices_S2x4_S1x4_0_0 : S2x4.Slices ![0, 0] S1x4
  shapeCasts_S1x4_S4 : S1x4.ShapeCasts S4
  bcast_S_S4 : S_.BroadcastsInDim S4 (![] : Fin 0 → Fin S4.rank)
  bcast_S_S64 : S_.BroadcastsInDim S64 (![] : Fin 0 → Fin S64.rank)
  bcast_S_S1 : S_.BroadcastsInDim S1 (![] : Fin 0 → Fin S1.rank)
  slices_S2x4_S1x4_1_0 : S2x4.Slices ![1, 0] S1x4
  bcast_S64_S1x64_1 : S64.BroadcastsInDim S1x64 (![1] : Fin 1 → Fin S1x64.rank)
  concatenates_S1x64_S1x64_S1x64_S1x64_S1x64_S1x64_S1x64_S1x64_S1x64_S1x64_S1x64_S1x64_S1x64_S1x64_S1x64_S1x64_S16x64_d0 : Shape.Concatenates [S1x64, S1x64, S1x64, S1x64, S1x64, S1x64, S1x64, S1x64, S1x64, S1x64, S1x64, S1x64, S1x64, S1x64, S1x64, S1x64] S16x64 0
  concatenates_S1x64_S1x64_S1x64_S1x64_S4x64_d0 : Shape.Concatenates [S1x64, S1x64, S1x64, S1x64] S4x64 0
  concatenates_S16x64_S4x64_S20x64_d0 : Shape.Concatenates [S16x64, S4x64] S20x64 0
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  slices_S3x8192_o0_0_S1x8192 : S3x8192.Slices ![0, 0] S1x8192
  shapeCasts_S1x8192_S8192 : S1x8192.ShapeCasts S8192
  slices_S3x8192_o1_0_S1x8192 : S3x8192.Slices ![1, 0] S1x8192
  slices_S3x8192_o2_0_S1x8192 : S3x8192.Slices ![2, 0] S1x8192
  shapeCasts_S8192_S1x8192 : S8192.ShapeCasts S1x8192
  concatenates_S1x8192_S1x8192_S1x8192_S1x8192_S1x8192_S1x8192_S1x8192_S1x8192_S1x8192_S1x8192_S1x8192_S1x8192_S1x8192_S1x8192_S1x8192_S1x8192_S1x8192_S1x8192_S1x8192_S1x8192_S20x8192_d0 : Shape.Concatenates [S1x8192, S1x8192, S1x8192, S1x8192, S1x8192, S1x8192, S1x8192, S1x8192, S1x8192, S1x8192, S1x8192, S1x8192, S1x8192, S1x8192, S1x8192, S1x8192, S1x8192, S1x8192, S1x8192, S1x8192] S20x8192 0
  inb_S20x64_S20x64_0_0 : ∀ a, (![0, 0] : Fin 2 → Nat) a + S20x64.size a ≤ S20x64.size a
  h_S20x64 : 0 < S20x64.numel
  shapeCasts_S20x64_S20x64 : S20x64.ShapeCasts S20x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  shapeCasts_S8192x64_S1x8192x64 : S8192x64.ShapeCasts S1x8192x64
  shapeCasts_S32x32768x64_S32x32768x16x4 : S32x32768x64.ShapeCasts S32x32768x16x4
  scatter_S64_S1_S4_0_n_0_0_wf : ScatterDims.WF S64 S1 S4 [0] [] [0] 0
  dot_S20x8192_S20x64_S8192x64_0_0_1_1_n_n_wf : DotDims.WF S20x8192 S20x64 S8192x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x8192.size a ≤ S32x3x32768.size a
  hwx0_0 : ∀ i : grid0.Coords, EltTy.bits .f32 = 32 ∨ (Rect.block (s := S32x3x32768) S1x3x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x64.size a ≤ S20x64.size a
  hwx0_1 : ∀ i : grid0.Coords, EltTy.bits .f32 = 32 ∨ (Rect.block (s := S20x64) S20x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x64.size a ≤ S32x32768x64.size a
  hwx0_2 : ∀ i : grid0.Coords, EltTy.bits .f32 = 32 ∨ (Rect.block (s := S32x32768x64) S1x8192x64.size (cc0_transform_2 i) (hinb0_2 i)).WholeWords (EltTy.packing .f32)

variable [Facts₀]

def scatter_S64_S1_S4_0_n_0_0 : ScatterDims S64 S1 S4 where
  updateWindowDims := [0]
  insertedWindowDims := []
  scatterDimsToOperandDims := [0]
  indexVectorDim := 0
  wf := scatter_S64_S1_S4_0_n_0_0_wf
def dot_S20x8192_S20x64_S8192x64_0_0_1_1_n_n : DotDims S20x8192 S20x64 S8192x64 where
  lhsContracting := [0]
  rhsContracting := [0]
  lhsNonContracting := [1]
  rhsNonContracting := [1]
  lhsBatch := []
  rhsBatch := []
  wf := dot_S20x8192_S20x64_S8192x64_0_0_1_1_n_n_wf

abbrev win0_0 : Pipeline.Window sig grid0 :=
  Pipeline.Window.ofSpec (Memref.whole main_v0) S1x3x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v152) S20x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v153) S1x8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x32768x3 : Shape := ⟨3, ![32, 32768, 3]⟩
abbrev S2x4 : Shape := ⟨2, ![2, 4]⟩
abbrev S4 : Shape := ⟨1, ![4]⟩
abbrev S1x4 : Shape := ⟨2, ![1, 4]⟩
abbrev S_ : Shape := ⟨0, ![]⟩
abbrev S32x32768 : Shape := ⟨2, ![32, 32768]⟩
abbrev S32x32768x1 : Shape := ⟨3, ![32, 32768, 1]⟩
abbrev S32x32768x5 : Shape := ⟨3, ![32, 32768, 5]⟩
abbrev S32x32768x7 : Shape := ⟨3, ![32, 32768, 7]⟩
abbrev S32x32768x1x1 : Shape := ⟨4, ![32, 32768, 1, 1]⟩
abbrev S32x32768x1x2 : Shape := ⟨4, ![32, 32768, 1, 2]⟩
abbrev S32x32768x3x1 : Shape := ⟨4, ![32, 32768, 3, 1]⟩
abbrev S32x32768x3x2 : Shape := ⟨4, ![32, 32768, 3, 2]⟩
abbrev S32x32768x5x1 : Shape := ⟨4, ![32, 32768, 5, 1]⟩
abbrev S32x32768x7x1 : Shape := ⟨4, ![32, 32768, 7, 1]⟩
abbrev S32x32768x1x4 : Shape := ⟨4, ![32, 32768, 1, 4]⟩
abbrev S1x1x1x4 : Shape := ⟨4, ![1, 1, 1, 4]⟩
abbrev S32x32768x3x4 : Shape := ⟨4, ![32, 32768, 3, 4]⟩
abbrev S32x32768x5x4 : Shape := ⟨4, ![32, 32768, 5, 4]⟩
abbrev S32x32768x7x4 : Shape := ⟨4, ![32, 32768, 7, 4]⟩
abbrev S32x32768x16x4 : Shape := ⟨4, ![32, 32768, 16, 4]⟩

abbrev nBuf : Space → Nat
  | .hbm => 161
  | .vmem => 0
  | .smem => 0
  | _ => 0

abbrev hbmTy0_0 (i : Nat) : BufTy := match i % 128 with
  | 0 => ⟨S32x32768x3, .f32⟩
  | 1 => ⟨S2x4, .f32⟩
  | 2 => ⟨S4, .f32⟩
  | 3 => ⟨S2x4, .f32⟩
  | 4 => ⟨S1x4, .f32⟩
  | 5 => ⟨S1x4, .f32⟩
  | 6 => ⟨S32x32768x3, .f32⟩
  | 7 => ⟨S_, .f32⟩
  | 8 => ⟨S32x32768, .f32⟩
  | 9 => ⟨S32x32768x1, .f32⟩
  | 10 => ⟨S32x32768, .f32⟩
  | 11 => ⟨S32x32768x1, .f32⟩
  | 12 => ⟨S32x32768, .f32⟩
  | 13 => ⟨S32x32768x1, .f32⟩
  | 14 => ⟨S32x32768, .f32⟩
  | 15 => ⟨S32x32768, .f32⟩
  | 16 => ⟨S32x32768, .f32⟩
  | 17 => ⟨S32x32768, .f32⟩
  | 18 => ⟨S_, .f32⟩
  | 19 => ⟨S32x32768x1, .f32⟩
  | 20 => ⟨S_, .f32⟩
  | 21 => ⟨S32x32768x1, .f32⟩
  | 22 => ⟨S32x32768x1, .f32⟩
  | 23 => ⟨S32x32768x1, .f32⟩
  | 24 => ⟨S32x32768x1, .f32⟩
  | 25 => ⟨S32x32768x1, .f32⟩
  | 26 => ⟨S32x32768x3, .f32⟩
  | 27 => ⟨S_, .f32⟩
  | 28 => ⟨S32x32768x3, .f32⟩
  | 29 => ⟨S32x32768x3, .f32⟩
  | 30 => ⟨S_, .f32⟩
  | 31 => ⟨S32x32768, .f32⟩
  | 32 => ⟨S32x32768, .f32⟩
  | 33 => ⟨S32x32768, .f32⟩
  | 34 => ⟨S_, .f32⟩
  | 35 => ⟨S32x32768, .f32⟩
  | 36 => ⟨S32x32768, .f32⟩
  | 37 => ⟨S32x32768, .f32⟩
  | 38 => ⟨S_, .f32⟩
  | 39 => ⟨S32x32768, .f32⟩
  | 40 => ⟨S32x32768, .f32⟩
  | 41 => ⟨S32x32768, .f32⟩
  | 42 => ⟨S32x32768, .f32⟩
  | 43 => ⟨S_, .f32⟩
  | 44 => ⟨S32x32768, .f32⟩
  | 45 => ⟨S32x32768, .f32⟩
  | 46 => ⟨S_, .f32⟩
  | 47 => ⟨S32x32768, .f32⟩
  | 48 => ⟨S32x32768, .f32⟩
  | 49 => ⟨S32x32768, .f32⟩
  | 50 => ⟨S32x32768, .f32⟩
  | 51 => ⟨S_, .f32⟩
  | 52 => ⟨S32x32768, .f32⟩
  | 53 => ⟨S32x32768, .f32⟩
  | 54 => ⟨S32x32768x1, .f32⟩
  | 55 => ⟨S32x32768x1, .f32⟩
  | 56 => ⟨S32x32768x1, .f32⟩
  | 57 => ⟨S32x32768x1, .f32⟩
  | 58 => ⟨S32x32768x1, .f32⟩
  | 59 => ⟨S32x32768x5, .f32⟩
  | 60 => ⟨S_, .f32⟩
  | 61 => ⟨S32x32768, .f32⟩
  | 62 => ⟨S32x32768, .f32⟩
  | 63 => ⟨S_, .f32⟩
  | 64 => ⟨S32x32768, .f32⟩
  | 65 => ⟨S32x32768, .f32⟩
  | 66 => ⟨S32x32768, .f32⟩
  | 67 => ⟨S32x32768, .f32⟩
  | 68 => ⟨S_, .f32⟩
  | 69 => ⟨S32x32768, .f32⟩
  | 70 => ⟨S32x32768, .f32⟩
  | 71 => ⟨S32x32768, .f32⟩
  | 72 => ⟨S32x32768, .f32⟩
  | 73 => ⟨S_, .f32⟩
  | 74 => ⟨S32x32768, .f32⟩
  | 75 => ⟨S32x32768, .f32⟩
  | 76 => ⟨S_, .f32⟩
  | 77 => ⟨S32x32768, .f32⟩
  | 78 => ⟨S32x32768, .f32⟩
  | 79 => ⟨S32x32768, .f32⟩
  | 80 => ⟨S32x32768, .f32⟩
  | 81 => ⟨S32x32768, .f32⟩
  | 82 => ⟨S_, .f32⟩
  | 83 => ⟨S32x32768, .f32⟩
  | 84 => ⟨S32x32768, .f32⟩
  | 85 => ⟨S_, .f32⟩
  | 86 => ⟨S32x32768, .f32⟩
  | 87 => ⟨S32x32768, .f32⟩
  | 88 => ⟨S_, .f32⟩
  | 89 => ⟨S32x32768, .f32⟩
  | 90 => ⟨S32x32768, .f32⟩
  | 91 => ⟨S32x32768, .f32⟩
  | 92 => ⟨S_, .f32⟩
  | 93 => ⟨S32x32768, .f32⟩
  | 94 => ⟨S32x32768, .f32⟩
  | 95 => ⟨S32x32768, .f32⟩
  | 96 => ⟨S32x32768, .f32⟩
  | 97 => ⟨S_, .f32⟩
  | 98 => ⟨S32x32768, .f32⟩
  | 99 => ⟨S32x32768, .f32⟩
  | 100 => ⟨S_, .f32⟩
  | 101 => ⟨S32x32768, .f32⟩
  | 102 => ⟨S32x32768, .f32⟩
  | 103 => ⟨S32x32768, .f32⟩
  | 104 => ⟨S32x32768, .f32⟩
  | 105 => ⟨S32x32768, .f32⟩
  | 106 => ⟨S_, .f32⟩
  | 107 => ⟨S32x32768, .f32⟩
  | 108 => ⟨S32x32768, .f32⟩
  | 109 => ⟨S32x32768, .f32⟩
  | 110 => ⟨S32x32768, .f32⟩
  | 111 => ⟨S_, .f32⟩
  | 112 => ⟨S32x32768, .f32⟩
  | 113 => ⟨S32x32768, .f32⟩
  | 114 => ⟨S_, .f32⟩
  | 115 => ⟨S32x32768, .f32⟩
  | 116 => ⟨S32x32768, .f32⟩
  | 117 => ⟨S32x32768, .f32⟩
  | 118 => ⟨S32x32768, .f32⟩
  | 119 => ⟨S32x32768x1, .f32⟩
  | 120 => ⟨S32x32768x1, .f32⟩
  | 121 => ⟨S32x32768x1, .f32⟩
  | 122 => ⟨S32x32768x1, .f32⟩
  | 123 => ⟨S32x32768x1, .f32⟩
  | 124 => ⟨S32x32768x1, .f32⟩
  | 125 => ⟨S32x32768x1, .f32⟩
  | 126 => ⟨S32x32768x7, .f32⟩
  | 127 => ⟨S_, .f32⟩
  | _ => ⟨S32x32768x3, .f32⟩

abbrev hbmTy0_1 (i : Nat) : BufTy := match i % 128 with
  | 0 => ⟨S32x32768, .f32⟩
  | 1 => ⟨S32x32768x1, .f32⟩
  | 2 => ⟨S32x32768x1, .f32⟩
  | 3 => ⟨S32x32768x1, .f32⟩
  | 4 => ⟨S32x32768x1, .f32⟩
  | 5 => ⟨S32x32768x1x1, .f32⟩
  | 6 => ⟨S32x32768x1x1, .f32⟩
  | 7 => ⟨S32x32768x1x2, .f32⟩
  | 8 => ⟨S32x32768x1, .f32⟩
  | 9 => ⟨S32x32768x3, .f32⟩
  | 10 => ⟨S32x32768x3, .f32⟩
  | 11 => ⟨S32x32768x1, .f32⟩
  | 12 => ⟨S32x32768x3, .f32⟩
  | 13 => ⟨S32x32768x3, .f32⟩
  | 14 => ⟨S32x32768x3x1, .f32⟩
  | 15 => ⟨S32x32768x3x1, .f32⟩
  | 16 => ⟨S32x32768x3x2, .f32⟩
  | 17 => ⟨S32x32768x1, .f32⟩
  | 18 => ⟨S32x32768x5, .f32⟩
  | 19 => ⟨S32x32768x5, .f32⟩
  | 20 => ⟨S32x32768x5x1, .f32⟩
  | 21 => ⟨S32x32768x1, .f32⟩
  | 22 => ⟨S32x32768x7, .f32⟩
  | 23 => ⟨S32x32768x7, .f32⟩
  | 24 => ⟨S32x32768x7x1, .f32⟩
  | 25 => ⟨S32x32768x1x4, .f32⟩
  | 26 => ⟨S1x1x1x4, .f32⟩
  | 27 => ⟨S32x32768x1x4, .f32⟩
  | 28 => ⟨S32x32768x1x4, .f32⟩
  | 29 => ⟨S32x32768x3x4, .f32⟩
  | 30 => ⟨S32x32768x5x4, .f32⟩
  | 31 => ⟨S32x32768x7x4, .f32⟩
  | 32 => ⟨S32x32768x16x4, .f32⟩
  | _ => ⟨S32x32768x3, .f32⟩

abbrev hbmTy (i : Nat) : BufTy := match i / 128 with
  | 0 => hbmTy0_0 i
  | 1 => hbmTy0_1 i
  | _ => ⟨S32x32768x3, .f32⟩

abbrev bufTy : (tb : Table) → Fin (tcTables nBuf tb) → BufTy
  | .hbm, ⟨i, _⟩ => hbmTy i
  | _, _ => ⟨S32x32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_20 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_21 : Ref sig .tc := ⟨.hbm, 111, rfl⟩
abbrev main_v83 : Ref sig .tc := ⟨.hbm, 112, rfl⟩
abbrev main_v84 : Ref sig .tc := ⟨.hbm, 113, rfl⟩
abbrev main_cst_22 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_23 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩

abbrev nD : Nat := 1
abbrev τ : Topo := Topo.v7x

variable {F : FTy → Type} [FloatOps F]

class Facts₀ : Prop where
  reducesTo_S32x32768x3_S32x32768_d2 : S32x32768x3.ReducesTo [2] S32x32768
  h_S_ : 0 < S_.numel
  slices_S32x32768x3_S32x32768x1_0_0_0 : S32x32768x3.Slices ![0, 0, 0] S32x32768x1
  shapeCasts_S32x32768x1_S32x32768 : S32x32768x1.ShapeCasts S32x32768
  slices_S32x32768x3_S32x32768x1_0_0_1 : S32x32768x3.Slices ![0, 0, 1] S32x32768x1
  slices_S32x32768x3_S32x32768x1_0_0_2 : S32x32768x3.Slices ![0, 0, 2] S32x32768x1
  bcast_S_S32x32768x1 : S_.BroadcastsInDim S32x32768x1 (![] : Fin 0 → Fin S32x32768x1.rank)
  bcast_S32x32768_S32x32768x1_0_1 : S32x32768.BroadcastsInDim S32x32768x1 (![0, 1] : Fin 2 → Fin S32x32768x1.rank)
  concatenates_S32x32768x1_S32x32768x1_S32x32768x1_S32x32768x3_d2 : Shape.Concatenates [S32x32768x1, S32x32768x1, S32x32768x1] S32x32768x3 2
  bcast_S_S32x32768x3 : S_.BroadcastsInDim S32x32768x3 (![] : Fin 0 → Fin S32x32768x3.rank)
  bcast_S_S32x32768 : S_.BroadcastsInDim S32x32768 (![] : Fin 0 → Fin S32x32768.rank)
  concatenates_S32x32768x1_S32x32768x1_S32x32768x1_S32x32768x1_S32x32768x1_S32x32768x5_d2 : Shape.Concatenates [S32x32768x1, S32x32768x1, S32x32768x1, S32x32768x1, S32x32768x1] S32x32768x5 2
  concatenates_S32x32768x1_S32x32768x1_S32x32768x1_S32x32768x1_S32x32768x1_S32x32768x1_S32x32768x1_S32x32768x7_d2 : Shape.Concatenates [S32x32768x1, S32x32768x1, S32x32768x1, S32x32768x1, S32x32768x1, S32x32768x1, S32x32768x1] S32x32768x7 2
  bcast_S32x32768x1_S32x32768x1x1_0_1_2 : S32x32768x1.BroadcastsInDim S32x32768x1x1 (![0, 1, 2] : Fin 3 → Fin S32x32768x1x1.rank)
  concatenates_S32x32768x1x1_S32x32768x1x1_S32x32768x1x2_d3 : Shape.Concatenates [S32x32768x1x1, S32x32768x1x1] S32x32768x1x2 3
  bcast_S32x32768x1_S32x32768x3_0_1_2 : S32x32768x1.BroadcastsInDim S32x32768x3 (![0, 1, 2] : Fin 3 → Fin S32x32768x3.rank)
  bcast_S32x32768x3_S32x32768x3x1_0_1_2 : S32x32768x3.BroadcastsInDim S32x32768x3x1 (![0, 1, 2] : Fin 3 → Fin S32x32768x3x1.rank)
  concatenates_S32x32768x3x1_S32x32768x3x1_S32x32768x3x2_d3 : Shape.Concatenates [S32x32768x3x1, S32x32768x3x1] S32x32768x3x2 3
  bcast_S32x32768x1_S32x32768x5_0_1_2 : S32x32768x1.BroadcastsInDim S32x32768x5 (![0, 1, 2] : Fin 3 → Fin S32x32768x5.rank)
  bcast_S32x32768x5_S32x32768x5x1_0_1_2 : S32x32768x5.BroadcastsInDim S32x32768x5x1 (![0, 1, 2] : Fin 3 → Fin S32x32768x5x1.rank)
  bcast_S32x32768x1_S32x32768x7_0_1_2 : S32x32768x1.BroadcastsInDim S32x32768x7 (![0, 1, 2] : Fin 3 → Fin S32x32768x7.rank)
  bcast_S32x32768x7_S32x32768x7x1_0_1_2 : S32x32768x7.BroadcastsInDim S32x32768x7x1 (![0, 1, 2] : Fin 3 → Fin S32x32768x7x1.rank)
  bcast_S4_S1x1x1x4_3 : S4.BroadcastsInDim S1x1x1x4 (![3] : Fin 1 → Fin S1x1x1x4.rank)
  bcast_S1x1x1x4_S32x32768x1x4_0_1_2_3 : S1x1x1x4.BroadcastsInDim S32x32768x1x4 (![0, 1, 2, 3] : Fin 4 → Fin S32x32768x1x4.rank)
  concatenates_S32x32768x1x4_S32x32768x3x4_S32x32768x5x4_S32x32768x7x4_S32x32768x16x4_d2 : Shape.Concatenates [S32x32768x1x4, S32x32768x3x4, S32x32768x5x4, S32x32768x7x4] S32x32768x16x4 2
  dot_S32x32768x1x2_S2x4_S32x32768x1x4_3_0_012_1_n_n_wf : DotDims.WF S32x32768x1x2 S2x4 S32x32768x1x4 [3] [0] [0, 1, 2] [1] [] []
  dot_S32x32768x3x2_S2x4_S32x32768x3x4_3_0_012_1_n_n_wf : DotDims.WF S32x32768x3x2 S2x4 S32x32768x3x4 [3] [0] [0, 1, 2] [1] [] []
  dot_S32x32768x5x1_S1x4_S32x32768x5x4_3_0_012_1_n_n_wf : DotDims.WF S32x32768x5x1 S1x4 S32x32768x5x4 [3] [0] [0, 1, 2] [1] [] []
  dot_S32x32768x7x1_S1x4_S32x32768x7x4_3_0_012_1_n_n_wf : DotDims.WF S32x32768x7x1 S1x4 S32x32768x7x4 [3] [0] [0, 1, 2] [1] [] []

variable [Facts₀]

def dot_S32x32768x1x2_S2x4_S32x32768x1x4_3_0_012_1_n_n : DotDims S32x32768x1x2 S2x4 S32x32768x1x4 where
  lhsContracting := [3]
  rhsContracting := [0]
  lhsNonContracting := [0, 1, 2]
  rhsNonContracting := [1]
  lhsBatch := []
  rhsBatch := []
  wf := dot_S32x32768x1x2_S2x4_S32x32768x1x4_3_0_012_1_n_n_wf
def dot_S32x32768x3x2_S2x4_S32x32768x3x4_3_0_012_1_n_n : DotDims S32x32768x3x2 S2x4 S32x32768x3x4 where
  lhsContracting := [3]
  rhsContracting := [0]
  lhsNonContracting := [0, 1, 2]
  rhsNonContracting := [1]
  lhsBatch := []
  rhsBatch := []
  wf := dot_S32x32768x3x2_S2x4_S32x32768x3x4_3_0_012_1_n_n_wf
def dot_S32x32768x5x1_S1x4_S32x32768x5x4_3_0_012_1_n_n : DotDims S32x32768x5x1 S1x4 S32x32768x5x4 where
  lhsContracting := [3]
  rhsContracting := [0]
  lhsNonContracting := [0, 1, 2]
  rhsNonContracting := [1]
  lhsBatch := []
  rhsBatch := []
  wf := dot_S32x32768x5x1_S1x4_S32x32768x5x4_3_0_012_1_n_n_wf
def dot_S32x32768x7x1_S1x4_S32x32768x7x4_3_0_012_1_n_n : DotDims S32x32768x7x1 S1x4 S32x32768x7x4 where
  lhsContracting := [3]
  rhsContracting := [0]
  lhsNonContracting := [0, 1, 2]
  rhsNonContracting := [1]
  lhsBatch := []
  rhsBatch := []
  wf := dot_S32x32768x7x1_S1x4_S32x32768x7x4_3_0_012_1_n_n_wf

class Facts : Prop extends Facts₀ where

variable [Facts]
-- ==== Proof.FrameWord.lean ====
/-
  The frame of `Kernel`'s @main, written against the pipeline library's launch theorems.

  @main is a stretch of host operations (the transpose of the points to [32, 3, 32768] and the folding of the five
  weight arrays into one 20 x 64 matrix, row by row), ONE region over a 32 x 4 grid, and one closing reshape of the
  region's result [32, 32768, 64] to [32, 32768, 16, 4].

  At a grid point the body loads its block [1, 3, 8192] of the transposed points and the whole 20 x 64 matrix, forms the
  twenty polynomial feature rows, contracts them with the matrix, and stores the [1, 8192, 64] result block whole.
  So after the body the output's staging buffer holds ONE piece — the payload of that store over the two loaded
  blocks (`outBlock`) — and the two inputs' buffers hold their blocks as before. Nothing is kept between points.
  The argument arrays are written by no host operation and staged by no output window, so they end as launched.

  Everything here holds at any float instance `F`.
-/
import proofs.«118229_j8839042695322_2_alg».proof.Proof.Gen.Kernel.Launch
import proofs.«118229_j8839042695322_2_alg».proof.Proof.Gen.Kernel.Skeleton
import proofs.«118229_j8839042695322_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- No host operation before the region allocates. -/
theorem pre_fresh : (hostOps0 : List (HloOp τ sig (Elt F))).Forall fun op => op.fresh = ∅ := by
  simp only [List.Forall]; repeat' constructor
/-- Nor does the closing reshape. -/
theorem post_fresh : (hostOps1 : List (HloOp τ sig (Elt F))).Forall fun op => op.fresh = ∅ := by
  simp only [List.Forall]; repeat' constructor

/-- @main is the host stretch, the region, then the closing reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The closing reshape touches unscoped TensorCore references only, -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem post_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- and writes only its own result, which no window stages. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The argument arrays -/

set_option maxHeartbeats 8000000 in
/-- No host operation before the region writes an argument array: each writes only its own result buffer. -/
theorem pre_keeps_args : (hostOps0 : List (HloOp τ sig (Elt F))).Forall fun op =>
    Proc.devRef .tc main_arg0 ∉ op.writes ∧ Proc.devRef .tc main_arg1 ∉ op.writes ∧ Proc.devRef .tc main_arg2 ∉ op.writes
    ∧ Proc.devRef .tc main_arg3 ∉ op.writes ∧ Proc.devRef .tc main_arg4 ∉ op.writes ∧ Proc.devRef .tc main_arg5 ∉ op.writes := by
  simp only [hostOps0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)

/-- So the region finds each argument array as launched. -/
theorem V_arg (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using hb))

theorem V_main_arg0 (c : Dev nD) : V m c main_arg0 = m ((c : Thread nD τ).loc main_arg0) :=
  V_arg m c main_arg0 (List.Forall.imp (fun _ h => h.1) pre_keeps_args)
theorem V_main_arg1 (c : Dev nD) : V m c main_arg1 = m ((c : Thread nD τ).loc main_arg1) :=
  V_arg m c main_arg1 (List.Forall.imp (fun _ h => h.2.1) pre_keeps_args)
theorem V_main_arg2 (c : Dev nD) : V m c main_arg2 = m ((c : Thread nD τ).loc main_arg2) :=
  V_arg m c main_arg2 (List.Forall.imp (fun _ h => h.2.2.1) pre_keeps_args)
theorem V_main_arg3 (c : Dev nD) : V m c main_arg3 = m ((c : Thread nD τ).loc main_arg3) :=
  V_arg m c main_arg3 (List.Forall.imp (fun _ h => h.2.2.2.1) pre_keeps_args)
theorem V_main_arg4 (c : Dev nD) : V m c main_arg4 = m ((c : Thread nD τ).loc main_arg4) :=
  V_arg m c main_arg4 (List.Forall.imp (fun _ h => h.2.2.2.2.1) pre_keeps_args)
theorem V_main_arg5 (c : Dev nD) : V m c main_arg5 = m ((c : Thread nD τ).loc main_arg5) :=
  V_arg m c main_arg5 (List.Forall.imp (fun _ h => h.2.2.2.2.2) pre_keeps_args)

/-- The closing reshape writes no argument array and no window stages one: an argument ends as the region found it. -/
theorem W_arg (dats : (p : Fin _) → (c : Dev nD) → Dat τ (Elt F) Unit ℕ (UR sig nD τ) ℕ (cfgs p) c) (c : Dev nD) (b : Ref sig .tc)
    (hb : b ≠ main_v154) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved): the points window, fetched at every point, -/
theorem before_points {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and the matrix window, fetched once. -/
theorem before_matrix {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post — every array of
    the pipeline at what the proof data computes, every other unscoped buffer as the closing reshape leaves it — leaves
    the six argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans
        ((W_arg m dats c main_arg0 (by decide) (by decide)).trans (V_main_arg0 m c)),
     ((h c).2 main_arg1 (Pipeline.mem_restRefs_of main_arg1 (by decide) (by decide))).trans
        ((W_arg m dats c main_arg1 (by decide) (by decide)).trans (V_main_arg1 m c)),
     ((h c).2 main_arg2 (Pipeline.mem_restRefs_of main_arg2 (by decide) (by decide))).trans
        ((W_arg m dats c main_arg2 (by decide) (by decide)).trans (V_main_arg2 m c)),
     ((h c).2 main_arg3 (Pipeline.mem_restRefs_of main_arg3 (by decide) (by decide))).trans
        ((W_arg m dats c main_arg3 (by decide) (by decide)).trans (V_main_arg3 m c)),
     ((h c).2 main_arg4 (Pipeline.mem_restRefs_of main_arg4 (by decide) (by decide))).trans
        ((W_arg m dats c main_arg4 (by decide) (by decide)).trans (V_main_arg4 m c)),
     ((h c).2 main_arg5 (Pipeline.mem_restRefs_of main_arg5 (by decide) (by decide))).trans
        ((W_arg m dats c main_arg5 (by decide) (by decide)).trans (V_main_arg5 m c))⟩) h

/-! ## The body's accesses and what it leaves -/

abbrev rPts : Rect S1x3x8192 := Rect.unit (s := S1x3x8192) ![0, 0, 0] S1x3x8192.size Gen.inb_S1x3x8192_S1x3x8192_0_0_0
abbrev rMat : Rect S20x64 := Rect.unit (s := S20x64) ![0, 0] S20x64.size Gen.inb_S20x64_S20x64_0_0
abbrev rOut : Rect S1x8192x64 := Rect.unit (s := S1x8192x64) ![0, 0, 0] S1x8192x64.size Gen.inb_S1x8192x64_S1x8192x64_0_0_0

/-- The twenty feature rows [20, 8192] of a loaded block of points: the rows 1, n2, py, pz, px, n2·py, n2·pz, n2·px,
    the five degree-2 and the seven degree-3 polynomials, stacked. -/
def feats (v0 : Vec F S1x3x8192 .f32) : FVec F S20x8192 .f32 :=
  k0_pay4 (k0_pay7 v0) (k0_pay8 v0) (k0_pay9 v0) (k0_pay13 v0) (k0_pay14 (F := F)) (k0_pay15 v0) (k0_pay16 v0) (k0_pay17 v0)
    (k0_pay18 v0) (k0_pay19 v0) (k0_pay20 v0) (k0_pay21 v0) (k0_pay22 v0) (k0_pay23 v0) (k0_pay24 v0) (k0_pay25 v0) (k0_pay26 v0)
    (k0_pay1 (k0_pay7 v0) (k0_pay10 v0) (k0_pay11 v0) (k0_pay27 v0)) (k0_pay2 (k0_pay9 v0) (k0_pay10 v0) (k0_pay11 v0))
    (k0_pay3 (k0_pay7 v0) (k0_pay10 v0) (k0_pay11 v0))

/-- The output's staging buffer after the body, from the two input blocks: its one store, of the features contracted
    with the matrix, covering the block. -/
def outBlock (x0 : Vec F S1x3x8192 .f32) (x1 : Vec F S20x64 .f32) : Vec F S1x8192x64 .f32 :=
  View.canon [⟨rOut, k0_pay5 (feats (View.ld x0 rPts)) (View.ld x1 rMat)⟩]

/-- The one store covers the block. -/
theorem cover_out (p0 : Vec F S1x8192x64 .f32) (y : S1x8192x64.Idx) :
    ∃ pc ∈ ([⟨rOut, p0⟩] : List (View.Piece (Elt F) S1x8192x64 .f32)), y ∈ pc.1.set :=
  View.cover_of_tiled [⟨rOut, p0⟩] S1x8192x64.size (by rfl) y

/-! ## The body's triple -/

set_option maxHeartbeats 4000000 in
/-- The body on whole staging memrefs — the two inputs' at read contents, the output's at anything — runs to the
    continuation holding the inputs' as they were and the output's at `outBlock` of them. -/
theorem sound_kernel (c : Dev nD) (E : Set ℕ) (i : grid0.Coords) (arg2 : Memref sig .tc .vmem S1x3x8192 .f32) (harg2 : arg2.IsWhole)
    (arg3 : Memref sig .tc .vmem S20x64 .f32) (harg3 : arg3.IsWhole) (arg4 : Memref sig .tc .vmem S1x8192x64 .f32) (harg4 : arg4.IsWhole)
    (x0 : Vec F S1x3x8192 .f32) (x1 : Vec F S20x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlock x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover_out _)

/-! ## The pipeline's proof data -/

/-- On core `c`: the arrays as the region finds them; after the body at point `t` each input's buffer at its block and
    the output's at `outBlock` of the two input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_points (c : Dev nD) (t : Fin cfg0.N) : (dats m 0 c).after 0 t = iblk m c 0 t := by dsimp only [dats]
theorem after_matrix (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before_points m (dats m 0 c) (A_eq m c 0) (after_points m c) t d
theorem before1 (c : Dev nD) (t : Fin cfg0.N) (d) : (dats m 0 c).before 1 t d = iblk m c 1 t :=
  before_matrix m (dats m 0 c) (A_eq m c 1) (after_matrix m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after_points, after_matrix, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the library computes from the proof data and every other unscoped buffer as the closing reshape
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := post_sub) (hfresh := post_fresh') (hkeep := post_keeps)
    (hmain := hmain m Variants.none) (hA := A_eq m) (hΦ := fun _ _ => rfl)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Frame

end
-- ==== Proof.FrameIdeal.lean ====
/-
  The frame of `KernelIdeal`'s @main, written against the pipeline library's launch theorems.

  @main is a stretch of host operations (the transpose of the points to [32, 3, 32768] and the folding of the five
  weight arrays into one 20 x 64 matrix, row by row), ONE region over a 32 x 4 grid, and one closing reshape of the
  region's result [32, 32768, 64] to [32, 32768, 16, 4].

  At a grid point the body loads its block [1, 3, 8192] of the transposed points and the whole 20 x 64 matrix, forms the
  twenty polynomial feature rows, contracts them with the matrix, and stores the [1, 8192, 64] result block whole.
  So after the body the output's staging buffer holds ONE piece — the payload of that store over the two loaded
  blocks (`outBlock`) — and the two inputs' buffers hold their blocks as before. Nothing is kept between points.
  The argument arrays are written by no host operation and staged by no output window, so they end as launched.

  Everything here holds at any float instance `F`.
-/
import proofs.«118229_j8839042695322_2_alg».proof.Proof.Gen.KernelIdeal.Launch
import proofs.«118229_j8839042695322_2_alg».proof.Proof.Gen.KernelIdeal.Skeleton
import proofs.«118229_j8839042695322_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- No host operation before the region allocates. -/
theorem pre_fresh : (hostOps0 : List (HloOp τ sig (Elt F))).Forall fun op => op.fresh = ∅ := by
  simp only [List.Forall]; repeat' constructor
/-- Nor does the closing reshape. -/
theorem post_fresh : (hostOps1 : List (HloOp τ sig (Elt F))).Forall fun op => op.fresh = ∅ := by
  simp only [List.Forall]; repeat' constructor

/-- @main is the host stretch, the region, then the closing reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The closing reshape touches unscoped TensorCore references only, -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem post_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- and writes only its own result, which no window stages. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The argument arrays -/

set_option maxHeartbeats 8000000 in
/-- No host operation before the region writes an argument array: each writes only its own result buffer. -/
theorem pre_keeps_args : (hostOps0 : List (HloOp τ sig (Elt F))).Forall fun op =>
    Proc.devRef .tc main_arg0 ∉ op.writes ∧ Proc.devRef .tc main_arg1 ∉ op.writes ∧ Proc.devRef .tc main_arg2 ∉ op.writes
    ∧ Proc.devRef .tc main_arg3 ∉ op.writes ∧ Proc.devRef .tc main_arg4 ∉ op.writes ∧ Proc.devRef .tc main_arg5 ∉ op.writes := by
  simp only [hostOps0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)

/-- So the region finds each argument array as launched. -/
theorem V_arg (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using hb))

theorem V_main_arg0 (c : Dev nD) : V m c main_arg0 = m ((c : Thread nD τ).loc main_arg0) :=
  V_arg m c main_arg0 (List.Forall.imp (fun _ h => h.1) pre_keeps_args)
theorem V_main_arg1 (c : Dev nD) : V m c main_arg1 = m ((c : Thread nD τ).loc main_arg1) :=
  V_arg m c main_arg1 (List.Forall.imp (fun _ h => h.2.1) pre_keeps_args)
theorem V_main_arg2 (c : Dev nD) : V m c main_arg2 = m ((c : Thread nD τ).loc main_arg2) :=
  V_arg m c main_arg2 (List.Forall.imp (fun _ h => h.2.2.1) pre_keeps_args)
theorem V_main_arg3 (c : Dev nD) : V m c main_arg3 = m ((c : Thread nD τ).loc main_arg3) :=
  V_arg m c main_arg3 (List.Forall.imp (fun _ h => h.2.2.2.1) pre_keeps_args)
theorem V_main_arg4 (c : Dev nD) : V m c main_arg4 = m ((c : Thread nD τ).loc main_arg4) :=
  V_arg m c main_arg4 (List.Forall.imp (fun _ h => h.2.2.2.2.1) pre_keeps_args)
theorem V_main_arg5 (c : Dev nD) : V m c main_arg5 = m ((c : Thread nD τ).loc main_arg5) :=
  V_arg m c main_arg5 (List.Forall.imp (fun _ h => h.2.2.2.2.2) pre_keeps_args)

/-- The closing reshape writes no argument array and no window stages one: an argument ends as the region found it. -/
theorem W_arg (dats : (p : Fin _) → (c : Dev nD) → Dat τ (Elt F) Unit ℕ (UR sig nD τ) ℕ (cfgs p) c) (c : Dev nD) (b : Ref sig .tc)
    (hb : b ≠ main_v154) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved): the points window, fetched at every point, -/
theorem before_points {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and the matrix window, fetched once. -/
theorem before_matrix {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post — every array of
    the pipeline at what the proof data computes, every other unscoped buffer as the closing reshape leaves it — leaves
    the six argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans
        ((W_arg m dats c main_arg0 (by decide) (by decide)).trans (V_main_arg0 m c)),
     ((h c).2 main_arg1 (Pipeline.mem_restRefs_of main_arg1 (by decide) (by decide))).trans
        ((W_arg m dats c main_arg1 (by decide) (by decide)).trans (V_main_arg1 m c)),
     ((h c).2 main_arg2 (Pipeline.mem_restRefs_of main_arg2 (by decide) (by decide))).trans
        ((W_arg m dats c main_arg2 (by decide) (by decide)).trans (V_main_arg2 m c)),
     ((h c).2 main_arg3 (Pipeline.mem_restRefs_of main_arg3 (by decide) (by decide))).trans
        ((W_arg m dats c main_arg3 (by decide) (by decide)).trans (V_main_arg3 m c)),
     ((h c).2 main_arg4 (Pipeline.mem_restRefs_of main_arg4 (by decide) (by decide))).trans
        ((W_arg m dats c main_arg4 (by decide) (by decide)).trans (V_main_arg4 m c)),
     ((h c).2 main_arg5 (Pipeline.mem_restRefs_of main_arg5 (by decide) (by decide))).trans
        ((W_arg m dats c main_arg5 (by decide) (by decide)).trans (V_main_arg5 m c))⟩) h

/-! ## The body's accesses and what it leaves -/

abbrev rPts : Rect S1x3x8192 := Rect.unit (s := S1x3x8192) ![0, 0, 0] S1x3x8192.size Gen.inb_S1x3x8192_S1x3x8192_0_0_0
abbrev rMat : Rect S20x64 := Rect.unit (s := S20x64) ![0, 0] S20x64.size Gen.inb_S20x64_S20x64_0_0
abbrev rOut : Rect S1x8192x64 := Rect.unit (s := S1x8192x64) ![0, 0, 0] S1x8192x64.size Gen.inb_S1x8192x64_S1x8192x64_0_0_0

/-- The twenty feature rows [20, 8192] of a loaded block of points: the rows 1, n2, py, pz, px, n2·py, n2·pz, n2·px,
    the five degree-2 and the seven degree-3 polynomials, stacked. -/
def feats (v0 : Vec F S1x3x8192 .f32) : FVec F S20x8192 .f32 :=
  k0_pay4 (k0_pay7 v0) (k0_pay8 v0) (k0_pay9 v0) (k0_pay13 v0) (k0_pay14 (F := F)) (k0_pay15 v0) (k0_pay16 v0) (k0_pay17 v0)
    (k0_pay18 v0) (k0_pay19 v0) (k0_pay20 v0) (k0_pay21 v0) (k0_pay22 v0) (k0_pay23 v0) (k0_pay24 v0) (k0_pay25 v0) (k0_pay26 v0)
    (k0_pay1 (k0_pay7 v0) (k0_pay10 v0) (k0_pay11 v0) (k0_pay27 v0)) (k0_pay2 (k0_pay9 v0) (k0_pay10 v0) (k0_pay11 v0))
    (k0_pay3 (k0_pay7 v0) (k0_pay10 v0) (k0_pay11 v0))

/-- The output's staging buffer after the body, from the two input blocks: its one store, of the features contracted
    with the matrix, covering the block. -/
def outBlock (x0 : Vec F S1x3x8192 .f32) (x1 : Vec F S20x64 .f32) : Vec F S1x8192x64 .f32 :=
  View.canon [⟨rOut, k0_pay5 (feats (View.ld x0 rPts)) (View.ld x1 rMat)⟩]

/-- The one store covers the block. -/
theorem cover_out (p0 : Vec F S1x8192x64 .f32) (y : S1x8192x64.Idx) :
    ∃ pc ∈ ([⟨rOut, p0⟩] : List (View.Piece (Elt F) S1x8192x64 .f32)), y ∈ pc.1.set :=
  View.cover_of_tiled [⟨rOut, p0⟩] S1x8192x64.size (by rfl) y

/-! ## The body's triple -/

set_option maxHeartbeats 4000000 in
/-- The body on whole staging memrefs — the two inputs' at read contents, the output's at anything — runs to the
    continuation holding the inputs' as they were and the output's at `outBlock` of them. -/
theorem sound_kernel (c : Dev nD) (E : Set ℕ) (i : grid0.Coords) (arg2 : Memref sig .tc .vmem S1x3x8192 .f32) (harg2 : arg2.IsWhole)
    (arg3 : Memref sig .tc .vmem S20x64 .f32) (harg3 : arg3.IsWhole) (arg4 : Memref sig .tc .vmem S1x8192x64 .f32) (harg4 : arg4.IsWhole)
    (x0 : Vec F S1x3x8192 .f32) (x1 : Vec F S20x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlock x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover_out _)

/-! ## The pipeline's proof data -/

/-- On core `c`: the arrays as the region finds them; after the body at point `t` each input's buffer at its block and
    the output's at `outBlock` of the two input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_points (c : Dev nD) (t : Fin cfg0.N) : (dats m 0 c).after 0 t = iblk m c 0 t := by dsimp only [dats]
theorem after_matrix (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before0 (c : Dev nD) (t : Fin cfg0.N) (d) : (dats m 0 c).before 0 t d = iblk m c 0 t :=
  before_points m (dats m 0 c) (A_eq m c 0) (after_points m c) t d
theorem before1 (c : Dev nD) (t : Fin cfg0.N) (d) : (dats m 0 c).before 1 t d = iblk m c 1 t :=
  before_matrix m (dats m 0 c) (A_eq m c 1) (after_matrix m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after_points, after_matrix, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the library computes from the proof data and every other unscoped buffer as the closing reshape
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := post_sub) (hfresh := post_fresh') (hkeep := post_keeps)
    (hmain := hmain m Variants.none) (hA := A_eq m) (hΦ := fun _ _ => rfl)

/-- The frame: the program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Frame

end
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.KBody.lean ====
/-
  The body's arithmetic read at an index, at the ideal values.

  A loaded block of points is [1, 3, 8192]: coordinate a of point r sits at (0, a, r). The body stacks twenty rows of
  8192 numbers — 1, n2, py, pz, px, n2·py, n2·pz, n2·px, five quadratics and seven cubics of the point — and contracts the
  stack's FIRST axis with the FIRST axis of the 20 x 64 matrix: entry (r, j) of the product is the sum over the twenty
  features k of feature k at point r times the matrix at (k, j).
-/
import proofs.«118229_j8839042695322_2_alg».proof.Proof.Gen.KernelIdeal.Skeleton
import proofs.«118229_j8839042695322_2_alg».proof.Proof.LibDot
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KSide

open Idealize.ShloMosaic Idealize.ShloMosaic.ValueIdx
open Cert.KernelIdeal Cert.KernelIdeal.Gen

/-! ## A point's coordinates in a loaded block -/

theorem coord_at (v0 : Vec Ideal S1x3x8192 .f32) (a : Fin 3) (r : Fin 8192)
    (hs : S3x8192.Slices ![a.val, 0] S1x8192) :
    shapeCast S8192 (extractStridedSlice S1x8192 ![a.val, 0] (k0_pay6 v0) hs) Gen.shapeCasts_S1x8192_S8192 (ix1 r)
      = v0 (ix3 (0 : Fin 1) a r) := by
  rw [shapeCast_1a_a_apply]
  rw [extractStridedSlice_apply ![a.val, 0] (k0_pay6 v0) hs (ix2 (0 : Fin 1) r) (ix2 a r) (fun d => by
    match d with
    | ⟨0, _⟩ => show a.val = a.val + 0; omega
    | ⟨1, _⟩ => show r.val = 0 + r.val; omega)]
  unfold k0_pay6
  exact shapeCast_1ab_ab_apply v0 _ a r

theorem px_at (v0 : Vec Ideal S1x3x8192 .f32) (r : Fin 8192) : k0_pay7 v0 (ix1 r) = v0 (ix3 (0 : Fin 1) (0 : Fin 3) r) :=
  coord_at v0 0 r _
theorem py_at (v0 : Vec Ideal S1x3x8192 .f32) (r : Fin 8192) : k0_pay8 v0 (ix1 r) = v0 (ix3 (0 : Fin 1) (1 : Fin 3) r) :=
  coord_at v0 1 r _
theorem pz_at (v0 : Vec Ideal S1x3x8192 .f32) (r : Fin 8192) : k0_pay9 v0 (ix1 r) = v0 (ix3 (0 : Fin 1) (2 : Fin 3) r) :=
  coord_at v0 2 r _

/-! ## The twenty feature rows at a point -/

/-- Feature `k` of a point (px, py, pz), in the body's own arithmetic on the extended reals. -/
def featE (px py pz : EReal) (k : Fin 20) : EReal :=
  let x2 := px * px
  let y2 := py * py
  let z2 := pz * pz
  let n2 := x2 + y2 + z2
  let two : EReal := Ideal.ofBits .f32 0x40000000#32
  let three : EReal := Ideal.ofBits .f32 0x40400000#32
  let four : EReal := Ideal.ofBits .f32 0x40800000#32
  match k with
  | ⟨0, _⟩ => Ideal.ofBits .f32 0x3F800000#32
  | ⟨1, _⟩ => n2
  | ⟨2, _⟩ => py
  | ⟨3, _⟩ => pz
  | ⟨4, _⟩ => px
  | ⟨5, _⟩ => n2 * py
  | ⟨6, _⟩ => n2 * pz
  | ⟨7, _⟩ => n2 * px
  | ⟨8, _⟩ => px * py
  | ⟨9, _⟩ => py * pz
  | ⟨10, _⟩ => two * z2 - x2 - y2
  | ⟨11, _⟩ => px * pz
  | ⟨12, _⟩ => x2 - y2
  | ⟨13, _⟩ => py * (three * x2 - y2)
  | ⟨14, _⟩ => px * py * pz
  | ⟨15, _⟩ => py * (four * z2 - x2 - y2)
  | ⟨16, _⟩ => pz * (two * z2 - three * x2 - three * y2)
  | ⟨17, _⟩ => px * (four * z2 - x2 - y2)
  | ⟨18, _⟩ => pz * (x2 - y2)
  | ⟨19, _⟩ => px * (x2 - three * y2)
  | ⟨n + 20, h⟩ => absurd h (by omega)

/-- Row `k` of a stack of twenty [1, 8192] rows along the first axis, read at (k, r): the k-th row at (0, r). -/
theorem stack_row (f : Fin 20 → (S1x8192.Idx → EReal))
    (h : Shape.Concatenates ((List.ofFn fun n : Fin 20 => (⟨S1x8192, f n⟩ : (s : Shape) × (s.Idx → EReal))).map (·.1)) S20x8192 0)
    (k : Fin 20) (r : Fin 8192) :
    concatenate S20x8192 0 (List.ofFn fun n : Fin 20 => (⟨S1x8192, f n⟩ : (s : Shape) × (s.Idx → EReal))) h (ix2 k r)
      = f k (ix2 (0 : Fin 1) r) :=
  concatenate_ofFn_unit_apply (0 : Fin S20x8192.rank) f h rfl rfl (ix2 k r) k rfl (ix2 (0 : Fin 1) r)
    (fun b hb => by
      match b with
      | ⟨0, _⟩ => exact absurd rfl hb
      | ⟨1, _⟩ => rfl)

/-- The body's stack of twenty vectors, each put on a unit axis and joined along it, read at (k, r): vector k at r. -/
theorem pay4_at (v3 v5 v7 v12 v13 v14 v15 v16 v17 v18 v22 v23 v24 v28 v30 v35 v44 v49 v51 v55 : FVec Ideal S8192 .f32)
    (k : Fin 20) (r : Fin 8192) :
    k0_pay4 v3 v5 v7 v12 v13 v14 v15 v16 v17 v18 v22 v23 v24 v28 v30 v35 v44 v49 v51 v55 (ix2 k r)
      = (![v13, v12, v5, v7, v3, v14, v15, v16, v17, v18, v22, v23, v24, v28, v30, v35, v44, v49, v51, v55] : Fin 20 → FVec Ideal S8192 .f32) k (ix1 r) := by
  unfold k0_pay4
  exact (stack_row (fun n => shapeCast S1x8192
      ((![v13, v12, v5, v7, v3, v14, v15, v16, v17, v18, v22, v23, v24, v28, v30, v35, v44, v49, v51, v55] : Fin 20 → FVec Ideal S8192 .f32) n)
      Gen.shapeCasts_S8192_S1x8192) _ k r).trans (shapeCast_a_1a_apply _ _ (0 : Fin 1) r)

set_option maxHeartbeats 1000000 in
/-- The stack of the body's twenty rows at (k, r) is feature `k` of the point at r. -/
theorem feats_at (v0 : Vec Ideal S1x3x8192 .f32) (k : Fin 20) (r : Fin 8192) :
    k0_pay4 (k0_pay7 v0) (k0_pay8 v0) (k0_pay9 v0) (k0_pay13 v0) (k0_pay14 (F := Ideal)) (k0_pay15 v0) (k0_pay16 v0) (k0_pay17 v0)
      (k0_pay18 v0) (k0_pay19 v0) (k0_pay20 v0) (k0_pay21 v0) (k0_pay22 v0) (k0_pay23 v0) (k0_pay24 v0) (k0_pay25 v0) (k0_pay26 v0)
      (k0_pay1 (k0_pay7 v0) (k0_pay10 v0) (k0_pay11 v0) (k0_pay27 v0)) (k0_pay2 (k0_pay9 v0) (k0_pay10 v0) (k0_pay11 v0))
      (k0_pay3 (k0_pay7 v0) (k0_pay10 v0) (k0_pay11 v0)) (ix2 k r)
    = featE (v0 (ix3 (0 : Fin 1) (0 : Fin 3) r)) (v0 (ix3 (0 : Fin 1) (1 : Fin 3) r)) (v0 (ix3 (0 : Fin 1) (2 : Fin 3) r)) k := by
  rw [pay4_at, ← px_at v0 r, ← py_at v0 r, ← pz_at v0 r]
  fin_cases k <;> rfl

/-! ## The contraction -/

/-- The record of the body's contraction: the first axis of the [20, 8192] stack against the first axis of the
    [20, 64] matrix. -/
abbrev D := dot_S20x8192_S20x64_S8192x64_0_0_1_1_n_n

theorem lhs0 (i : S8192x64.Idx) (q : D.contr.Idx) : (D.lhsIdx i q 0).val = (q ⟨0, by decide⟩).val :=
  DotDims.lhsIdx_val_of_single D rfl i q
theorem lhs1 (i : S8192x64.Idx) (q : D.contr.Idx) : (D.lhsIdx i q 1).val = (i 0).val := by
  unfold DotDims.lhsIdx
  rw [dif_neg (show ¬(1 : Fin S20x8192.rank) ∈ D.lhsBatch by decide), dif_pos (show (1 : Fin S20x8192.rank) ∈ D.lhsNonContracting by decide)]
  rfl
theorem rhs0 (i : S8192x64.Idx) (q : D.contr.Idx) : (D.rhsIdx i q 0).val = (q ⟨0, by decide⟩).val :=
  DotDims.rhsIdx_val_of_single D rfl i q
theorem rhs1 (i : S8192x64.Idx) (q : D.contr.Idx) : (D.rhsIdx i q 1).val = (i 1).val := by
  unfold DotDims.rhsIdx
  rw [dif_neg (show ¬(1 : Fin S20x64.rank) ∈ D.rhsBatch by decide), dif_pos (show (1 : Fin S20x64.rank) ∈ D.rhsNonContracting by decide)]
  rfl

/-- The stored block at (0, r, j): the sum over the twenty features of the stack at (k, r) times the loaded matrix at
    (k, j). -/
theorem contract_at (v76 : FVec Ideal S20x8192 .f32) (v77 : Vec Ideal S20x64 .f32) (r : Fin 8192) (j : Fin 64) :
    k0_pay5 v76 v77 (ix3 (0 : Fin 1) r j) = ∑ k : Fin 20, v76 (ix2 k r) * v77 (ix2 k j) := by
  unfold k0_pay5
  rw [shapeCast_ab_1ab_apply, shapeCast_self]
  simp only [matmul]
  rw [Ideal.matmul_constant_zero_apply]
  refine Cert.LibDot.sum_contr_eq D 20 rfl rfl v76 v77 (ix2 r j) (fun k => ix2 k r) (fun k => ix2 k j) (fun k => ?_) (fun k => ?_)
  · have hk := contrEquiv1_symm_val D 20 rfl rfl k
    funext a; apply Fin.ext
    match a with
    | ⟨0, _⟩ => exact (lhs0 _ _).trans hk
    | ⟨1, _⟩ => exact lhs1 _ _
  · have hk := contrEquiv1_symm_val D 20 rfl rfl k
    funext a; apply Fin.ext
    match a with
    | ⟨0, _⟩ => exact (rhs0 _ _).trans hk
    | ⟨1, _⟩ => exact rhs1 _ _

end Cert.KSide

end
-- ==== Proof.KValue.lean ====
/-
  From blocks to the array: what the region leaves in its result [32, 32768, 64].

  Grid point (b, q) stages rows 8192·q … 8192·q + 8191 of batch b: the points' block is the three coordinate rows of
  those 8192 points, the matrix block is the whole 20 x 64 matrix, and the body's one store fills the result block
  [1, 8192, 64] with, at (r, j), the sum over the twenty features k of feature k of point 8192·q + r times the matrix
  at (k, j). The 32 x 4 result blocks tile the array, so after the run entry (b, n, j) of the result is that sum at
  point n of batch b (`arrG`).
-/
import proofs.«118229_j8839042695322_2_alg».proof.Proof.FrameIdeal
import proofs.«118229_j8839042695322_2_alg».proof.Proof.KBody

set_option maxRecDepth 16384

noncomputable section

namespace Cert.KSide

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

/-- The region's result as ONE function of the transposed points X [32, 3, 32768] and the matrix Mx [20, 64]. -/
def arrG (X : S32x3x32768.Idx → EReal) (Mx : S20x64.Idx → EReal) : S32x32768x64.Idx → EReal := fun i =>
  ∑ k : Fin 20,
    featE (X (ix3 (⟨(i 0).val, (i 0).isLt⟩ : Fin 32) (0 : Fin 3) (⟨(i 1).val, (i 1).isLt⟩ : Fin 32768)))
        (X (ix3 (⟨(i 0).val, (i 0).isLt⟩ : Fin 32) (1 : Fin 3) (⟨(i 1).val, (i 1).isLt⟩ : Fin 32768)))
        (X (ix3 (⟨(i 0).val, (i 0).isLt⟩ : Fin 32) (2 : Fin 3) (⟨(i 1).val, (i 1).isLt⟩ : Fin 32768))) k
      * Mx (ix2 k (⟨(i 2).val, (i 2).isLt⟩ : Fin 64))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's stored block at an index y = (0, r, j), over any two loaded blocks. -/
theorem block_at (x0 : Vec Ideal S1x3x8192 .f32) (x1 : Vec Ideal S20x64 .f32) (y : S1x8192x64.Idx) :
    k0_pay5 (feats x0) x1 y = ∑ k : Fin 20,
      featE (x0 (ix3 (0 : Fin 1) (0 : Fin 3) (⟨(y 1).val, (y 1).isLt⟩ : Fin 8192)))
          (x0 (ix3 (0 : Fin 1) (1 : Fin 3) (⟨(y 1).val, (y 1).isLt⟩ : Fin 8192)))
          (x0 (ix3 (0 : Fin 1) (2 : Fin 3) (⟨(y 1).val, (y 1).isLt⟩ : Fin 8192))) k
        * x1 (ix2 k (⟨(y 2).val, (y 2).isLt⟩ : Fin 64)) := by
  obtain ⟨u, r, j, rfl⟩ : ∃ (u : Fin 1) (r : Fin 8192) (j : Fin 64), y = ix3 u r j := ⟨y 0, y 1, y 2, eq_ix3 y⟩
  obtain rfl : u = 0 := Subsingleton.elim _ _
  rw [contract_at]
  refine Finset.sum_congr rfl fun k _ => ?_
  unfold feats
  rw [feats_at]

/-- The printed index maps, decided over the grid: the points' block follows the result's batch and row-block, the
    matrix's block and the result's last block index stay at zero. -/
theorem idx_facts : ∀ t : Fin cfg0.N, win0_0.index t (0 : Fin 3) = win0_2.index t (0 : Fin 3)
    ∧ win0_0.index t (1 : Fin 3) = 0
    ∧ win0_0.index t (2 : Fin 3) = win0_2.index t (1 : Fin 3)
    ∧ win0_1.index t (0 : Fin 2) = 0
    ∧ win0_1.index t (1 : Fin 2) = 0
    ∧ win0_2.index t (2 : Fin 3) = 0 :=
  (by decide +kernel : ∀ t : Fin grid0.N, _)

/-- Every (batch, row-block) pair is some point's. -/
theorem idx_onto : ∀ (q0 : Fin 32) (q1 : Fin 4), ∃ t : Fin cfg0.N, win0_2.index t = ![q0.val, q1.val, 0] :=
  (by decide +kernel : ∀ (q0 : Fin 32) (q1 : Fin 4), ∃ t : Fin grid0.N, win0_2.index t = ![q0.val, q1.val, 0])

/-- What point `t` writes back is block `t` of `arrG` of the two arrays as the region finds them. -/
theorem flushed_eq (c : Dev nD) (t : Fin cfg0.N) :
    (dats m 0 c).flushed 2 t = ((cfg0.win 2).blk t).view.read (Elt Ideal) (arrG (V m c main_v0) (V m c main_v152)) := by
  show (cfg0.win 2).cut (grid0.coords t) ((dats m 0 c).after 2 t) = _
  rw [after_out]
  unfold outBlock
  rw [View.canon_unit_zero hz3]
  simp only [View.ld_unit_zero (S := S1x3x8192) hz3, View.ld_unit_zero (S := S20x64) hz2]
  obtain ⟨e0, e1, e2, e3, e4, e5⟩ := idx_facts t
  funext y
  refine (block_at _ _ y).trans ?_
  have hy0 : (y 0).val < 1 := (y 0).isLt
  have hA : ∀ a : Fin 3, iblk m c 0 t (ix3 (0 : Fin 1) a (⟨(y 1).val, (y 1).isLt⟩ : Fin 8192))
      = V m c main_v0 (ix3 (⟨((((cfg0.win 2).blk t).view.emb y) 0).val, ((((cfg0.win 2).blk t).view.emb y) 0).isLt⟩ : Fin 32) a
          (⟨((((cfg0.win 2).blk t).view.emb y) 1).val, ((((cfg0.win 2).blk t).view.emb y) 1).isLt⟩ : Fin 32768)) := fun a => by
    show V m c main_v0 (((cfg0.win 0).blk t).view.emb (ix3 (0 : Fin 1) a (⟨(y 1).val, (y 1).isLt⟩ : Fin 8192))) = _
    refine congrArg (V m c main_v0) (funext fun d => Fin.ext ?_)
    match d with
    | ⟨0, _⟩ => show win0_0.index t (0 : Fin 3) * 1 + 1 * 0 = win0_2.index t (0 : Fin 3) * 1 + 1 * (y 0).val; omega
    | ⟨1, _⟩ => show win0_0.index t (1 : Fin 3) * 3 + 1 * a.val = a.val; omega
    | ⟨2, _⟩ => show win0_0.index t (2 : Fin 3) * 8192 + 1 * (y 1).val = win0_2.index t (1 : Fin 3) * 8192 + 1 * (y 1).val; omega
  have hB : ∀ k : Fin 20, iblk m c 1 t (ix2 k (⟨(y 2).val, (y 2).isLt⟩ : Fin 64))
      = V m c main_v152 (ix2 k (⟨((((cfg0.win 2).blk t).view.emb y) 2).val, ((((cfg0.win 2).blk t).view.emb y) 2).isLt⟩ : Fin 64)) := fun k => by
    show V m c main_v152 (((cfg0.win 1).blk t).view.emb (ix2 k (⟨(y 2).val, (y 2).isLt⟩ : Fin 64))) = _
    refine congrArg (V m c main_v152) (funext fun d => Fin.ext ?_)
    match d with
    | ⟨0, _⟩ => show win0_1.index t (0 : Fin 2) * 20 + 1 * k.val = k.val; omega
    | ⟨1, _⟩ => show win0_1.index t (1 : Fin 2) * 64 + 1 * (y 2).val = win0_2.index t (2 : Fin 3) * 64 + 1 * (y 2).val; omega
  show _ = arrG (V m c main_v0) (V m c main_v152) (((cfg0.win 2).blk t).view.emb y)
  unfold arrG
  refine Finset.sum_congr rfl fun k _ => ?_
  rw [hA 0, hA 1, hA 2, hB k]

/-- An index of the result is in point `t`'s block iff each coordinate is in the block's range on its axis. -/
theorem mem_blk (t : Fin cfg0.N) (i : S32x32768x64.Idx) :
    i ∈ ((cfg0.win 2).blk t).view.set ↔ ∀ a : Fin 3, win0_2.index t a * S1x8192x64.size a ≤ (i a).val ∧ (i a).val < win0_2.index t a * S1x8192x64.size a + S1x8192x64.size a := by
  show i ∈ ((View.whole main_v153).slice (win0_2.rect t)).set ↔ _
  rw [View.set_slice_whole, Rect.mem_set_unit]
  exact Iff.rfl

/-- The result blocks tile the array: every index is in the block of the point (batch, row / 8192). -/
theorem cover (i : S32x32768x64.Idx) : ∃ t : Fin cfg0.N, (cfg0.win 2).flush t = true ∧ i ∈ ((cfg0.win 2).blk t).view.set := by
  have h0 : (i 0).val < 32 := (i 0).isLt
  have h1 : (i 1).val < 32768 := (i 1).isLt
  have h2 : (i 2).val < 64 := (i 2).isLt
  obtain ⟨t, ht⟩ := idx_onto ⟨(i 0).val, h0⟩ ⟨(i 1).val / 8192, by omega⟩
  have q0 : win0_2.index t (0 : Fin 3) = (i 0).val := congrFun ht 0
  have q1 : win0_2.index t (1 : Fin 3) = (i 1).val / 8192 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 64 ≤ (i 2).val ∧ (i 2).val < win0_2.index t (2 : Fin 3) * 64 + 64; omega

/-- The result array after the run. -/
theorem final (c : Dev nD) : (dats m 0 c).arrAt 2 cfg0.N = arrG (V m c main_v0) (V m c main_v152) :=
  (dats m 0 c).arrAt_eq_of_cover 2 _ (fun t _ => flushed_eq m c t) cover

end Cert.KSide

end
-- ==== Proof.KOut.lean ====
/-
  The kernel program's result [32, 32768, 16, 4]: the closing reshape of the region's result splits the last axis
  64 = 16 x 4, so entry (b, n, mm, u) is the region's entry (b, n, 4·mm + u) — the twenty features of point n of batch b
  against column 4·mm + u of the folded matrix.
-/
import proofs.«118229_j8839042695322_2_alg».proof.Proof.KValue
import Idealize.ShloMosaic.Lib.StableHlo.Run

set_option maxRecDepth 16384

noncomputable section

namespace Cert.KSide

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Frame

variable (m : (ℓ : Loc nD τ sig) → Buf (Elt Ideal) ℓ)

/-- After the closing reshape the result buffer holds the region's result array, reshaped. -/
theorem tail_eq (c : Dev nD) :
    (Pipeline.afterTail₀ cfgs (dats m) 0 (V0 m) [hostOps1] c main_v154 : S32x32768x16x4.Idx → EReal)
      = shapeCast S32x32768x16x4 (arrG (V m c main_v0) (V m c main_v152)) Gen.shapeCasts_S32x32768x64_S32x32768x16x4 := by
  unfold Pipeline.afterTail₀
  show StableHlo.after hostOps1 _ (Proc.devRef .tc main_v154) = _
  after_results
  have e := (Pipeline.withArrays_arr spec0 launch0.win.arr_inj c (V0 m c) (fun w => (dats m 0 c).arrAt w (cfgs 0).N) 2).trans (final m c)
  show (fun i => shapeCast S32x32768x16x4 (Pipeline.withArrays spec0 c (V0 m c) (fun w => (dats m 0 c).arrAt w (cfgs 0).N)
    (Proc.devRef .tc (Pipeline.arrRef spec0 2))) Gen.shapeCasts_S32x32768x64_S32x32768x16x4 i) = _
  rw [e]

/-- The result at (b, n, mm, u). -/
theorem result_at (c : Dev nD) (b : Fin 32) (n : Fin 32768) (mm : Fin 16) (u : Fin 4) :
    (Pipeline.afterTail₀ cfgs (dats m) 0 (V0 m) [hostOps1] c main_v154 : S32x32768x16x4.Idx → EReal) (ix4 b n mm u)
      = ∑ k : Fin 20, featE (V m c main_v0 (ix3 b (0 : Fin 3) n)) (V m c main_v0 (ix3 b (1 : Fin 3) n)) (V m c main_v0 (ix3 b (2 : Fin 3) n)) k
          * V m c main_v152 (ix2 k (⟨4 * mm.val + u.val, by omega⟩ : Fin 64)) := by
  rw [tail_eq, shapeCast_apply _ _ (ix4 b n mm u) (ix3 b n (⟨4 * mm.val + u.val, by omega⟩ : Fin 64)) (by
    rw [Shape.rowMajor_val_three, Shape.rowMajor_val_four]
    show (b.val * 32768 + n.val) * 64 + (4 * mm.val + u.val) = ((b.val * 32768 + n.val) * 16 + mm.val) * 4 + u.val
    omega)]
  rfl

end Cert.KSide

end
-- ==== Proof.Spec.lean ====
/-
  The common value of the two programs, as a REAL polynomial.

  A point p = (px, py, pz) with n2 = px² + py² + pz² is sent to sixteen rows of four numbers. Row 0 is the degree-0
  harmonic (a constant) in two radial channels 1 and n2, contracted with the 2 x 4 weights w0, plus the bias; rows 1–3
  are the degree-1 harmonics (py, pz, px) in the channels 1 and n2, contracted with w1; rows 4–8 the five degree-2
  harmonics times the one row w2; rows 9–15 the seven degree-3 harmonics times the one row w3. The ten harmonic
  constants enter only as finite numbers: both programs spell each by the same 32-bit pattern, so their values are
  never needed — only that each pattern denotes a real (`Lits`). The small literals 1, 2, 3, 4 are evaluated.
-/
import Idealize.ShloMosaic.PureOps.Ideal
import Idealize.ShloMosaic.PureOps.Ideal.Laws
import Idealize.ShloMosaic.Lib.ValueIdx

noncomputable section

namespace Cert.Spec

open Idealize.ShloMosaic

/-- The ten harmonic constants, as reals. -/
structure Consts where
  c0 : ℝ
  c1 : ℝ
  cxy : ℝ
  c20 : ℝ
  c22 : ℝ
  c33 : ℝ
  c32 : ℝ
  c31 : ℝ
  c30 : ℝ
  c3p : ℝ

/-- Each constant's 32-bit pattern denotes the real the record names. -/
structure Lits (κ : Consts) : Prop where
  h0 : Ideal.ofBits .f32 0x3E906EBB#32 = ((κ.c0 : ℝ) : EReal)
  h1 : Ideal.ofBits .f32 0x3EFA2A1C#32 = ((κ.c1 : ℝ) : EReal)
  hxy : Ideal.ofBits .f32 0x3F8BD8A1#32 = ((κ.cxy : ℝ) : EReal)
  h20 : Ideal.ofBits .f32 0x3EA17B01#32 = ((κ.c20 : ℝ) : EReal)
  h22 : Ideal.ofBits .f32 0x3F0BD8A1#32 = ((κ.c22 : ℝ) : EReal)
  h33 : Ideal.ofBits .f32 0x3F170D19#32 = ((κ.c33 : ℝ) : EReal)
  h32 : Ideal.ofBits .f32 0x4038FFC7#32 = ((κ.c32 : ℝ) : EReal)
  h31 : Ideal.ofBits .f32 0x3EEA01E8#32 = ((κ.c31 : ℝ) : EReal)
  h30 : Ideal.ofBits .f32 0x3EBF10F8#32 = ((κ.c30 : ℝ) : EReal)
  h3p : Ideal.ofBits .f32 0x3FB8FFC7#32 = ((κ.c3p : ℝ) : EReal)

/-- A pattern of f32 whose exponent field is neither zero nor all ones denotes a real. -/
theorem normal_real (b : BitVec 32) (h1 : (b.extractLsb' 23 8).toNat ≠ 2 ^ 8 - 1) (h0 : (b.extractLsb' 23 8).toNat ≠ 0) :
    ∃ r : ℝ, Ideal.ofBits .f32 b = ((r : ℝ) : EReal) := by
  unfold Ideal.ofBits Ideal.ieee
  simp only [h1, h0, if_false]
  exact ⟨_, rfl⟩

/-- The record of the ten constants exists. -/
theorem exists_lits : ∃ κ : Consts, Lits κ := by
  obtain ⟨a0, e0⟩ := normal_real 0x3E906EBB#32 (by decide) (by decide)
  obtain ⟨a1, e1⟩ := normal_real 0x3EFA2A1C#32 (by decide) (by decide)
  obtain ⟨a2, e2⟩ := normal_real 0x3F8BD8A1#32 (by decide) (by decide)
  obtain ⟨a3, e3⟩ := normal_real 0x3EA17B01#32 (by decide) (by decide)
  obtain ⟨a4, e4⟩ := normal_real 0x3F0BD8A1#32 (by decide) (by decide)
  obtain ⟨a5, e5⟩ := normal_real 0x3F170D19#32 (by decide) (by decide)
  obtain ⟨a6, e6⟩ := normal_real 0x4038FFC7#32 (by decide) (by decide)
  obtain ⟨a7, e7⟩ := normal_real 0x3EEA01E8#32 (by decide) (by decide)
  obtain ⟨a8, e8⟩ := normal_real 0x3EBF10F8#32 (by decide) (by decide)
  obtain ⟨a9, e9⟩ := normal_real 0x3FB8FFC7#32 (by decide) (by decide)
  exact ⟨⟨a0, a1, a2, a3, a4, a5, a6, a7, a8, a9⟩, ⟨e0, e1, e2, e3, e4, e5, e6, e7, e8, e9⟩⟩

/-- The small literals. -/
theorem lit_one : Ideal.ofBits .f32 0x3F800000#32 = ((1 : ℝ) : EReal) := by
  simp [Ideal.ofBits, Ideal.ieee]
  exact_mod_cast (by norm_num : (8388608 : ℝ) * ((2 : ℝ) ^ 23)⁻¹ = 1)
theorem lit_two : Ideal.ofBits .f32 0x40000000#32 = ((2 : ℝ) : EReal) := by
  simp [Ideal.ofBits, Ideal.ieee]
  exact_mod_cast (by norm_num : (8388608 : ℝ) * ((2 : ℝ) ^ 22)⁻¹ = 2)
theorem lit_three : Ideal.ofBits .f32 0x40400000#32 = ((3 : ℝ) : EReal) := by
  simp [Ideal.ofBits, Ideal.ieee]
  exact_mod_cast (by norm_num : (12582912 : ℝ) * ((2 : ℝ) ^ 22)⁻¹ = 3)
theorem lit_four : Ideal.ofBits .f32 0x40800000#32 = ((4 : ℝ) : EReal) := by
  simp [Ideal.ofBits, Ideal.ieee]
  exact_mod_cast (by norm_num : (8388608 : ℝ) * ((2 : ℝ) ^ 21)⁻¹ = 4)

/-- Row `mm`, channel `u` of the result at a point (px, py, pz), over the reals. -/
def P (κ : Consts) (px py pz : ℝ) (w0 : Fin 2 → Fin 4 → ℝ) (b0 : Fin 4 → ℝ) (w1 : Fin 2 → Fin 4 → ℝ)
    (w2 w3 : Fin 4 → ℝ) (mm : Fin 16) (u : Fin 4) : ℝ :=
  let x2 := px * px
  let y2 := py * py
  let z2 := pz * pz
  let n2 := x2 + y2 + z2
  match mm with
  | ⟨0, _⟩ => κ.c0 * w0 0 u + n2 * (κ.c0 * w0 1 u) + b0 u
  | ⟨1, _⟩ => κ.c1 * py * w1 0 u + n2 * (κ.c1 * py) * w1 1 u
  | ⟨2, _⟩ => κ.c1 * pz * w1 0 u + n2 * (κ.c1 * pz) * w1 1 u
  | ⟨3, _⟩ => κ.c1 * px * w1 0 u + n2 * (κ.c1 * px) * w1 1 u
  | ⟨4, _⟩ => κ.cxy * px * py * w2 u
  | ⟨5, _⟩ => κ.cxy * py * pz * w2 u
  | ⟨6, _⟩ => κ.c20 * (2 * z2 - x2 - y2) * w2 u
  | ⟨7, _⟩ => κ.cxy * px * pz * w2 u
  | ⟨8, _⟩ => κ.c22 * (x2 - y2) * w2 u
  | ⟨9, _⟩ => κ.c33 * py * (3 * x2 - y2) * w3 u
  | ⟨10, _⟩ => κ.c32 * px * py * pz * w3 u
  | ⟨11, _⟩ => κ.c31 * py * (4 * z2 - x2 - y2) * w3 u
  | ⟨12, _⟩ => κ.c30 * pz * (2 * z2 - 3 * x2 - 3 * y2) * w3 u
  | ⟨13, _⟩ => κ.c31 * px * (4 * z2 - x2 - y2) * w3 u
  | ⟨14, _⟩ => κ.c3p * pz * (x2 - y2) * w3 u
  | ⟨15, _⟩ => κ.c33 * px * (x2 - 3 * y2) * w3 u
  | ⟨n + 16, h⟩ => absurd h (by omega)

/-- Which of the sixteen output rows feature `k` of the kernel's twenty feeds (features 0, 1 feed row 0; 2–4 and 5–7
    feed rows 1–3; 8–12 rows 4–8; 13–19 rows 9–15). -/
def blk : Fin 20 → Fin 16 :=
  ![0, 0, 1, 2, 3, 1, 2, 3, 4, 5, 6, 7, 8, 9, 10, 11, 12, 13, 14, 15]

/-- The four weights feature `k` carries into its output row: the harmonic constant folded into the weight row (the
    bias rides on the constant feature 0). -/
def Mrow (κ : Consts) (w0 : Fin 2 → Fin 4 → ℝ) (b0 : Fin 4 → ℝ) (w1 : Fin 2 → Fin 4 → ℝ) (w2 w3 : Fin 4 → ℝ)
    (k : Fin 20) (u : Fin 4) : ℝ :=
  match k with
  | ⟨0, _⟩ => κ.c0 * w0 0 u + b0 u
  | ⟨1, _⟩ => κ.c0 * w0 1 u
  | ⟨2, _⟩ => κ.c1 * w1 0 u
  | ⟨3, _⟩ => κ.c1 * w1 0 u
  | ⟨4, _⟩ => κ.c1 * w1 0 u
  | ⟨5, _⟩ => κ.c1 * w1 1 u
  | ⟨6, _⟩ => κ.c1 * w1 1 u
  | ⟨7, _⟩ => κ.c1 * w1 1 u
  | ⟨8, _⟩ => κ.cxy * w2 u
  | ⟨9, _⟩ => κ.cxy * w2 u
  | ⟨10, _⟩ => κ.c20 * w2 u
  | ⟨11, _⟩ => κ.cxy * w2 u
  | ⟨12, _⟩ => κ.c22 * w2 u
  | ⟨13, _⟩ => κ.c33 * w3 u
  | ⟨14, _⟩ => κ.c32 * w3 u
  | ⟨15, _⟩ => κ.c31 * w3 u
  | ⟨16, _⟩ => κ.c30 * w3 u
  | ⟨17, _⟩ => κ.c31 * w3 u
  | ⟨18, _⟩ => κ.c3p * w3 u
  | ⟨19, _⟩ => κ.c33 * w3 u
  | ⟨n + 20, h⟩ => absurd h (by omega)

/-- The folded 20 x 64 matrix: row `k` is zero but for the four columns 4·blk k … 4·blk k + 3, which hold `Mrow k`. -/
def M (κ : Consts) (w0 : Fin 2 → Fin 4 → ℝ) (b0 : Fin 4 → ℝ) (w1 : Fin 2 → Fin 4 → ℝ) (w2 w3 : Fin 4 → ℝ)
    (k : Fin 20) (mm : Fin 16) (u : Fin 4) : ℝ :=
  if blk k = mm then Mrow κ w0 b0 w1 w2 w3 k u else 0

/-- The whole result array [32, 32768, 16, 4] of real argument arrays, index by index. -/
def out (κ : Consts) (x : (⟨3, ![32, 32768, 3]⟩ : Shape).Idx → ℝ) (w0 : (⟨2, ![2, 4]⟩ : Shape).Idx → ℝ)
    (b0 : (⟨1, ![4]⟩ : Shape).Idx → ℝ) (w1 : (⟨2, ![2, 4]⟩ : Shape).Idx → ℝ)
    (w2 w3 : (⟨2, ![1, 4]⟩ : Shape).Idx → ℝ) (i : (⟨4, ![32, 32768, 16, 4]⟩ : Shape).Idx) : EReal :=
  ((P κ (x (ValueIdx.ix3 (i 0) (i 1) 0)) (x (ValueIdx.ix3 (i 0) (i 1) 1)) (x (ValueIdx.ix3 (i 0) (i 1) 2))
      (fun a u => w0 (ValueIdx.ix2 a u)) (fun u => b0 (ValueIdx.ix1 u)) (fun a u => w1 (ValueIdx.ix2 a u))
      (fun u => w2 (ValueIdx.ix2 0 u)) (fun u => w3 (ValueIdx.ix2 0 u)) (i 2) (i 3) : ℝ) : EReal)

end Cert.Spec

end
-- ==== Proof.MatSide.lean ====
/-
  The host side of the kernel program, read at an index.

  Before its one region the program exchanges the last two axes of the points array, and folds the five weight arrays
  into one 20 x 64 matrix. Each of the twenty rows is built the same way: sixty-four zeros, into which four numbers — a
  harmonic constant times one row of a weight array, plus the bias for the first row — are written at the columns
  4·b … 4·b + 3 of the one block b the row feeds; the rows are then stacked, sixteen and four, and the two stacks joined.

  Read at (k, 4·mm + u) the matrix is therefore the k-th row's u-th number when mm is that row's block, and zero
  otherwise: the specification's `M`.

  The write of four numbers into a row is a fold over the four update positions of "replace the element at the landing
  column"; since the landing columns start + 0 … start + 3 are distinct and inside the row, a column inside the window
  holds its update and a column outside keeps the zero it had.
-/
import proofs.«118229_j8839042695322_2_alg».proof.Proof.Gen.KernelIdeal.Launch
import proofs.«118229_j8839042695322_2_alg».proof.Proof.Spec
import Idealize.ShloMosaic.Lib.StableHlo.Run
import Idealize.ShloMosaic.Lib.Pipeline.Value
import Idealize.ShloMosaic.Lib.ValueLayout

set_option maxRecDepth 16384

noncomputable section

namespace Cert.MatSide

open Idealize.ShloMosaic Idealize.ShloMosaic.TcCoe
open Cert.KernelIdeal Cert.KernelIdeal.Gen

/-- Core `c`'s buffers when the region is entered: the launch contents after the host operations before it. -/
abbrev V0 (m : (ℓ : Loc nD τ sig) → Buf (Elt Ideal) ℓ) (c : Dev nD) : Valuation τ sig (Elt Ideal) :=
  StableHlo.after (List.flatten [hostOps0]) (fun b => m (c, b))

/-! ## A set-at-some-places fold, read at a place -/

section Fold
variable {α ι κ : Type} [DecidableEq ι]

/-- Folding "write `v n` at place `g n`" over a list leaves a place no element names as it was. -/
theorem foldl_set_miss (g : κ → ι) (v : κ → α) (i : ι) :
    ∀ (l : List κ) (x : ι → α), (∀ n ∈ l, i ≠ g n) →
      (l.foldl (fun r n => fun i' => if i' = g n then v n else r i') x) i = x i
  | [], _, _ => rfl
  | a :: l, x, h => by
    rw [List.foldl_cons, foldl_set_miss g v i l _ fun n hn => h n (List.mem_cons_of_mem _ hn)]
    exact if_neg (h a List.mem_cons_self)

/-- … and a place one element names, the places being distinct, holds that element's value. -/
theorem foldl_set_hit (g : κ → ι) (v : κ → α) (i : ι) :
    ∀ (l : List κ) (x : ι → α), l.Nodup → (∀ n ∈ l, ∀ n' ∈ l, g n = g n' → n = n') → ∀ n ∈ l, i = g n →
      (l.foldl (fun r n => fun i' => if i' = g n then v n else r i') x) i = v n
  | [], _, _, _, n, hn, _ => absurd hn (List.not_mem_nil)
  | a :: l, x, hnd, hinj, n, hn, hi => by
    rw [List.foldl_cons]
    rcases List.mem_cons.mp hn with rfl | hn'
    · rw [foldl_set_miss g v i l _ fun n' hn' e => (List.nodup_cons.mp hnd).1
        ((hinj n List.mem_cons_self n' (List.mem_cons_of_mem _ hn') (hi.symm.trans e)) ▸ hn')]
      exact if_pos hi
    · exact foldl_set_hit g v i l _ (List.nodup_cons.mp hnd).2
        (fun p hp q hq => hinj p (List.mem_cons_of_mem _ hp) q (List.mem_cons_of_mem _ hq)) n hn' hi

end Fold

/-! ## The row-building scatter -/

section Scatter
variable {α : Type}

instance : Subsingleton S1.Idx := ⟨fun a b => funext fun d => by
  match d with
  | ⟨0, _⟩ => exact Fin.ext (by have h1 : (a ⟨0, by decide⟩).val < 1 := (a _).isLt; have h2 : (b ⟨0, by decide⟩).val < 1 := (b _).isLt; omega)⟩

/-- The column of the 64-wide row where update `n` of a four-wide window starting at `o` lands. -/
def land (o : Nat) (ho : o + 4 ≤ 64) (n : S4.Idx) : S64.Idx :=
  ValueIdx.ix1 (⟨o + (n 0).val, by have h4 : (n 0).val < 4 := (n 0).isLt; omega⟩ : Fin 64)

theorem land_inj {o : Nat} {ho : o + 4 ≤ 64} {a b : S4.Idx} (e : land o ho a = land o ho b) : a = b := by
  have e1 : o + (a 0).val = o + (b 0).val := congrArg Fin.val (congrFun e 0)
  funext d
  have hd : d = (0 : Fin 1) := Subsingleton.elim _ _
  subst hd
  exact Fin.ext (by omega)

/-- Where update `n` of the scatter lands: the start word plus `n`'s coordinate, inside the row. -/
theorem scatter_resultIdx (idx : IVec S1 32) (o : Nat) (ho : o + 4 ≤ 64)
    (hidx : (idx (ValueIdx.ix1 0)).toInt = (o : Int)) (n : S4.Idx) :
    scatter_S64_S1_S4_0_n_0_0.resultIdx? n idx = some (land o ho n) := by
  have h4 : (n 0).val < 4 := (n 0).isLt
  have hs : ∀ a, scatter_S64_S1_S4_0_n_0_0.start n idx a = (o : Int) := by
    intro a
    have ha : a = (0 : Fin 1) := Subsingleton.elim _ _
    subst ha
    unfold ScatterDims.start
    rw [dif_pos (by decide), ← hidx]
    exact congrArg (fun i => (idx i).toInt) (Subsingleton.elim _ _)
  have hw : ∀ a, scatter_S64_S1_S4_0_n_0_0.window n a = (n 0).val := by
    intro a
    have ha : a = (0 : Fin 1) := Subsingleton.elim _ _
    subst ha
    unfold ScatterDims.window
    rw [dif_pos (by decide)]
    exact congrArg (fun i => (n i).val) (Subsingleton.elim (α := Fin 1) _ _)
  unfold ScatterDims.resultIdx?
  have hall : ∀ a, 0 ≤ scatter_S64_S1_S4_0_n_0_0.start n idx a + scatter_S64_S1_S4_0_n_0_0.window n a
      ∧ scatter_S64_S1_S4_0_n_0_0.start n idx a + scatter_S64_S1_S4_0_n_0_0.window n a < S64.size a := by
    intro a
    rw [hs, hw]
    have ha : a = (0 : Fin 1) := Subsingleton.elim _ _
    subst ha
    show 0 ≤ (o : Int) + ((n 0).val : Int) ∧ (o : Int) + ((n 0).val : Int) < ((64 : Nat) : Int)
    omega
  rw [dif_pos hall]
  refine congrArg some (funext fun a => Fin.ext ?_)
  have ha : a = (0 : Fin 1) := Subsingleton.elim _ _
  subst ha
  show (scatter_S64_S1_S4_0_n_0_0.start n idx 0 + scatter_S64_S1_S4_0_n_0_0.window n 0).toNat = o + (n 0).val
  rw [hs, hw]
  omega

/-- The scatter whose body returns the update, as a fold of writes at the landing columns. -/
theorem scatter_eq_fold (x : S64.Idx → α) (idx : IVec S1 32) (upd : S4.Idx → α) (o : Nat) (ho : o + 4 ≤ 64)
    (hidx : (idx (ValueIdx.ix1 0)).toInt = (o : Int)) :
    Host.scatter scatter_S64_S1_S4_0_n_0_0 (fun _ b => b) x idx upd
      = (List.finRange S4.numel).foldl (fun r n => fun i' =>
          if i' = land o ho (S4.rowMajor.symm n) then upd (S4.rowMajor.symm n) else r i') x := by
  unfold Host.scatter
  refine congrArg (fun f => List.foldl f x (List.finRange S4.numel)) (funext fun r => funext fun n => ?_)
  rw [scatter_resultIdx idx o ho hidx (S4.rowMajor.symm n)]

/-- Inside the window the row holds the update … -/
theorem scatter_hit (x : S64.Idx → α) (idx : IVec S1 32) (upd : S4.Idx → α) (o : Nat) (ho : o + 4 ≤ 64)
    (hidx : (idx (ValueIdx.ix1 0)).toInt = (o : Int)) (j : Fin 64) (u : Fin 4) (hj : j.val = o + u.val) :
    Host.scatter scatter_S64_S1_S4_0_n_0_0 (fun _ b => b) x idx upd (ValueIdx.ix1 j) = upd (ValueIdx.ix1 u) := by
  have hi : ValueIdx.ix1 j = land o ho (S4.rowMajor.symm (S4.rowMajor (ValueIdx.ix1 u))) := by
    rw [Equiv.symm_apply_apply]
    exact congrArg ValueIdx.ix1 (Fin.ext hj)
  have h := foldl_set_hit (fun n => land o ho (S4.rowMajor.symm n)) (fun n => upd (S4.rowMajor.symm n)) (ValueIdx.ix1 j)
    (List.finRange S4.numel) x (List.nodup_finRange _) (fun n _ n' _ e => S4.rowMajor.symm.injective (land_inj e))
    (S4.rowMajor (ValueIdx.ix1 u)) (List.mem_finRange _) hi
  rw [scatter_eq_fold x idx upd o ho hidx]
  exact h.trans (by rw [Equiv.symm_apply_apply])

/-- … and outside it the operand. -/
theorem scatter_miss (x : S64.Idx → α) (idx : IVec S1 32) (upd : S4.Idx → α) (o : Nat) (ho : o + 4 ≤ 64)
    (hidx : (idx (ValueIdx.ix1 0)).toInt = (o : Int)) (j : Fin 64) (hj : j.val < o ∨ o + 4 ≤ j.val) :
    Host.scatter scatter_S64_S1_S4_0_n_0_0 (fun _ b => b) x idx upd (ValueIdx.ix1 j) = x (ValueIdx.ix1 j) := by
  rw [scatter_eq_fold x idx upd o ho hidx]
  refine foldl_set_miss (fun n => land o ho (S4.rowMajor.symm n)) (fun n => upd (S4.rowMajor.symm n)) (ValueIdx.ix1 j) _ x
    fun n _ e => ?_
  have e1 : j.val = o + ((S4.rowMajor.symm n) 0).val := congrArg Fin.val (congrFun e 0)
  have h4 : ((S4.rowMajor.symm n) 0).val < 4 := ((S4.rowMajor.symm n) 0).isLt
  omega

end Scatter

/-! ## The rows of the folded matrix -/

section Rows

/-- A [4] vector scaled by a constant. -/
def scaled (lit : BitVec 32) (wv : FVec Ideal S4 .f32) : FVec Ideal S4 .f32 :=
  mulf (broadcastInDim S4 ![] bcast_S_S4 (constant (F := Ideal) S_ .f32 lit)) wv

/-- Sixty-four zeros with `upd` written at the four columns from the word `idxw` on, as a [1, 64] array. -/
def rowOf (idxw : BitVec 32) (upd : FVec Ideal S4 .f32) : FVec Ideal S1x64 .f32 :=
  broadcastInDim S1x64 ![1] bcast_S64_S1x64_1
    (Host.scatter scatter_S64_S1_S4_0_n_0_0 (fun _ b => b)
      (broadcastInDim S64 ![] bcast_S_S64 (constant (F := Ideal) S_ .f32 0x00000000#32))
      (broadcastInDim S1 ![] bcast_S_S1 (constantI S_ 32 idxw)) upd)

/-- Row 0 of a [2, 4] array, as a [4] vector. -/
def sliceRow0 (X : FVec Ideal S2x4 .f32) : FVec Ideal S4 .f32 :=
  fun i => shapeCast S4 (extractStridedSlice S1x4 ![0, 0] X slices_S2x4_S1x4_0_0) shapeCasts_S1x4_S4 i
/-- Row 1 of a [2, 4] array, as a [4] vector. -/
def sliceRow1 (X : FVec Ideal S2x4 .f32) : FVec Ideal S4 .f32 :=
  fun i => shapeCast S4 (extractStridedSlice S1x4 ![1, 0] X slices_S2x4_S1x4_1_0) shapeCasts_S1x4_S4 i
/-- A [1, 4] array as a [4] vector. -/
def flat (Y : FVec Ideal S1x4 .f32) : FVec Ideal S4 .f32 :=
  fun i => shapeCast S4 Y shapeCasts_S1x4_S4 i

theorem scaled_apply (lit : BitVec 32) (wv : FVec Ideal S4 .f32) (u : Fin 4) :
    scaled lit wv (ValueIdx.ix1 u) = Ideal.ofBits .f32 lit * wv (ValueIdx.ix1 u) := rfl

theorem sliceRow0_apply (X : FVec Ideal S2x4 .f32) (u : Fin 4) : sliceRow0 X (ValueIdx.ix1 u) = X (ValueIdx.ix2 0 u) :=
  (ValueIdx.shapeCast_1a_a_apply _ _ u).trans (ValueIdx.slice2_axis0_apply 0 X _ 0 u 0 rfl)
theorem sliceRow1_apply (X : FVec Ideal S2x4 .f32) (u : Fin 4) : sliceRow1 X (ValueIdx.ix1 u) = X (ValueIdx.ix2 1 u) :=
  (ValueIdx.shapeCast_1a_a_apply _ _ u).trans (ValueIdx.slice2_axis0_apply 1 X _ 0 u 1 rfl)
theorem flat_apply (Y : FVec Ideal S1x4 .f32) (u : Fin 4) : flat Y (ValueIdx.ix1 u) = Y (ValueIdx.ix2 0 u) :=
  ValueIdx.shapeCast_1a_a_apply _ _ u

/-- The [1, 64] row read at a column is the [64] row there. -/
theorem rowOf_read (idxw : BitVec 32) (upd : FVec Ideal S4 .f32) (j : Fin 64) :
    rowOf idxw upd (ValueIdx.ix2 0 j)
      = Host.scatter scatter_S64_S1_S4_0_n_0_0 (fun _ b => b)
          (broadcastInDim S64 ![] bcast_S_S64 (constant (F := Ideal) S_ .f32 0x00000000#32))
          (broadcastInDim S1 ![] bcast_S_S1 (constantI S_ 32 idxw)) upd (ValueIdx.ix1 j) :=
  broadcastInDim_apply _ _ _ (ValueIdx.ix2 0 j) (ValueIdx.ix1 j) fun a => by
    match a with
    | ⟨0, _⟩ => rfl

/-- Inside its window a row holds the update … -/
theorem rowOf_hit (idxw : BitVec 32) (upd : FVec Ideal S4 .f32) (o : Nat) (ho : o + 4 ≤ 64) (hidx : idxw.toInt = (o : Int))
    (j : Fin 64) (u : Fin 4) (hj : j.val = o + u.val) : rowOf idxw upd (ValueIdx.ix2 0 j) = upd (ValueIdx.ix1 u) :=
  (rowOf_read idxw upd j).trans (scatter_hit _ _ upd o ho hidx j u hj)

/-- … and outside it zero. -/
theorem rowOf_miss (idxw : BitVec 32) (upd : FVec Ideal S4 .f32) (o : Nat) (ho : o + 4 ≤ 64) (hidx : idxw.toInt = (o : Int))
    (j : Fin 64) (hj : j.val < o ∨ o + 4 ≤ j.val) : rowOf idxw upd (ValueIdx.ix2 0 j) = (0 : EReal) :=
  ((rowOf_read idxw upd j).trans (scatter_miss _ _ upd o ho hidx j hj)).trans Ideal.ofBits_zero_f32

end Rows

/-- A row read at column 4·mm + u: its four numbers in the block it was written to, zero in the others. -/
theorem row_value (idxw : BitVec 32) (upd : FVec Ideal S4 .f32) (o : Nat) (ho : o + 4 ≤ 64) (hidx : idxw.toInt = (o : Int))
    (blkk : Fin 16) (hblk : o = 4 * blkk.val) (val : Fin 4 → ℝ) (hval : ∀ u, upd (ValueIdx.ix1 u) = ((val u : ℝ) : EReal))
    (mm : Fin 16) (u : Fin 4) (h64 : 4 * mm.val + u.val < 64) :
    rowOf idxw upd (ValueIdx.ix2 0 (⟨4 * mm.val + u.val, h64⟩ : Fin 64)) = (((if blkk = mm then val u else 0 : ℝ)) : EReal) := by
  by_cases hb : blkk = mm
  · subst hb
    rw [if_pos rfl, rowOf_hit idxw upd o ho hidx _ u (by show 4 * blkk.val + u.val = o + u.val; omega), hval]
  · rw [if_neg hb, rowOf_miss idxw upd o ho hidx _ (by
      show 4 * mm.val + u.val < o ∨ o + 4 ≤ 4 * mm.val + u.val
      have : blkk.val ≠ mm.val := fun h => hb (Fin.ext h)
      omega)]
    rfl

set_option maxHeartbeats 4000000 in
/-- The points as the region finds them: the argument with its last two axes exchanged. -/
theorem entry_points (m : (ℓ : Loc nD τ sig) → Buf (Elt Ideal) ℓ) (c : Dev nD) (b : Fin 32) (a : Fin 3) (n : Fin 32768) :
    (V0 m c (Proc.devRef .tc main_v0) : S32x3x32768.Idx → EReal) (ValueIdx.ix3 b a n)
      = (m ((c : Thread nD τ).loc main_arg0) : S32x32768x3.Idx → EReal) (ValueIdx.ix3 b n a) := by
  show (StableHlo.after hostOps0 (fun b => m (c, b)) (Proc.devRef .tc main_v0) : S32x3x32768.Idx → EReal) (ValueIdx.ix3 b a n) = _
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  exact ValueIdx.transpose_ix3_021_apply _ _ b a n

set_option maxHeartbeats 4000000 in
/-- Row 0 of the folded matrix. -/
theorem entry_row0 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (0 : Fin 20) j)
      = rowOf 0#32 (addf (scaled 0x3E906EBB#32 (sliceRow0 (m (c, Proc.devRef .tc main_arg1)))) (m (c, Proc.devRef .tc main_arg2))) (ValueIdx.ix2 0 j) := by
  simp only [StableHlo.after_cons, StableHlo.after_nil, StableHlo.binary_result']
  refine (concatenate_apply_piece (t := S20x64) 0 _ _ (ValueIdx.ix2 (0 : Fin 20) j) 0 (by show (0 : ℕ) < 2; omega) S16x64 _ rfl rfl 0 rfl
    (ValueIdx.ix2 (0 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (0 : Fin 16) j) 0 (by show (0 : ℕ) < 16; omega) S1x64 _ rfl rfl 0 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 1 of the folded matrix. -/
theorem entry_row1 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (1 : Fin 20) j)
      = rowOf 0#32 (scaled 0x3E906EBB#32 (sliceRow1 (m (c, Proc.devRef .tc main_arg1)))) (ValueIdx.ix2 0 j) := by
  simp only [StableHlo.after_cons, StableHlo.after_nil, StableHlo.binary_result']
  refine (concatenate_apply_piece (t := S20x64) 0 _ _ (ValueIdx.ix2 (1 : Fin 20) j) 0 (by show (0 : ℕ) < 2; omega) S16x64 _ rfl rfl 0 rfl
    (ValueIdx.ix2 (1 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (1 : Fin 16) j) 1 (by show (1 : ℕ) < 16; omega) S1x64 _ rfl rfl 1 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 2 of the folded matrix. -/
theorem entry_row2 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (2 : Fin 20) j)
      = rowOf 4#32 (scaled 0x3EFA2A1C#32 (sliceRow0 (m (c, Proc.devRef .tc main_arg3)))) (ValueIdx.ix2 0 j) := by
  simp only [StableHlo.after_cons, StableHlo.after_nil, StableHlo.binary_result']
  refine (concatenate_apply_piece (t := S20x64) 0 _ _ (ValueIdx.ix2 (2 : Fin 20) j) 0 (by show (0 : ℕ) < 2; omega) S16x64 _ rfl rfl 0 rfl
    (ValueIdx.ix2 (2 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (2 : Fin 16) j) 2 (by show (2 : ℕ) < 16; omega) S1x64 _ rfl rfl 2 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 3 of the folded matrix. -/
theorem entry_row3 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (3 : Fin 20) j)
      = rowOf 8#32 (scaled 0x3EFA2A1C#32 (sliceRow0 (m (c, Proc.devRef .tc main_arg3)))) (ValueIdx.ix2 0 j) := by
  simp only [StableHlo.after_cons, StableHlo.after_nil, StableHlo.binary_result']
  refine (concatenate_apply_piece (t := S20x64) 0 _ _ (ValueIdx.ix2 (3 : Fin 20) j) 0 (by show (0 : ℕ) < 2; omega) S16x64 _ rfl rfl 0 rfl
    (ValueIdx.ix2 (3 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (3 : Fin 16) j) 3 (by show (3 : ℕ) < 16; omega) S1x64 _ rfl rfl 3 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 4 of the folded matrix. -/
theorem entry_row4 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (4 : Fin 20) j)
      = rowOf 12#32 (scaled 0x3EFA2A1C#32 (sliceRow0 (m (c, Proc.devRef .tc main_arg3)))) (ValueIdx.ix2 0 j) := by
  simp only [StableHlo.after_cons, StableHlo.after_nil, StableHlo.binary_result']
  refine (concatenate_apply_piece (t := S20x64) 0 _ _ (ValueIdx.ix2 (4 : Fin 20) j) 0 (by show (0 : ℕ) < 2; omega) S16x64 _ rfl rfl 0 rfl
    (ValueIdx.ix2 (4 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (4 : Fin 16) j) 4 (by show (4 : ℕ) < 16; omega) S1x64 _ rfl rfl 4 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 5 of the folded matrix. -/
theorem entry_row5 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (5 : Fin 20) j)
      = rowOf 4#32 (scaled 0x3EFA2A1C#32 (sliceRow1 (m (c, Proc.devRef .tc main_arg3)))) (ValueIdx.ix2 0 j) := by
  simp only [StableHlo.after_cons, StableHlo.after_nil, StableHlo.binary_result']
  refine (concatenate_apply_piece (t := S20x64) 0 _ _ (ValueIdx.ix2 (5 : Fin 20) j) 0 (by show (0 : ℕ) < 2; omega) S16x64 _ rfl rfl 0 rfl
    (ValueIdx.ix2 (5 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (5 : Fin 16) j) 5 (by show (5 : ℕ) < 16; omega) S1x64 _ rfl rfl 5 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 6 of the folded matrix. -/
theorem entry_row6 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (6 : Fin 20) j)
      = rowOf 8#32 (scaled 0x3EFA2A1C#32 (sliceRow1 (m (c, Proc.devRef .tc main_arg3)))) (ValueIdx.ix2 0 j) := by
  simp only [StableHlo.after_cons, StableHlo.after_nil, StableHlo.binary_result']
  refine (concatenate_apply_piece (t := S20x64) 0 _ _ (ValueIdx.ix2 (6 : Fin 20) j) 0 (by show (0 : ℕ) < 2; omega) S16x64 _ rfl rfl 0 rfl
    (ValueIdx.ix2 (6 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (6 : Fin 16) j) 6 (by show (6 : ℕ) < 16; omega) S1x64 _ rfl rfl 6 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 7 of the folded matrix. -/
theorem entry_row7 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (7 : Fin 20) j)
      = rowOf 12#32 (scaled 0x3EFA2A1C#32 (sliceRow1 (m (c, Proc.devRef .tc main_arg3)))) (ValueIdx.ix2 0 j) := by
  simp only [StableHlo.after_cons, StableHlo.after_nil, StableHlo.binary_result']
  refine (concatenate_apply_piece (t := S20x64) 0 _ _ (ValueIdx.ix2 (7 : Fin 20) j) 0 (by show (0 : ℕ) < 2; omega) S16x64 _ rfl rfl 0 rfl
    (ValueIdx.ix2 (7 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (7 : Fin 16) j) 7 (by show (7 : ℕ) < 16; omega) S1x64 _ rfl rfl 7 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 8 of the folded matrix. -/
theorem entry_row8 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (8 : Fin 20) j)
      = rowOf 16#32 (scaled 0x3F8BD8A1#32 (flat (m (c, Proc.devRef .tc main_arg4)))) (ValueIdx.ix2 0 j) := by
  simp only [StableHlo.after_cons, StableHlo.after_nil, StableHlo.binary_result']
  refine (concatenate_apply_piece (t := S20x64) 0 _ _ (ValueIdx.ix2 (8 : Fin 20) j) 0 (by show (0 : ℕ) < 2; omega) S16x64 _ rfl rfl 0 rfl
    (ValueIdx.ix2 (8 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (8 : Fin 16) j) 8 (by show (8 : ℕ) < 16; omega) S1x64 _ rfl rfl 8 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 9 of the folded matrix. -/
theorem entry_row9 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (9 : Fin 20) j)
      = rowOf 20#32 (scaled 0x3F8BD8A1#32 (flat (m (c, Proc.devRef .tc main_arg4)))) (ValueIdx.ix2 0 j) := by
  simp only [StableHlo.after_cons, StableHlo.after_nil, StableHlo.binary_result']
  refine (concatenate_apply_piece (t := S20x64) 0 _ _ (ValueIdx.ix2 (9 : Fin 20) j) 0 (by show (0 : ℕ) < 2; omega) S16x64 _ rfl rfl 0 rfl
    (ValueIdx.ix2 (9 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (9 : Fin 16) j) 9 (by show (9 : ℕ) < 16; omega) S1x64 _ rfl rfl 9 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 10 of the folded matrix. -/
theorem entry_row10 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (10 : Fin 20) j)
      = rowOf 24#32 (scaled 0x3EA17B01#32 (flat (m (c, Proc.devRef .tc main_arg4)))) (ValueIdx.ix2 0 j) := by
  simp only [StableHlo.after_cons, StableHlo.after_nil, StableHlo.binary_result']
  refine (concatenate_apply_piece (t := S20x64) 0 _ _ (ValueIdx.ix2 (10 : Fin 20) j) 0 (by show (0 : ℕ) < 2; omega) S16x64 _ rfl rfl 0 rfl
    (ValueIdx.ix2 (10 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (10 : Fin 16) j) 10 (by show (10 : ℕ) < 16; omega) S1x64 _ rfl rfl 10 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 11 of the folded matrix. -/
theorem entry_row11 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (11 : Fin 20) j)
      = rowOf 28#32 (scaled 0x3F8BD8A1#32 (flat (m (c, Proc.devRef .tc main_arg4)))) (ValueIdx.ix2 0 j) := by
  simp only [StableHlo.after_cons, StableHlo.after_nil, StableHlo.binary_result']
  refine (concatenate_apply_piece (t := S20x64) 0 _ _ (ValueIdx.ix2 (11 : Fin 20) j) 0 (by show (0 : ℕ) < 2; omega) S16x64 _ rfl rfl 0 rfl
    (ValueIdx.ix2 (11 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (11 : Fin 16) j) 11 (by show (11 : ℕ) < 16; omega) S1x64 _ rfl rfl 11 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 12 of the folded matrix. -/
theorem entry_row12 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (12 : Fin 20) j)
      = rowOf 32#32 (scaled 0x3F0BD8A1#32 (flat (m (c, Proc.devRef .tc main_arg4)))) (ValueIdx.ix2 0 j) := by
  simp only [StableHlo.after_cons, StableHlo.after_nil, StableHlo.binary_result']
  refine (concatenate_apply_piece (t := S20x64) 0 _ _ (ValueIdx.ix2 (12 : Fin 20) j) 0 (by show (0 : ℕ) < 2; omega) S16x64 _ rfl rfl 0 rfl
    (ValueIdx.ix2 (12 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (12 : Fin 16) j) 12 (by show (12 : ℕ) < 16; omega) S1x64 _ rfl rfl 12 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 13 of the folded matrix. -/
theorem entry_row13 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (13 : Fin 20) j)
      = rowOf 36#32 (scaled 0x3F170D19#32 (flat (m (c, Proc.devRef .tc main_arg5)))) (ValueIdx.ix2 0 j) := by
  simp only [StableHlo.after_cons, StableHlo.after_nil, StableHlo.binary_result']
  refine (concatenate_apply_piece (t := S20x64) 0 _ _ (ValueIdx.ix2 (13 : Fin 20) j) 0 (by show (0 : ℕ) < 2; omega) S16x64 _ rfl rfl 0 rfl
    (ValueIdx.ix2 (13 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (13 : Fin 16) j) 13 (by show (13 : ℕ) < 16; omega) S1x64 _ rfl rfl 13 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 14 of the folded matrix. -/
theorem entry_row14 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (14 : Fin 20) j)
      = rowOf 40#32 (scaled 0x4038FFC7#32 (flat (m (c, Proc.devRef .tc main_arg5)))) (ValueIdx.ix2 0 j) := by
  simp only [StableHlo.after_cons, StableHlo.after_nil, StableHlo.binary_result']
  refine (concatenate_apply_piece (t := S20x64) 0 _ _ (ValueIdx.ix2 (14 : Fin 20) j) 0 (by show (0 : ℕ) < 2; omega) S16x64 _ rfl rfl 0 rfl
    (ValueIdx.ix2 (14 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (14 : Fin 16) j) 14 (by show (14 : ℕ) < 16; omega) S1x64 _ rfl rfl 14 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 15 of the folded matrix. -/
theorem entry_row15 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (15 : Fin 20) j)
      = rowOf 44#32 (scaled 0x3EEA01E8#32 (flat (m (c, Proc.devRef .tc main_arg5)))) (ValueIdx.ix2 0 j) := by
  simp only [StableHlo.after_cons, StableHlo.after_nil, StableHlo.binary_result']
  refine (concatenate_apply_piece (t := S20x64) 0 _ _ (ValueIdx.ix2 (15 : Fin 20) j) 0 (by show (0 : ℕ) < 2; omega) S16x64 _ rfl rfl 0 rfl
    (ValueIdx.ix2 (15 : Fin 16) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S16x64) 0 _ _ (ValueIdx.ix2 (15 : Fin 16) j) 15 (by show (15 : ℕ) < 16; omega) S1x64 _ rfl rfl 15 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 16 of the folded matrix. -/
theorem entry_row16 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (16 : Fin 20) j)
      = rowOf 48#32 (scaled 0x3EBF10F8#32 (flat (m (c, Proc.devRef .tc main_arg5)))) (ValueIdx.ix2 0 j) := by
  simp only [StableHlo.after_cons, StableHlo.after_nil, StableHlo.binary_result']
  refine (concatenate_apply_piece (t := S20x64) 0 _ _ (ValueIdx.ix2 (16 : Fin 20) j) 1 (by show (1 : ℕ) < 2; omega) S4x64 _ rfl rfl 16 rfl
    (ValueIdx.ix2 (0 : Fin 4) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S4x64) 0 _ _ (ValueIdx.ix2 (0 : Fin 4) j) 0 (by show (0 : ℕ) < 4; omega) S1x64 _ rfl rfl 0 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 17 of the folded matrix. -/
theorem entry_row17 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (17 : Fin 20) j)
      = rowOf 52#32 (scaled 0x3EEA01E8#32 (flat (m (c, Proc.devRef .tc main_arg5)))) (ValueIdx.ix2 0 j) := by
  simp only [StableHlo.after_cons, StableHlo.after_nil, StableHlo.binary_result']
  refine (concatenate_apply_piece (t := S20x64) 0 _ _ (ValueIdx.ix2 (17 : Fin 20) j) 1 (by show (1 : ℕ) < 2; omega) S4x64 _ rfl rfl 16 rfl
    (ValueIdx.ix2 (1 : Fin 4) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S4x64) 0 _ _ (ValueIdx.ix2 (1 : Fin 4) j) 1 (by show (1 : ℕ) < 4; omega) S1x64 _ rfl rfl 1 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 18 of the folded matrix. -/
theorem entry_row18 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (18 : Fin 20) j)
      = rowOf 56#32 (scaled 0x3FB8FFC7#32 (flat (m (c, Proc.devRef .tc main_arg5)))) (ValueIdx.ix2 0 j) := by
  simp only [StableHlo.after_cons, StableHlo.after_nil, StableHlo.binary_result']
  refine (concatenate_apply_piece (t := S20x64) 0 _ _ (ValueIdx.ix2 (18 : Fin 20) j) 1 (by show (1 : ℕ) < 2; omega) S4x64 _ rfl rfl 16 rfl
    (ValueIdx.ix2 (2 : Fin 4) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S4x64) 0 _ _ (ValueIdx.ix2 (2 : Fin 4) j) 2 (by show (2 : ℕ) < 4; omega) S1x64 _ rfl rfl 2 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- Row 19 of the folded matrix. -/
theorem entry_row19 (m : (ℓ : Loc nD τ sig) → Buf (Elt Ideal) ℓ) (c : Dev nD) (j : Fin 64) :
    (StableHlo.after hostOps0 (fun b => m (c, b)) (Proc.devRef .tc main_v152) : S20x64.Idx → EReal) (ValueIdx.ix2 (19 : Fin 20) j)
      = rowOf 60#32 (scaled 0x3F170D19#32 (flat (m (c, Proc.devRef .tc main_arg5)))) (ValueIdx.ix2 0 j) := by
  simp only [StableHlo.after_cons, StableHlo.after_nil, StableHlo.binary_result']
  refine (concatenate_apply_piece (t := S20x64) 0 _ _ (ValueIdx.ix2 (19 : Fin 20) j) 1 (by show (1 : ℕ) < 2; omega) S4x64 _ rfl rfl 16 rfl
    (ValueIdx.ix2 (3 : Fin 4) j) (fun b hb => by
      match b with
      | ⟨0, _⟩ => exact absurd rfl hb
      | ⟨1, _⟩ => rfl) rfl).trans ?_
  simp (disch := decide) only [StableHlo.nary_result', StableHlo.nary_result_ne', StableHlo.unary_result_ne']
  refine (concatenate_apply_piece (t := S4x64) 0 _ _ (ValueIdx.ix2 (3 : Fin 4) j) 3 (by show (3 : ℕ) < 4; omega) S1x64 _ rfl rfl 3 rfl
    (ValueIdx.ix2 (0 : Fin 1) j) (fun b hb => by
      match b with
      | ⟨0, _⟩ => exact absurd rfl hb
      | ⟨1, _⟩ => rfl) rfl).trans ?_
  simp (disch := decide) only [StableHlo.after_cons, StableHlo.after_nil,
    StableHlo.nullary_result', StableHlo.unary_result', StableHlo.binary_result', StableHlo.ternary_result', StableHlo.reshape_result',
    StableHlo.nary_result', StableHlo.nullary_result_ne', StableHlo.unary_result_ne', StableHlo.binary_result_ne',
    StableHlo.ternary_result_ne', StableHlo.reshape_result_ne', StableHlo.nary_result_ne', Matrix.cons_val]
  rfl

set_option maxHeartbeats 4000000 in
/-- The folded matrix as the region finds it is the specification's `M`. -/
theorem entry_matrix (κ : Cert.Spec.Consts) (hκ : Cert.Spec.Lits κ) (m : (ℓ : Loc nD τ sig) → Buf (Elt Ideal) ℓ) (c : Dev nD)
    (w0 : S2x4.Idx → ℝ) (b0 : S4.Idx → ℝ) (w1 : S2x4.Idx → ℝ) (w2 w3 : S1x4.Idx → ℝ)
    (h1 : (m ((c : Thread nD τ).loc main_arg1) : S2x4.Idx → EReal) = fun i => ((w0 i : ℝ) : EReal))
    (h2 : (m ((c : Thread nD τ).loc main_arg2) : S4.Idx → EReal) = fun i => ((b0 i : ℝ) : EReal))
    (h3 : (m ((c : Thread nD τ).loc main_arg3) : S2x4.Idx → EReal) = fun i => ((w1 i : ℝ) : EReal))
    (h4 : (m ((c : Thread nD τ).loc main_arg4) : S1x4.Idx → EReal) = fun i => ((w2 i : ℝ) : EReal))
    (h5 : (m ((c : Thread nD τ).loc main_arg5) : S1x4.Idx → EReal) = fun i => ((w3 i : ℝ) : EReal))
    (k : Fin 20) (mm : Fin 16) (u : Fin 4) :
    (V0 m c (Proc.devRef .tc main_v152) : S20x64.Idx → EReal) (ValueIdx.ix2 k ⟨4 * mm.val + u.val, by omega⟩)
      = ((Cert.Spec.M κ (fun a u => w0 (ValueIdx.ix2 a u)) (fun u => b0 (ValueIdx.ix1 u)) (fun a u => w1 (ValueIdx.ix2 a u))
          (fun u => w2 (ValueIdx.ix2 0 u)) (fun u => w3 (ValueIdx.ix2 0 u)) k mm u : ℝ) : EReal) := by
  have h1' : (m (c, Proc.devRef .tc main_arg1) : FVec Ideal S2x4 .f32) = fun i => ((w0 i : ℝ) : EReal) := h1
  have h2' : (m (c, Proc.devRef .tc main_arg2) : FVec Ideal S4 .f32) = fun i => ((b0 i : ℝ) : EReal) := h2
  have h3' : (m (c, Proc.devRef .tc main_arg3) : FVec Ideal S2x4 .f32) = fun i => ((w1 i : ℝ) : EReal) := h3
  have h4' : (m (c, Proc.devRef .tc main_arg4) : FVec Ideal S1x4 .f32) = fun i => ((w2 i : ℝ) : EReal) := h4
  have h5' : (m (c, Proc.devRef .tc main_arg5) : FVec Ideal S1x4 .f32) = fun i => ((w3 i : ℝ) : EReal) := h5
  show (StableHlo.after hostOps0 (fun b => m (c, b)) (Proc.devRef .tc main_v152) : S20x64.Idx → EReal)
    (ValueIdx.ix2 k ⟨4 * mm.val + u.val, by omega⟩) = _
  fin_cases k
  · refine (entry_row0 m c _).trans ?_
    refine (row_value _ _ 0 (by omega) rfl (0 : Fin 16) rfl (fun u => κ.c0 * w0 (ValueIdx.ix2 0 u) + b0 (ValueIdx.ix1 u)) (fun u => ?_) mm u _).trans ?_
    · show scaled 0x3E906EBB#32 (sliceRow0 (m (c, Proc.devRef .tc main_arg1))) (ValueIdx.ix1 u) + (m (c, Proc.devRef .tc main_arg2) : FVec Ideal S4 .f32) (ValueIdx.ix1 u) = _
      rw [scaled_apply, sliceRow0_apply, h1', h2', hκ.h0, ← EReal.coe_mul, ← EReal.coe_add]
    · rfl
  · refine (entry_row1 m c _).trans ?_
    refine (row_value _ _ 0 (by omega) rfl (0 : Fin 16) rfl (fun u => κ.c0 * w0 (ValueIdx.ix2 1 u)) (fun u => ?_) mm u _).trans ?_
    · rw [scaled_apply, sliceRow1_apply, h1', hκ.h0, ← EReal.coe_mul]
    · rfl
  · refine (entry_row2 m c _).trans ?_
    refine (row_value _ _ 4 (by omega) rfl (1 : Fin 16) rfl (fun u => κ.c1 * w1 (ValueIdx.ix2 0 u)) (fun u => ?_) mm u _).trans ?_
    · rw [scaled_apply, sliceRow0_apply, h3', hκ.h1, ← EReal.coe_mul]
    · rfl
  · refine (entry_row3 m c _).trans ?_
    refine (row_value _ _ 8 (by omega) rfl (2 : Fin 16) rfl (fun u => κ.c1 * w1 (ValueIdx.ix2 0 u)) (fun u => ?_) mm u _).trans ?_
    · rw [scaled_apply, sliceRow0_apply, h3', hκ.h1, ← EReal.coe_mul]
    · rfl
  · refine (entry_row4 m c _).trans ?_
    refine (row_value _ _ 12 (by omega) rfl (3 : Fin 16) rfl (fun u => κ.c1 * w1 (ValueIdx.ix2 0 u)) (fun u => ?_) mm u _).trans ?_
    · rw [scaled_apply, sliceRow0_apply, h3', hκ.h1, ← EReal.coe_mul]
    · rfl
  · refine (entry_row5 m c _).trans ?_
    refine (row_value _ _ 4 (by omega) rfl (1 : Fin 16) rfl (fun u => κ.c1 * w1 (ValueIdx.ix2 1 u)) (fun u => ?_) mm u _).trans ?_
    · rw [scaled_apply, sliceRow1_apply, h3', hκ.h1, ← EReal.coe_mul]
    · rfl
  · refine (entry_row6 m c _).trans ?_
    refine (row_value _ _ 8 (by omega) rfl (2 : Fin 16) rfl (fun u => κ.c1 * w1 (ValueIdx.ix2 1 u)) (fun u => ?_) mm u _).trans ?_
    · rw [scaled_apply, sliceRow1_apply, h3', hκ.h1, ← EReal.coe_mul]
    · rfl
  · refine (entry_row7 m c _).trans ?_
    refine (row_value _ _ 12 (by omega) rfl (3 : Fin 16) rfl (fun u => κ.c1 * w1 (ValueIdx.ix2 1 u)) (fun u => ?_) mm u _).trans ?_
    · rw [scaled_apply, sliceRow1_apply, h3', hκ.h1, ← EReal.coe_mul]
    · rfl
  · refine (entry_row8 m c _).trans ?_
    refine (row_value _ _ 16 (by omega) rfl (4 : Fin 16) rfl (fun u => κ.cxy * w2 (ValueIdx.ix2 0 u)) (fun u => ?_) mm u _).trans ?_
    · rw [scaled_apply, flat_apply, h4', hκ.hxy, ← EReal.coe_mul]
    · rfl
  · refine (entry_row9 m c _).trans ?_
    refine (row_value _ _ 20 (by omega) rfl (5 : Fin 16) rfl (fun u => κ.cxy * w2 (ValueIdx.ix2 0 u)) (fun u => ?_) mm u _).trans ?_
    · rw [scaled_apply, flat_apply, h4', hκ.hxy, ← EReal.coe_mul]
    · rfl
  · refine (entry_row10 m c _).trans ?_
    refine (row_value _ _ 24 (by omega) rfl (6 : Fin 16) rfl (fun u => κ.c20 * w2 (ValueIdx.ix2 0 u)) (fun u => ?_) mm u _).trans ?_
    · rw [scaled_apply, flat_apply, h4', hκ.h20, ← EReal.coe_mul]
    · rfl
  · refine (entry_row11 m c _).trans ?_
    refine (row_value _ _ 28 (by omega) rfl (7 : Fin 16) rfl (fun u => κ.cxy * w2 (ValueIdx.ix2 0 u)) (fun u => ?_) mm u _).trans ?_
    · rw [scaled_apply, flat_apply, h4', hκ.hxy, ← EReal.coe_mul]
    · rfl
  · refine (entry_row12 m c _).trans ?_
    refine (row_value _ _ 32 (by omega) rfl (8 : Fin 16) rfl (fun u => κ.c22 * w2 (ValueIdx.ix2 0 u)) (fun u => ?_) mm u _).trans ?_
    · rw [scaled_apply, flat_apply, h4', hκ.h22, ← EReal.coe_mul]
    · rfl
  · refine (entry_row13 m c _).trans ?_
    refine (row_value _ _ 36 (by omega) rfl (9 : Fin 16) rfl (fun u => κ.c33 * w3 (ValueIdx.ix2 0 u)) (fun u => ?_) mm u _).trans ?_
    · rw [scaled_apply, flat_apply, h5', hκ.h33, ← EReal.coe_mul]
    · rfl
  · refine (entry_row14 m c _).trans ?_
    refine (row_value _ _ 40 (by omega) rfl (10 : Fin 16) rfl (fun u => κ.c32 * w3 (ValueIdx.ix2 0 u)) (fun u => ?_) mm u _).trans ?_
    · rw [scaled_apply, flat_apply, h5', hκ.h32, ← EReal.coe_mul]
    · rfl
  · refine (entry_row15 m c _).trans ?_
    refine (row_value _ _ 44 (by omega) rfl (11 : Fin 16) rfl (fun u => κ.c31 * w3 (ValueIdx.ix2 0 u)) (fun u => ?_) mm u _).trans ?_
    · rw [scaled_apply, flat_apply, h5', hκ.h31, ← EReal.coe_mul]
    · rfl
  · refine (entry_row16 m c _).trans ?_
    refine (row_value _ _ 48 (by omega) rfl (12 : Fin 16) rfl (fun u => κ.c30 * w3 (ValueIdx.ix2 0 u)) (fun u => ?_) mm u _).trans ?_
    · rw [scaled_apply, flat_apply, h5', hκ.h30, ← EReal.coe_mul]
    · rfl
  · refine (entry_row17 m c _).trans ?_
    refine (row_value _ _ 52 (by omega) rfl (13 : Fin 16) rfl (fun u => κ.c31 * w3 (ValueIdx.ix2 0 u)) (fun u => ?_) mm u _).trans ?_
    · rw [scaled_apply, flat_apply, h5', hκ.h31, ← EReal.coe_mul]
    · rfl
  · refine (entry_row18 m c _).trans ?_
    refine (row_value _ _ 56 (by omega) rfl (14 : Fin 16) rfl (fun u => κ.c3p * w3 (ValueIdx.ix2 0 u)) (fun u => ?_) mm u _).trans ?_
    · rw [scaled_apply, flat_apply, h5', hκ.h3p, ← EReal.coe_mul]
    · rfl
  · refine (entry_row19 m c _).trans ?_
    refine (row_value _ _ 60 (by omega) rfl (15 : Fin 16) rfl (fun u => κ.c33 * w3 (ValueIdx.ix2 0 u)) (fun u => ?_) mm u _).trans ?_
    · rw [scaled_apply, flat_apply, h5', hκ.h33, ← EReal.coe_mul]
    · rfl

end Cert.MatSide

end
-- ==== Proof.Algebra.lean ====
/-
  The one law that joins the two sides: folding the harmonic constants and the weights into a block matrix first and
  contracting the twenty raw features with it afterwards gives, row by row, the reference's harmonic-times-weight
  expression. Over the reals this is distributivity and commutativity; a feature that does not feed a row meets a zero
  of the matrix, and a real times zero is zero — which is where finiteness of the points is used.
-/
import proofs.«118229_j8839042695322_2_alg».proof.Proof.Spec
import proofs.«118229_j8839042695322_2_alg».proof.Proof.KBody

noncomputable section

namespace Cert.Algebra

open Idealize.ShloMosaic Cert.Spec Cert.KSide

/-- Feature `k` of a real point. -/
def featR (px py pz : ℝ) (k : Fin 20) : ℝ :=
  let x2 := px * px
  let y2 := py * py
  let z2 := pz * pz
  let n2 := x2 + y2 + z2
  match k with
  | ⟨0, _⟩ => 1
  | ⟨1, _⟩ => n2
  | ⟨2, _⟩ => py
  | ⟨3, _⟩ => pz
  | ⟨4, _⟩ => px
  | ⟨5, _⟩ => n2 * py
  | ⟨6, _⟩ => n2 * pz
  | ⟨7, _⟩ => n2 * px
  | ⟨8, _⟩ => px * py
  | ⟨9, _⟩ => py * pz
  | ⟨10, _⟩ => 2 * z2 - x2 - y2
  | ⟨11, _⟩ => px * pz
  | ⟨12, _⟩ => x2 - y2
  | ⟨13, _⟩ => py * (3 * x2 - y2)
  | ⟨14, _⟩ => px * py * pz
  | ⟨15, _⟩ => py * (4 * z2 - x2 - y2)
  | ⟨16, _⟩ => pz * (2 * z2 - 3 * x2 - 3 * y2)
  | ⟨17, _⟩ => px * (4 * z2 - x2 - y2)
  | ⟨18, _⟩ => pz * (x2 - y2)
  | ⟨19, _⟩ => px * (x2 - 3 * y2)
  | ⟨n + 20, h⟩ => absurd h (by omega)

/-- On a real point the body's features are the real features. -/
theorem featE_coe (px py pz : ℝ) (k : Fin 20) :
    featE (px : EReal) (py : EReal) (pz : EReal) k = ((featR px py pz k : ℝ) : EReal) := by
  fin_cases k <;>
    simp only [featE, featR, lit_one, lit_two, lit_three, lit_four, ← EReal.coe_mul, ← EReal.coe_add, ← EReal.coe_sub]

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the twenty features against column (mm, u) of the folded matrix are row mm, channel u. -/
theorem row_real (κ : Consts) (px py pz : ℝ) (w0 : Fin 2 → Fin 4 → ℝ) (b0 : Fin 4 → ℝ) (w1 : Fin 2 → Fin 4 → ℝ)
    (w2 w3 : Fin 4 → ℝ) (mm : Fin 16) (u : Fin 4) :
    ∑ k : Fin 20, featR px py pz k * M κ w0 b0 w1 w2 w3 k mm u = P κ px py pz w0 b0 w1 w2 w3 mm u := by
  fin_cases mm <;>
    simp [Fin.sum_univ_succ, featR, Cert.Spec.M, Cert.Spec.blk, Cert.Spec.Mrow, Cert.Spec.P] <;> ring

/-- The same on the extended reals, at a real point and a real matrix. -/
theorem row_sum (κ : Consts) (px py pz : ℝ) (w0 : Fin 2 → Fin 4 → ℝ) (b0 : Fin 4 → ℝ) (w1 : Fin 2 → Fin 4 → ℝ)
    (w2 w3 : Fin 4 → ℝ) (mm : Fin 16) (u : Fin 4) :
    ∑ k : Fin 20, featE (px : EReal) (py : EReal) (pz : EReal) k * ((M κ w0 b0 w1 w2 w3 k mm u : ℝ) : EReal)
      = ((P κ px py pz w0 b0 w1 w2 w3 mm u : ℝ) : EReal) := by
  rw [← row_real, coe_sum]
  refine Finset.sum_congr rfl fun k _ => ?_
  rw [featE_coe, EReal.coe_mul]

end Cert.Algebra

end
-- ==== Proof.KFinal.lean ====
/-
  The kernel program's run, read: on argument arrays of reals its result array is the specification's `out`.

  Entry (b, n, mm, u) of the result is the sum over the twenty features of point n of batch b (read through the
  transposed points) against column 4·mm + u of the folded matrix (read through the twenty row writes); on reals that
  sum is row mm, channel u of the specification.
-/
import proofs.«118229_j8839042695322_2_alg».proof.Proof.KOut
import proofs.«118229_j8839042695322_2_alg».proof.Proof.MatSide
import proofs.«118229_j8839042695322_2_alg».proof.Proof.Algebra

set_option maxRecDepth 16384

noncomputable section

namespace Cert.KSide

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

variable (m : (ℓ : Loc nD τ sig) → Buf (Elt Ideal) ℓ)

/-- On real arguments the kernel program's result array is the specification's. -/
theorem kernel_out (κ : Cert.Spec.Consts) (hκ : Cert.Spec.Lits κ) (c : Dev nD)
    (x : S32x32768x3.Idx → ℝ) (w0 : S2x4.Idx → ℝ) (b0 : S4.Idx → ℝ) (w1 : S2x4.Idx → ℝ) (w2 w3 : S1x4.Idx → ℝ)
    (h0 : (m ((c : Thread nD τ).loc main_arg0) : S32x32768x3.Idx → EReal) = fun i => ((x i : ℝ) : EReal))
    (h1 : (m ((c : Thread nD τ).loc main_arg1) : S2x4.Idx → EReal) = fun i => ((w0 i : ℝ) : EReal))
    (h2 : (m ((c : Thread nD τ).loc main_arg2) : S4.Idx → EReal) = fun i => ((b0 i : ℝ) : EReal))
    (h3 : (m ((c : Thread nD τ).loc main_arg3) : S2x4.Idx → EReal) = fun i => ((w1 i : ℝ) : EReal))
    (h4 : (m ((c : Thread nD τ).loc main_arg4) : S1x4.Idx → EReal) = fun i => ((w2 i : ℝ) : EReal))
    (h5 : (m ((c : Thread nD τ).loc main_arg5) : S1x4.Idx → EReal) = fun i => ((w3 i : ℝ) : EReal)) :
    (Pipeline.afterTail₀ cfgs (dats m) 0 (V0 m) [hostOps1] c main_v154 : S32x32768x16x4.Idx → EReal)
      = Cert.Spec.out κ x w0 b0 w1 w2 w3 := by
  funext i
  obtain ⟨b, n, mm, u, rfl⟩ : ∃ (b : Fin 32) (n : Fin 32768) (mm : Fin 16) (u : Fin 4), i = ix4 b n mm u :=
    ⟨i 0, i 1, i 2, i 3, eq_ix4 i⟩
  rw [result_at]
  have hp : ∀ a : Fin 3, V m c main_v0 (ix3 b a n) = ((x (ix3 b n a) : ℝ) : EReal) := fun a => by
    have e := Cert.MatSide.entry_points m c b a n
    rw [h0] at e
    exact e
  rw [hp 0, hp 1, hp 2]
  have hm : ∀ k : Fin 20, V m c main_v152 (ix2 k (⟨4 * mm.val + u.val, by omega⟩ : Fin 64))
      = ((Cert.Spec.M κ (fun a u => w0 (ix2 a u)) (fun u => b0 (ix1 u)) (fun a u => w1 (ix2 a u)) (fun u => w2 (ix2 0 u))
          (fun u => w3 (ix2 0 u)) k mm u : ℝ) : EReal) := fun k =>
    Cert.MatSide.entry_matrix κ hκ m c w0 b0 w1 w2 w3 h1 h2 h3 h4 h5 k mm u
  rw [Finset.sum_congr rfl fun k _ => by rw [hm k]]
  exact Cert.Algebra.row_sum κ _ _ _ _ _ _ _ _ mm u

/-- The run, with the result buffer named and the arguments kept. -/
theorem run_value (ρ : Dev nD → PrngReg) :
    θ_run defs (onTc (τ := τ) (main (F := Ideal))) ⟨m, fun _ => 0, ρ⟩ (fun r => ∀ c : Dev nD,
      r.2.mem ((c.tc : Thread nD τ).loc main_v154) = Pipeline.afterTail₀ cfgs (dats m) 0 (V0 m) [hostOps1] c main_v154
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v154 (Pipeline.mem_restRefs_of main_v154 (by decide) (by decide)),
     ((h c).2 main_arg0 (Pipeline.mem_restRefs_of main_arg0 (by decide) (by decide))).trans
        ((W_arg m (dats m) c main_arg0 (by decide) (by decide)).trans (V_main_arg0 m c)),
     ((h c).2 main_arg1 (Pipeline.mem_restRefs_of main_arg1 (by decide) (by decide))).trans
        ((W_arg m (dats m) c main_arg1 (by decide) (by decide)).trans (V_main_arg1 m c)),
     ((h c).2 main_arg2 (Pipeline.mem_restRefs_of main_arg2 (by decide) (by decide))).trans
        ((W_arg m (dats m) c main_arg2 (by decide) (by decide)).trans (V_main_arg2 m c)),
     ((h c).2 main_arg3 (Pipeline.mem_restRefs_of main_arg3 (by decide) (by decide))).trans
        ((W_arg m (dats m) c main_arg3 (by decide) (by decide)).trans (V_main_arg3 m c)),
     ((h c).2 main_arg4 (Pipeline.mem_restRefs_of main_arg4 (by decide) (by decide))).trans
        ((W_arg m (dats m) c main_arg4 (by decide) (by decide)).trans (V_main_arg4 m c)),
     ((h c).2 main_arg5 (Pipeline.mem_restRefs_of main_arg5 (by decide) (by decide))).trans
        ((W_arg m (dats m) c main_arg5 (by decide) (by decide)).trans (V_main_arg5 m c))⟩) (run_main m ρ)

end Cert.KSide

end
-- ==== Proof.Finite.lean ====
/-
  The precondition read: every entry of every argument array is a real.

  The printed predicate is the conjunction, over the six arrays, of "all entries satisfy |x| < +∞". At the ideal values
  |x| is max x (-x) and the comparison is the order of the extended reals, so an entry passing it is neither +∞ nor -∞.
-/
import proofs.«118229_j8839042695322_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx

instance : Subsingleton (⟨0, ![]⟩ : Shape).Idx := ⟨fun a b => funext fun d => d.elim0⟩

/-- An extended real whose absolute value is below the pattern of +∞ is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hinf : Ideal.ofBits .f32 0x7F800000#32 = (⊤ : EReal) := by simp [Ideal.ofBits, Ideal.ieee]
  rw [Ideal.hostAbsf_def, Ideal.cmpf_def, Ideal.absf_def, hinf] at h
  induction x using EReal.rec with
  | bot => simp [Ideal.cmp] at h
  | coe r => exact ⟨r, rfl⟩
  | top => simp [Ideal.cmp] at h

/-- `jnp.all(|x| < inf)` holding of an array says the array is an array of reals. -/
theorem reals_of_all {s : Shape} {axes : List (Fin s.rank)} (x : FVec Ideal s .f32)
    (hr : s.ReducesTo axes (⟨0, ![]⟩ : Shape)) (hb : (⟨0, ![]⟩ : Shape).BroadcastsInDim s (![] : Fin 0 → Fin s.rank))
    (hu : 0 < (⟨0, ![]⟩ : Shape).numel)
    (h : Host.reduce IntOp.andi (cmpf .olt (Host.absf x) (broadcastInDim s ![] hb (constant (F := Ideal) (⟨0, ![]⟩ : Shape) .f32 0x7F800000#32)))
      (constantI (⟨0, ![]⟩ : Shape) 1 1#1) hr hu ix0 = 1#1) :
    ∃ xr : s.Idx → ℝ, x = fun i => ((xr i : ℝ) : EReal) := by
  have e : ∀ i, ∃ r : ℝ, x i = (r : EReal) := fun i => by
    have hi := Host.reduce_andi_all _ _ hr hu ix0 h i
    rw [cmpf_apply, broadcastInDim_apply (![] : Fin 0 → Fin s.rank) hb _ i ix0 (fun a => a.elim0)] at hi
    exact real_of_abs_lt (x i) hi
  choose xr hxr using e
  exact ⟨xr, funext hxr⟩

open Cert.Pre_finite_inputs in
/-- The printed precondition at the ideal values: all six argument arrays are arrays of reals. -/
theorem reals_of_pre [Cert.Pre_finite_inputs.Facts] (a0 : FVec Ideal S32x32768x3 .f32) (a1 : FVec Ideal S2x4 .f32)
    (a2 : FVec Ideal S4 .f32) (a3 : FVec Ideal S2x4 .f32) (a4 a5 : FVec Ideal S1x4 .f32)
    (h : fn (F := Ideal) a0 a1 a2 a3 a4 a5 = fun _ => 1#1) :
    (∃ x : S32x32768x3.Idx → ℝ, a0 = fun i => ((x i : ℝ) : EReal))
    ∧ (∃ x : S2x4.Idx → ℝ, a1 = fun i => ((x i : ℝ) : EReal))
    ∧ (∃ x : S4.Idx → ℝ, a2 = fun i => ((x i : ℝ) : EReal))
    ∧ (∃ x : S2x4.Idx → ℝ, a3 = fun i => ((x i : ℝ) : EReal))
    ∧ (∃ x : S1x4.Idx → ℝ, a4 = fun i => ((x i : ℝ) : EReal))
    ∧ (∃ x : S1x4.Idx → ℝ, a5 = fun i => ((x i : ℝ) : EReal)) := by
  have h0 := congrFun h ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h00, h1⟩ := IntOp.andi_eq_one.1 h01
  exact ⟨reals_of_all a0 _ _ _ h00, reals_of_all a1 _ _ _ h1, reals_of_all a2 _ _ _ h2, reals_of_all a3 _ _ _ h3,
    reals_of_all a4 _ _ _ h4, reals_of_all a5 _ _ _ h5⟩

end Cert.Finite

end
-- ==== Proof.RefSide.lean ====
/-
  The reference program's result is the common real polynomial.

  The reference cuts a point p = (px, py, pz) out of the argument array, forms the squares and n2 = px² + py² + pz²,
  builds the harmonics of degree 0, 1, 2, 3 as arrays over the points (a concatenation of one-column arrays per
  degree), multiplies each by the radial channels 1 and n2 (degree 0 and 1) or by 1 alone (degree 2 and 3), contracts
  the channel axis with the degree's weights, adds the bias to degree 0, and lays the four results end to end along
  the row axis. Each stage is read at an index; an index's first two coordinates name the point, and every value is
  the coercion of a real, so the identity with the specification is an identity of real polynomials.
-/
import proofs.«118229_j8839042695322_2_alg».proof.Proof.Gen.ReferenceIdeal.Read
import proofs.«118229_j8839042695322_2_alg».proof.Proof.Spec

noncomputable section

namespace Cert.RefSide

open Cert.ReferenceIdeal Cert.ReferenceIdeal.Gen Cert.ReferenceIdeal.Read Idealize.ShloMosaic Idealize.ShloMosaic.ValueIdx
open Cert.Spec

/-- A real array seen as an array of extended reals. -/
abbrev up {s : Shape} (x : s.Idx → ℝ) : s.Idx → EReal := fun i => ((x i : ℝ) : EReal)

variable (κ : Consts) (hκ : Lits κ) (x : S32x32768x3.Idx → ℝ)

/-! ## The point's coordinates and squared norm -/

/-- The first coordinate of the point an index over the points names. -/
theorem px_at (i : S32x32768.Idx) : val_main_v3 (F := Ideal) (up x) i = ((x (ix3 (i 0) (i 1) 0) : ℝ) : EReal) := by
  rw [val_main_v3_apply, val_main_v2_apply]
  refine congrArg (up x) (funext fun a => Fin.ext ?_)
  have h0 : (i 0).val < 32 := (i 0).isLt
  have h1 : (i 1).val < 32768 := (i 1).isLt
  match a with
  | ⟨0, _⟩ => show ((i 0).val * 32768 + (i 1).val) / 32768 = (i 0).val; omega
  | ⟨1, _⟩ => show ((i 0).val * 32768 + (i 1).val) / 1 % 32768 = (i 1).val; omega
  | ⟨2, _⟩ => rfl

/-- The second coordinate. -/
theorem py_at (i : S32x32768.Idx) : val_main_v5 (F := Ideal) (up x) i = ((x (ix3 (i 0) (i 1) 1) : ℝ) : EReal) := by
  rw [val_main_v5_apply, val_main_v4_apply]
  refine congrArg (up x) (funext fun a => Fin.ext ?_)
  have h0 : (i 0).val < 32 := (i 0).isLt
  have h1 : (i 1).val < 32768 := (i 1).isLt
  match a with
  | ⟨0, _⟩ => show ((i 0).val * 32768 + (i 1).val) / 32768 = (i 0).val; omega
  | ⟨1, _⟩ => show ((i 0).val * 32768 + (i 1).val) / 1 % 32768 = (i 1).val; omega
  | ⟨2, _⟩ => rfl

/-- The third coordinate. -/
theorem pz_at (i : S32x32768.Idx) : val_main_v7 (F := Ideal) (up x) i = ((x (ix3 (i 0) (i 1) 2) : ℝ) : EReal) := by
  rw [val_main_v7_apply, val_main_v6_apply]
  refine congrArg (up x) (funext fun a => Fin.ext ?_)
  have h0 : (i 0).val < 32 := (i 0).isLt
  have h1 : (i 1).val < 32768 := (i 1).isLt
  match a with
  | ⟨0, _⟩ => show ((i 0).val * 32768 + (i 1).val) / 32768 = (i 0).val; omega
  | ⟨1, _⟩ => show ((i 0).val * 32768 + (i 1).val) / 1 % 32768 = (i 1).val; omega
  | ⟨2, _⟩ => rfl

/-- The index the sum over the coordinate axis reads at coordinate k. -/
theorem idx_v1_at (i : S32x32768.Idx) (k : Fin 3) : idx_main_v1 i k = (ix3 (i 0) (i 1) k : S32x32768x3.Idx) :=
  funext fun a => by match a with | ⟨0, _⟩ => rfl | ⟨1, _⟩ => rfl | ⟨2, _⟩ => rfl

/-- The squared norm of the point. -/
theorem n2_at (i : S32x32768.Idx) : val_main_v1 (F := Ideal) (up x) i
    = ((x (ix3 (i 0) (i 1) 0) * x (ix3 (i 0) (i 1) 0) + x (ix3 (i 0) (i 1) 1) * x (ix3 (i 0) (i 1) 1)
        + x (ix3 (i 0) (i 1) 2) * x (ix3 (i 0) (i 1) 2) : ℝ) : EReal) := by
  rw [val_main_v1_apply, val_main_cst_apply, Fin.sum_univ_three]
  simp only [idx_v1_at, val_main_v0_apply, Ideal.ofBits_def, Ideal.ofBits_zero_f32, Ideal.mulf_def, zero_add,
    ← EReal.coe_mul, ← EReal.coe_add]

/-! ## The harmonics over the points

Each is a product of a constant with coordinates and differences of squares, computed pointwise; the constants are
broadcast scalars, read the same at every index. -/

set_option hygiene false in
/-- Unfold the pointwise stages over the points down to the coordinates, read the literals, and push the coercion
    outward. -/
macro "pointwise" : tactic => `(tactic|
  simp only [val_main_v8_apply, val_main_v9_apply, val_main_v10_apply,
    val_main_v20_apply, val_main_v21_apply, val_main_v22_apply, val_main_v23_apply, val_main_v24_apply, val_main_v25_apply,
    val_main_v26_apply, val_main_v27_apply, val_main_v28_apply, val_main_v29_apply, val_main_v30_apply, val_main_v31_apply,
    val_main_v32_apply, val_main_v33_apply, val_main_v34_apply, val_main_v35_apply, val_main_v36_apply, val_main_v37_apply,
    val_main_v44_apply, val_main_v45_apply, val_main_v46_apply, val_main_v47_apply, val_main_v48_apply, val_main_v49_apply,
    val_main_v50_apply, val_main_v51_apply, val_main_v52_apply, val_main_v53_apply, val_main_v54_apply, val_main_v55_apply,
    val_main_v56_apply, val_main_v57_apply, val_main_v58_apply, val_main_v59_apply, val_main_v60_apply, val_main_v61_apply,
    val_main_v62_apply, val_main_v63_apply, val_main_v64_apply, val_main_v65_apply, val_main_v66_apply, val_main_v67_apply,
    val_main_v68_apply, val_main_v69_apply, val_main_v70_apply, val_main_v71_apply, val_main_v72_apply, val_main_v73_apply,
    val_main_v74_apply, val_main_v75_apply, val_main_v76_apply, val_main_v77_apply, val_main_v78_apply, val_main_v79_apply,
    val_main_v80_apply, val_main_v81_apply, val_main_v82_apply, val_main_v83_apply, val_main_v84_apply, val_main_v85_apply,
    val_main_v86_apply, val_main_v87_apply, val_main_v88_apply,
    val_main_cst_3_apply, val_main_cst_4_apply, val_main_cst_5_apply, val_main_cst_6_apply, val_main_cst_7_apply,
    val_main_cst_8_apply, val_main_cst_9_apply, val_main_cst_10_apply, val_main_cst_11_apply, val_main_cst_12_apply,
    val_main_cst_13_apply, val_main_cst_14_apply, val_main_cst_15_apply, val_main_cst_16_apply, val_main_cst_17_apply,
    val_main_cst_18_apply, val_main_cst_19_apply, val_main_cst_20_apply, val_main_cst_21_apply, val_main_cst_22_apply,
    px_at, py_at, pz_at, Ideal.ofBits_def, Ideal.mulf_def, Ideal.subf_def,
    hκ.hxy, hκ.h20, hκ.h22, hκ.h33, hκ.h32, hκ.h31, hκ.h30, hκ.h3p, lit_two, lit_three, lit_four,
    ← EReal.coe_mul, ← EReal.coe_sub])

section Harmonics
include hκ

theorem y2a_at (i : S32x32768.Idx) : val_main_v22 (F := Ideal) (up x) i
    = ((κ.cxy * x (ix3 (i 0) (i 1) 0) * x (ix3 (i 0) (i 1) 1) : ℝ) : EReal) := by pointwise
theorem y2b_at (i : S32x32768.Idx) : val_main_v25 (F := Ideal) (up x) i
    = ((κ.cxy * x (ix3 (i 0) (i 1) 1) * x (ix3 (i 0) (i 1) 2) : ℝ) : EReal) := by pointwise
theorem y2c_at (i : S32x32768.Idx) : val_main_v31 (F := Ideal) (up x) i
    = ((κ.c20 * (2 * (x (ix3 (i 0) (i 1) 2) * x (ix3 (i 0) (i 1) 2)) - x (ix3 (i 0) (i 1) 0) * x (ix3 (i 0) (i 1) 0)
        - x (ix3 (i 0) (i 1) 1) * x (ix3 (i 0) (i 1) 1)) : ℝ) : EReal) := by pointwise
theorem y2d_at (i : S32x32768.Idx) : val_main_v34 (F := Ideal) (up x) i
    = ((κ.cxy * x (ix3 (i 0) (i 1) 0) * x (ix3 (i 0) (i 1) 2) : ℝ) : EReal) := by pointwise
theorem y2e_at (i : S32x32768.Idx) : val_main_v37 (F := Ideal) (up x) i
    = ((κ.c22 * (x (ix3 (i 0) (i 1) 0) * x (ix3 (i 0) (i 1) 0) - x (ix3 (i 0) (i 1) 1) * x (ix3 (i 0) (i 1) 1)) : ℝ) : EReal) := by
  pointwise

theorem y3a_at (i : S32x32768.Idx) : val_main_v49 (F := Ideal) (up x) i
    = ((κ.c33 * x (ix3 (i 0) (i 1) 1) * (3 * (x (ix3 (i 0) (i 1) 0) * x (ix3 (i 0) (i 1) 0))
        - x (ix3 (i 0) (i 1) 1) * x (ix3 (i 0) (i 1) 1)) : ℝ) : EReal) := by pointwise
theorem y3b_at (i : S32x32768.Idx) : val_main_v53 (F := Ideal) (up x) i
    = ((κ.c32 * x (ix3 (i 0) (i 1) 0) * x (ix3 (i 0) (i 1) 1) * x (ix3 (i 0) (i 1) 2) : ℝ) : EReal) := by pointwise
theorem y3c_at (i : S32x32768.Idx) : val_main_v60 (F := Ideal) (up x) i
    = ((κ.c31 * x (ix3 (i 0) (i 1) 1) * (4 * (x (ix3 (i 0) (i 1) 2) * x (ix3 (i 0) (i 1) 2))
        - x (ix3 (i 0) (i 1) 0) * x (ix3 (i 0) (i 1) 0) - x (ix3 (i 0) (i 1) 1) * x (ix3 (i 0) (i 1) 1)) : ℝ) : EReal) := by pointwise
theorem y3d_at (i : S32x32768.Idx) : val_main_v71 (F := Ideal) (up x) i
    = ((κ.c30 * x (ix3 (i 0) (i 1) 2) * (2 * (x (ix3 (i 0) (i 1) 2) * x (ix3 (i 0) (i 1) 2))
        - 3 * (x (ix3 (i 0) (i 1) 0) * x (ix3 (i 0) (i 1) 0)) - 3 * (x (ix3 (i 0) (i 1) 1) * x (ix3 (i 0) (i 1) 1))) : ℝ) : EReal) := by
  pointwise
theorem y3e_at (i : S32x32768.Idx) : val_main_v78 (F := Ideal) (up x) i
    = ((κ.c31 * x (ix3 (i 0) (i 1) 0) * (4 * (x (ix3 (i 0) (i 1) 2) * x (ix3 (i 0) (i 1) 2))
        - x (ix3 (i 0) (i 1) 0) * x (ix3 (i 0) (i 1) 0) - x (ix3 (i 0) (i 1) 1) * x (ix3 (i 0) (i 1) 1)) : ℝ) : EReal) := by pointwise
theorem y3f_at (i : S32x32768.Idx) : val_main_v82 (F := Ideal) (up x) i
    = ((κ.c3p * x (ix3 (i 0) (i 1) 2) * (x (ix3 (i 0) (i 1) 0) * x (ix3 (i 0) (i 1) 0)
        - x (ix3 (i 0) (i 1) 1) * x (ix3 (i 0) (i 1) 1)) : ℝ) : EReal) := by pointwise
theorem y3g_at (i : S32x32768.Idx) : val_main_v88 (F := Ideal) (up x) i
    = ((κ.c33 * x (ix3 (i 0) (i 1) 0) * (x (ix3 (i 0) (i 1) 0) * x (ix3 (i 0) (i 1) 0)
        - 3 * (x (ix3 (i 0) (i 1) 1) * x (ix3 (i 0) (i 1) 1))) : ℝ) : EReal) := by pointwise

end Harmonics

/-! ## The radial channels: the broadcast one and the squared norm -/

/-- The squared norm of the point (p, q) of the real array. -/
abbrev nsq (p : Fin 32) (q : Fin 32768) : ℝ :=
  x (ix3 p q 0) * x (ix3 p q 0) + x (ix3 p q 1) * x (ix3 p q 1) + x (ix3 p q 2) * x (ix3 p q 2)

/-- The broadcast one over the points. -/
theorem one2_at (i : S32x32768.Idx) : val_main_v97 (F := Ideal) i = ((1 : ℝ) : EReal) := by
  rw [val_main_v97_apply, val_main_cst_23_apply, Ideal.ofBits_def, lit_one]

/-! ## Degree 0: the constant harmonic in the channels 1 and n2, contracted with w0, plus the bias -/

section Degree0
include hκ

/-- The degree-0 harmonic. -/
theorem y0_at (j : S32x32768x1.Idx) : val_main_v13 (F := Ideal) j = ((κ.c0 * 1 : ℝ) : EReal) := by
  simp only [val_main_v13_apply, val_main_v12_apply, val_main_v11_apply, val_main_cst_1_apply, val_main_cst_0_apply,
    Ideal.ofBits_def, hκ.h0, lit_one, Ideal.mulf_def, ← EReal.coe_mul]

/-- Channel 1 of degree 0. -/
theorem ch0_at (j : S32x32768x1.Idx) : val_main_v99 (F := Ideal) j = ((1 * (κ.c0 * 1) : ℝ) : EReal) := by
  simp only [val_main_v99_apply, val_main_v98_apply, one2_at, y0_at κ hκ, Ideal.mulf_def, ← EReal.coe_mul]

/-- Channel n2 of degree 0. -/
theorem ch1_at (j : S32x32768x1.Idx) : val_main_v101 (F := Ideal) (up x) j
    = ((nsq x (j 0) (j 1) * (κ.c0 * 1) : ℝ) : EReal) := by
  rw [val_main_v101_apply, val_main_v100_apply, y0_at κ hκ, n2_at, Ideal.mulf_def, ← EReal.coe_mul]
  all_goals rfl

end Degree0

/-- The two channels of degree 0 laid side by side: channel 0. -/
theorem cat104_left (Q : S32x32768x1x2.Idx) (h : (Q 3).val = 0) :
    val_main_v104 (F := Ideal) (up x) Q = val_main_v102 (F := Ideal) (ix4 (Q 0) (Q 1) (Q 2) 0) := by
  unfold val_main_v104
  exact concatenate_pair_apply_left (s₁ := S32x32768x1x1) (s₂ := S32x32768x1x1) 3 _ _ _ Q rfl (ix4 (Q 0) (Q 1) (Q 2) 0) (fun a => by
    match a with
    | ⟨0, _⟩ => rfl
    | ⟨1, _⟩ => rfl
    | ⟨2, _⟩ => rfl
    | ⟨3, _⟩ => exact h.symm)

/-- The two channels of degree 0 laid side by side: channel 1. -/
theorem cat104_right (Q : S32x32768x1x2.Idx) (h : (Q 3).val = 1) :
    val_main_v104 (F := Ideal) (up x) Q = val_main_v103 (F := Ideal) (up x) (ix4 (Q 0) (Q 1) (Q 2) 0) := by
  unfold val_main_v104
  exact concatenate_pair_apply_right (s₁ := S32x32768x1x1) (s₂ := S32x32768x1x1) 3 _ _ _ Q rfl rfl (ix4 (Q 0) (Q 1) (Q 2) 0)
    (fun a ha => by
      match a with
      | ⟨0, _⟩ => rfl
      | ⟨1, _⟩ => rfl
      | ⟨2, _⟩ => rfl
      | ⟨3, _⟩ => exact absurd rfl ha)
    h.symm

variable (w0 : S2x4.Idx → ℝ) (b0 : S4.Idx → ℝ) (w1 : S2x4.Idx → ℝ) (w2 w3 : S1x4.Idx → ℝ)

/-- The weight index of the degree-0 contraction at channel k. -/
theorem ridx122_at (i' : S32x32768x1x4.Idx) (k : Fin 2) : ridx_main_v122 i' k = (ix2 k (i' 3) : S2x4.Idx) :=
  funext fun a => by match a with | ⟨0, _⟩ => rfl | ⟨1, _⟩ => rfl

/-- The bias index. -/
theorem bidx_at (i' : S32x32768x1x4.Idx) : idx_main_v123 (idx_main_v124 i') = (ix1 (i' 3) : S4.Idx) :=
  funext fun a => by match a with | ⟨0, _⟩ => rfl

section Degree0Row
include hκ

/-- Degree 0 contracted with its weights, plus the bias. -/
theorem deg0_at (p : Fin 32) (q : Fin 32768) (u : Fin 4) :
    val_main_v125 (F := Ideal) (up x) (up w0) (up b0) (ix4 p q 0 u)
    = ((1 * (κ.c0 * 1) * w0 (ix2 0 u) + nsq x p q * (κ.c0 * 1) * w0 (ix2 1 u) + b0 (ix1 u) : ℝ) : EReal) := by
  rw [val_main_v125_apply, val_main_v122_apply, Fin.sum_univ_two, val_main_v124_apply, val_main_v123_apply,
    cat104_left x (lidx_main_v122 (ix4 p q 0 u) 0) rfl, cat104_right x (lidx_main_v122 (ix4 p q 0 u) 1) rfl,
    val_main_v102_apply, val_main_v103_apply, ch0_at κ hκ, ch1_at κ hκ x, ridx122_at, ridx122_at, bidx_at]
  simp only [up, Ideal.addf_def, ← EReal.coe_mul, ← EReal.coe_add]
  all_goals rfl

end Degree0Row

/-! ## Degree 1: the harmonics (py, pz, px) in the channels 1 and n2, contracted with w1

A degree's harmonics are one-column arrays laid side by side: column c of the result is the c-th operand's column. -/

section Degree1
include hκ

/-- The first degree-1 harmonic. -/
theorem y1a_at (p : Fin 32) (q : Fin 32768) :
    val_main_v19 (F := Ideal) (up x) (ix3 p q 0) = ((κ.c1 * x (ix3 p q 1) : ℝ) : EReal) := by
  have e : val_main_v17 (F := Ideal) (up x) (ix3 p q 0) = val_main_v14 (F := Ideal) (up x) (ix3 p q 0) := by
    unfold val_main_v17
    apply concatenate_apply_piece (k := 0) (s₁ := S32x32768x1) (pre := 0) (i := ix3 p q 0)
    all_goals try rfl
    all_goals first
      | (show (0 : Nat) < 3; decide)
      | (intro a ha
         match a with
         | ⟨0, _⟩ => rfl
         | ⟨1, _⟩ => rfl
         | ⟨2, _⟩ => exact absurd rfl ha)
  rw [val_main_v19_apply, val_main_v18_apply, val_main_cst_2_apply, e, val_main_v14_apply, py_at, Ideal.ofBits_def, hκ.h1,
    Ideal.mulf_def, ← EReal.coe_mul]
  all_goals rfl

/-- The second degree-1 harmonic. -/
theorem y1b_at (p : Fin 32) (q : Fin 32768) :
    val_main_v19 (F := Ideal) (up x) (ix3 p q 1) = ((κ.c1 * x (ix3 p q 2) : ℝ) : EReal) := by
  have e : val_main_v17 (F := Ideal) (up x) (ix3 p q 1) = val_main_v15 (F := Ideal) (up x) (ix3 p q 0) := by
    unfold val_main_v17
    apply concatenate_apply_piece (k := 1) (s₁ := S32x32768x1) (pre := 1) (i := ix3 p q 0)
    all_goals try rfl
    all_goals first
      | (show (1 : Nat) < 3; decide)
      | (intro a ha
         match a with
         | ⟨0, _⟩ => rfl
         | ⟨1, _⟩ => rfl
         | ⟨2, _⟩ => exact absurd rfl ha)
  rw [val_main_v19_apply, val_main_v18_apply, val_main_cst_2_apply, e, val_main_v15_apply, pz_at, Ideal.ofBits_def, hκ.h1,
    Ideal.mulf_def, ← EReal.coe_mul]
  all_goals rfl

/-- The third degree-1 harmonic. -/
theorem y1c_at (p : Fin 32) (q : Fin 32768) :
    val_main_v19 (F := Ideal) (up x) (ix3 p q 2) = ((κ.c1 * x (ix3 p q 0) : ℝ) : EReal) := by
  have e : val_main_v17 (F := Ideal) (up x) (ix3 p q 2) = val_main_v16 (F := Ideal) (up x) (ix3 p q 0) := by
    unfold val_main_v17
    apply concatenate_apply_piece (k := 2) (s₁ := S32x32768x1) (pre := 2) (i := ix3 p q 0)
    all_goals try rfl
    all_goals first
      | (show (2 : Nat) < 3; decide)
      | (intro a ha
         match a with
         | ⟨0, _⟩ => rfl
         | ⟨1, _⟩ => rfl
         | ⟨2, _⟩ => exact absurd rfl ha)
  rw [val_main_v19_apply, val_main_v18_apply, val_main_cst_2_apply, e, val_main_v16_apply, px_at, Ideal.ofBits_def, hκ.h1,
    Ideal.mulf_def, ← EReal.coe_mul]
  all_goals rfl

end Degree1

/-- The broadcast one over the three degree-1 columns. -/
theorem one3_at (j : S32x32768x3.Idx) : val_main_v106 (F := Ideal) j = ((1 : ℝ) : EReal) := by
  rw [val_main_v106_apply, val_main_v105_apply, one2_at]

/-- The two channels of degree 1 laid side by side: channel 0. -/
theorem cat113_left (Q : S32x32768x3x2.Idx) (h : (Q 3).val = 0) :
    val_main_v113 (F := Ideal) (up x) Q = val_main_v111 (F := Ideal) (up x) (ix4 (Q 0) (Q 1) (Q 2) 0) := by
  unfold val_main_v113
  exact concatenate_pair_apply_left (s₁ := S32x32768x3x1) (s₂ := S32x32768x3x1) 3 _ _ _ Q rfl (ix4 (Q 0) (Q 1) (Q 2) 0) (fun a => by
    match a with
    | ⟨0, _⟩ => rfl
    | ⟨1, _⟩ => rfl
    | ⟨2, _⟩ => rfl
    | ⟨3, _⟩ => exact h.symm)

/-- The two channels of degree 1 laid side by side: channel 1. -/
theorem cat113_right (Q : S32x32768x3x2.Idx) (h : (Q 3).val = 1) :
    val_main_v113 (F := Ideal) (up x) Q = val_main_v112 (F := Ideal) (up x) (ix4 (Q 0) (Q 1) (Q 2) 0) := by
  unfold val_main_v113
  exact concatenate_pair_apply_right (s₁ := S32x32768x3x1) (s₂ := S32x32768x3x1) 3 _ _ _ Q rfl rfl (ix4 (Q 0) (Q 1) (Q 2) 0)
    (fun a ha => by
      match a with
      | ⟨0, _⟩ => rfl
      | ⟨1, _⟩ => rfl
      | ⟨2, _⟩ => rfl
      | ⟨3, _⟩ => exact absurd rfl ha)
    h.symm

/-- The harmonic index the degree-1 contraction reads in channel 0. -/
theorem lidx126_at (p : Fin 32) (q : Fin 32768) (c : Fin 3) (u : Fin 4) :
    idx_main_v111 (ix4 (lidx_main_v126 (ix4 p q c u) 0 0) (lidx_main_v126 (ix4 p q c u) 0 1) (lidx_main_v126 (ix4 p q c u) 0 2) 0)
      = (ix3 p q c : S32x32768x3.Idx) :=
  funext fun a => by match a with | ⟨0, _⟩ => rfl | ⟨1, _⟩ => rfl | ⟨2, _⟩ => rfl

/-- The harmonic index the degree-1 contraction reads in channel 1. -/
theorem lidx126'_at (p : Fin 32) (q : Fin 32768) (c : Fin 3) (u : Fin 4) :
    idx_main_v112 (ix4 (lidx_main_v126 (ix4 p q c u) 1 0) (lidx_main_v126 (ix4 p q c u) 1 1) (lidx_main_v126 (ix4 p q c u) 1 2) 0)
      = (ix3 p q c : S32x32768x3.Idx) :=
  funext fun a => by match a with | ⟨0, _⟩ => rfl | ⟨1, _⟩ => rfl | ⟨2, _⟩ => rfl

/-- The weight index of the degree-1 contraction at channel k. -/
theorem ridx126_at (i' : S32x32768x3x4.Idx) (k : Fin 2) : ridx_main_v126 i' k = (ix2 k (i' 3) : S2x4.Idx) :=
  funext fun a => by match a with | ⟨0, _⟩ => rfl | ⟨1, _⟩ => rfl

/-- Degree 1 contracted with its weights, in terms of the harmonic of its row. -/
theorem deg1_at (p : Fin 32) (q : Fin 32768) (c : Fin 3) (u : Fin 4) :
    val_main_v126 (F := Ideal) (up x) (up w1) (ix4 p q c u)
      = ((1 : ℝ) : EReal) * val_main_v19 (F := Ideal) (up x) (ix3 p q c) * ((w1 (ix2 0 u) : ℝ) : EReal)
        + ((nsq x p q : ℝ) : EReal) * val_main_v19 (F := Ideal) (up x) (ix3 p q c) * ((w1 (ix2 1 u) : ℝ) : EReal) := by
  rw [val_main_v126_apply, Fin.sum_univ_two,
    cat113_left x (lidx_main_v126 (ix4 p q c u) 0) rfl, cat113_right x (lidx_main_v126 (ix4 p q c u) 1) rfl,
    val_main_v111_apply, val_main_v112_apply, lidx126_at, lidx126'_at, val_main_v107_apply, val_main_v110_apply, one3_at,
    val_main_v109_apply, val_main_v108_apply, n2_at, ridx126_at, ridx126_at]
  all_goals rfl

/-! ## Degree 2: five harmonics in the one channel 1, contracted with the one row w2 -/

section Degree2
include hκ

/-- The first degree-2 harmonic. -/
theorem y2a_col (p : Fin 32) (q : Fin 32768) :
    val_main_v43 (F := Ideal) (up x) (ix3 p q 0) = ((κ.cxy * x (ix3 p q 0) * x (ix3 p q 1) : ℝ) : EReal) := by
  have e : val_main_v43 (F := Ideal) (up x) (ix3 p q 0) = val_main_v38 (F := Ideal) (up x) (ix3 p q 0) := by
    unfold val_main_v43
    apply concatenate_apply_piece (k := 0) (s₁ := S32x32768x1) (pre := 0) (i := ix3 p q 0)
    all_goals try rfl
    all_goals first
      | (show (0 : Nat) < 5; decide)
      | (intro a ha
         match a with
         | ⟨0, _⟩ => rfl
         | ⟨1, _⟩ => rfl
         | ⟨2, _⟩ => exact absurd rfl ha)
  rw [e, val_main_v38_apply, y2a_at κ hκ x]
  all_goals rfl

/-- The second degree-2 harmonic. -/
theorem y2b_col (p : Fin 32) (q : Fin 32768) :
    val_main_v43 (F := Ideal) (up x) (ix3 p q 1) = ((κ.cxy * x (ix3 p q 1) * x (ix3 p q 2) : ℝ) : EReal) := by
  have e : val_main_v43 (F := Ideal) (up x) (ix3 p q 1) = val_main_v39 (F := Ideal) (up x) (ix3 p q 0) := by
    unfold val_main_v43
    apply concatenate_apply_piece (k := 1) (s₁ := S32x32768x1) (pre := 1) (i := ix3 p q 0)
    all_goals try rfl
    all_goals first
      | (show (1 : Nat) < 5; decide)
      | (intro a ha
         match a with
         | ⟨0, _⟩ => rfl
         | ⟨1, _⟩ => rfl
         | ⟨2, _⟩ => exact absurd rfl ha)
  rw [e, val_main_v39_apply, y2b_at κ hκ x]
  all_goals rfl

/-- The third degree-2 harmonic. -/
theorem y2c_col (p : Fin 32) (q : Fin 32768) :
    val_main_v43 (F := Ideal) (up x) (ix3 p q 2) = ((κ.c20 * (2 * (x (ix3 p q 2) * x (ix3 p q 2)) - x (ix3 p q 0) * x (ix3 p q 0) - x (ix3 p q 1) * x (ix3 p q 1)) : ℝ) : EReal) := by
  have e : val_main_v43 (F := Ideal) (up x) (ix3 p q 2) = val_main_v40 (F := Ideal) (up x) (ix3 p q 0) := by
    unfold val_main_v43
    apply concatenate_apply_piece (k := 2) (s₁ := S32x32768x1) (pre := 2) (i := ix3 p q 0)
    all_goals try rfl
    all_goals first
      | (show (2 : Nat) < 5; decide)
      | (intro a ha
         match a with
         | ⟨0, _⟩ => rfl
         | ⟨1, _⟩ => rfl
         | ⟨2, _⟩ => exact absurd rfl ha)
  rw [e, val_main_v40_apply, y2c_at κ hκ x]
  all_goals rfl

/-- The fourth degree-2 harmonic. -/
theorem y2d_col (p : Fin 32) (q : Fin 32768) :
    val_main_v43 (F := Ideal) (up x) (ix3 p q 3) = ((κ.cxy * x (ix3 p q 0) * x (ix3 p q 2) : ℝ) : EReal) := by
  have e : val_main_v43 (F := Ideal) (up x) (ix3 p q 3) = val_main_v41 (F := Ideal) (up x) (ix3 p q 0) := by
    unfold val_main_v43
    apply concatenate_apply_piece (k := 3) (s₁ := S32x32768x1) (pre := 3) (i := ix3 p q 0)
    all_goals try rfl
    all_goals first
      | (show (3 : Nat) < 5; decide)
      | (intro a ha
         match a with
         | ⟨0, _⟩ => rfl
         | ⟨1, _⟩ => rfl
         | ⟨2, _⟩ => exact absurd rfl ha)
  rw [e, val_main_v41_apply, y2d_at κ hκ x]
  all_goals rfl

/-- The fifth degree-2 harmonic. -/
theorem y2e_col (p : Fin 32) (q : Fin 32768) :
    val_main_v43 (F := Ideal) (up x) (ix3 p q 4) = ((κ.c22 * (x (ix3 p q 0) * x (ix3 p q 0) - x (ix3 p q 1) * x (ix3 p q 1)) : ℝ) : EReal) := by
  have e : val_main_v43 (F := Ideal) (up x) (ix3 p q 4) = val_main_v42 (F := Ideal) (up x) (ix3 p q 0) := by
    unfold val_main_v43
    apply concatenate_apply_piece (k := 4) (s₁ := S32x32768x1) (pre := 4) (i := ix3 p q 0)
    all_goals try rfl
    all_goals first
      | (show (4 : Nat) < 5; decide)
      | (intro a ha
         match a with
         | ⟨0, _⟩ => rfl
         | ⟨1, _⟩ => rfl
         | ⟨2, _⟩ => exact absurd rfl ha)
  rw [e, val_main_v42_apply, y2e_at κ hκ x]
  all_goals rfl

end Degree2

/-- The broadcast one over the five degree-2 columns. -/
theorem one5_at (j : S32x32768x5.Idx) : val_main_v115 (F := Ideal) j = ((1 : ℝ) : EReal) := by
  rw [val_main_v115_apply, val_main_v114_apply, one2_at]

/-- The harmonic index the degree-2 contraction reads. -/
theorem lidx127_at (p : Fin 32) (q : Fin 32768) (c : Fin 5) (u : Fin 4) :
    idx_main_v117 (lidx_main_v127 (ix4 p q c u) 0) = (ix3 p q c : S32x32768x5.Idx) :=
  funext fun a => by match a with | ⟨0, _⟩ => rfl | ⟨1, _⟩ => rfl | ⟨2, _⟩ => rfl

/-- The weight index of the degree-2 contraction. -/
theorem ridx127_at (i' : S32x32768x5x4.Idx) (k : Fin 1) : ridx_main_v127 i' k = (ix2 k (i' 3) : S1x4.Idx) :=
  funext fun a => by match a with | ⟨0, _⟩ => rfl | ⟨1, _⟩ => rfl

/-- Degree 2 contracted with its weights, in terms of the harmonic of its row. -/
theorem deg2_at (p : Fin 32) (q : Fin 32768) (c : Fin 5) (u : Fin 4) :
    val_main_v127 (F := Ideal) (up x) (up w2) (ix4 p q c u)
      = ((1 : ℝ) : EReal) * val_main_v43 (F := Ideal) (up x) (ix3 p q c) * ((w2 (ix2 0 u) : ℝ) : EReal) := by
  rw [val_main_v127_apply, Fin.sum_univ_one, val_main_v117_apply, lidx127_at, val_main_v116_apply, one5_at, ridx127_at]
  all_goals rfl

/-! ## Degree 3: seven harmonics in the one channel 1, contracted with the one row w3 -/

section Degree3
include hκ

/-- The first degree-3 harmonic. -/
theorem y3a_col (p : Fin 32) (q : Fin 32768) :
    val_main_v96 (F := Ideal) (up x) (ix3 p q 0) = ((κ.c33 * x (ix3 p q 1) * (3 * (x (ix3 p q 0) * x (ix3 p q 0)) - x (ix3 p q 1) * x (ix3 p q 1)) : ℝ) : EReal) := by
  have e : val_main_v96 (F := Ideal) (up x) (ix3 p q 0) = val_main_v89 (F := Ideal) (up x) (ix3 p q 0) := by
    unfold val_main_v96
    apply concatenate_apply_piece (k := 0) (s₁ := S32x32768x1) (pre := 0) (i := ix3 p q 0)
    all_goals try rfl
    all_goals first
      | (show (0 : Nat) < 7; decide)
      | (intro a ha
         match a with
         | ⟨0, _⟩ => rfl
         | ⟨1, _⟩ => rfl
         | ⟨2, _⟩ => exact absurd rfl ha)
  rw [e, val_main_v89_apply, y3a_at κ hκ x]
  all_goals rfl

/-- The second degree-3 harmonic. -/
theorem y3b_col (p : Fin 32) (q : Fin 32768) :
    val_main_v96 (F := Ideal) (up x) (ix3 p q 1) = ((κ.c32 * x (ix3 p q 0) * x (ix3 p q 1) * x (ix3 p q 2) : ℝ) : EReal) := by
  have e : val_main_v96 (F := Ideal) (up x) (ix3 p q 1) = val_main_v90 (F := Ideal) (up x) (ix3 p q 0) := by
    unfold val_main_v96
    apply concatenate_apply_piece (k := 1) (s₁ := S32x32768x1) (pre := 1) (i := ix3 p q 0)
    all_goals try rfl
    all_goals first
      | (show (1 : Nat) < 7; decide)
      | (intro a ha
         match a with
         | ⟨0, _⟩ => rfl
         | ⟨1, _⟩ => rfl
         | ⟨2, _⟩ => exact absurd rfl ha)
  rw [e, val_main_v90_apply, y3b_at κ hκ x]
  all_goals rfl

/-- The third degree-3 harmonic. -/
theorem y3c_col (p : Fin 32) (q : Fin 32768) :
    val_main_v96 (F := Ideal) (up x) (ix3 p q 2) = ((κ.c31 * x (ix3 p q 1) * (4 * (x (ix3 p q 2) * x (ix3 p q 2)) - x (ix3 p q 0) * x (ix3 p q 0) - x (ix3 p q 1) * x (ix3 p q 1)) : ℝ) : EReal) := by
  have e : val_main_v96 (F := Ideal) (up x) (ix3 p q 2) = val_main_v91 (F := Ideal) (up x) (ix3 p q 0) := by
    unfold val_main_v96
    apply concatenate_apply_piece (k := 2) (s₁ := S32x32768x1) (pre := 2) (i := ix3 p q 0)
    all_goals try rfl
    all_goals first
      | (show (2 : Nat) < 7; decide)
      | (intro a ha
         match a with
         | ⟨0, _⟩ => rfl
         | ⟨1, _⟩ => rfl
         | ⟨2, _⟩ => exact absurd rfl ha)
  rw [e, val_main_v91_apply, y3c_at κ hκ x]
  all_goals rfl

/-- The fourth degree-3 harmonic. -/
theorem y3d_col (p : Fin 32) (q : Fin 32768) :
    val_main_v96 (F := Ideal) (up x) (ix3 p q 3) = ((κ.c30 * x (ix3 p q 2) * (2 * (x (ix3 p q 2) * x (ix3 p q 2)) - 3 * (x (ix3 p q 0) * x (ix3 p q 0)) - 3 * (x (ix3 p q 1) * x (ix3 p q 1))) : ℝ) : EReal) := by
  have e : val_main_v96 (F := Ideal) (up x) (ix3 p q 3) = val_main_v92 (F := Ideal) (up x) (ix3 p q 0) := by
    unfold val_main_v96
    apply concatenate_apply_piece (k := 3) (s₁ := S32x32768x1) (pre := 3) (i := ix3 p q 0)
    all_goals try rfl
    all_goals first
      | (show (3 : Nat) < 7; decide)
      | (intro a ha
         match a with
         | ⟨0, _⟩ => rfl
         | ⟨1, _⟩ => rfl
         | ⟨2, _⟩ => exact absurd rfl ha)
  rw [e, val_main_v92_apply, y3d_at κ hκ x]
  all_goals rfl

/-- The fifth degree-3 harmonic. -/
theorem y3e_col (p : Fin 32) (q : Fin 32768) :
    val_main_v96 (F := Ideal) (up x) (ix3 p q 4) = ((κ.c31 * x (ix3 p q 0) * (4 * (x (ix3 p q 2) * x (ix3 p q 2)) - x (ix3 p q 0) * x (ix3 p q 0) - x (ix3 p q 1) * x (ix3 p q 1)) : ℝ) : EReal) := by
  have e : val_main_v96 (F := Ideal) (up x) (ix3 p q 4) = val_main_v93 (F := Ideal) (up x) (ix3 p q 0) := by
    unfold val_main_v96
    apply concatenate_apply_piece (k := 4) (s₁ := S32x32768x1) (pre := 4) (i := ix3 p q 0)
    all_goals try rfl
    all_goals first
      | (show (4 : Nat) < 7; decide)
      | (intro a ha
         match a with
         | ⟨0, _⟩ => rfl
         | ⟨1, _⟩ => rfl
         | ⟨2, _⟩ => exact absurd rfl ha)
  rw [e, val_main_v93_apply, y3e_at κ hκ x]
  all_goals rfl

/-- The sixth degree-3 harmonic. -/
theorem y3f_col (p : Fin 32) (q : Fin 32768) :
    val_main_v96 (F := Ideal) (up x) (ix3 p q 5) = ((κ.c3p * x (ix3 p q 2) * (x (ix3 p q 0) * x (ix3 p q 0) - x (ix3 p q 1) * x (ix3 p q 1)) : ℝ) : EReal) := by
  have e : val_main_v96 (F := Ideal) (up x) (ix3 p q 5) = val_main_v94 (F := Ideal) (up x) (ix3 p q 0) := by
    unfold val_main_v96
    apply concatenate_apply_piece (k := 5) (s₁ := S32x32768x1) (pre := 5) (i := ix3 p q 0)
    all_goals try rfl
    all_goals first
      | (show (5 : Nat) < 7; decide)
      | (intro a ha
         match a with
         | ⟨0, _⟩ => rfl
         | ⟨1, _⟩ => rfl
         | ⟨2, _⟩ => exact absurd rfl ha)
  rw [e, val_main_v94_apply, y3f_at κ hκ x]
  all_goals rfl

/-- The seventh degree-3 harmonic. -/
theorem y3g_col (p : Fin 32) (q : Fin 32768) :
    val_main_v96 (F := Ideal) (up x) (ix3 p q 6) = ((κ.c33 * x (ix3 p q 0) * (x (ix3 p q 0) * x (ix3 p q 0) - 3 * (x (ix3 p q 1) * x (ix3 p q 1))) : ℝ) : EReal) := by
  have e : val_main_v96 (F := Ideal) (up x) (ix3 p q 6) = val_main_v95 (F := Ideal) (up x) (ix3 p q 0) := by
    unfold val_main_v96
    apply concatenate_apply_piece (k := 6) (s₁ := S32x32768x1) (pre := 6) (i := ix3 p q 0)
    all_goals try rfl
    all_goals first
      | (show (6 : Nat) < 7; decide)
      | (intro a ha
         match a with
         | ⟨0, _⟩ => rfl
         | ⟨1, _⟩ => rfl
         | ⟨2, _⟩ => exact absurd rfl ha)
  rw [e, val_main_v95_apply, y3g_at κ hκ x]
  all_goals rfl

end Degree3

/-- The broadcast one over the seven degree-3 columns. -/
theorem one7_at (j : S32x32768x7.Idx) : val_main_v119 (F := Ideal) j = ((1 : ℝ) : EReal) := by
  rw [val_main_v119_apply, val_main_v118_apply, one2_at]

/-- The harmonic index the degree-3 contraction reads. -/
theorem lidx128_at (p : Fin 32) (q : Fin 32768) (c : Fin 7) (u : Fin 4) :
    idx_main_v121 (lidx_main_v128 (ix4 p q c u) 0) = (ix3 p q c : S32x32768x7.Idx) :=
  funext fun a => by match a with | ⟨0, _⟩ => rfl | ⟨1, _⟩ => rfl | ⟨2, _⟩ => rfl

/-- The weight index of the degree-3 contraction. -/
theorem ridx128_at (i' : S32x32768x7x4.Idx) (k : Fin 1) : ridx_main_v128 i' k = (ix2 k (i' 3) : S1x4.Idx) :=
  funext fun a => by match a with | ⟨0, _⟩ => rfl | ⟨1, _⟩ => rfl

/-- Degree 3 contracted with its weights, in terms of the harmonic of its row. -/
theorem deg3_at (p : Fin 32) (q : Fin 32768) (c : Fin 7) (u : Fin 4) :
    val_main_v128 (F := Ideal) (up x) (up w3) (ix4 p q c u)
      = ((1 : ℝ) : EReal) * val_main_v96 (F := Ideal) (up x) (ix3 p q c) * ((w3 (ix2 0 u) : ℝ) : EReal) := by
  rw [val_main_v128_apply, Fin.sum_univ_one, val_main_v121_apply, lidx128_at, val_main_v120_apply, one7_at, ridx128_at]
  all_goals rfl

/-! ## The four degrees laid end to end along the row axis

Row 0 is degree 0, rows 1–3 degree 1, rows 4–8 degree 2, rows 9–15 degree 3: a row reads the degree whose span holds
it, at the row less the rows before that degree. -/

/-- Row 0 is degree 0. -/
theorem rows_deg0 (p : Fin 32) (q : Fin 32768) (c : Fin 1) (mm : Fin 16) (u : Fin 4) (h : 0 + c.val = mm.val) :
    val_main_v129 (F := Ideal) (up x) (up w0) (up b0) (up w1) (up w2) (up w3) (ix4 p q mm u)
      = val_main_v125 (F := Ideal) (up x) (up w0) (up b0) (ix4 p q c u) := by
  unfold val_main_v129
  apply concatenate_apply_piece (k := 0) (s₁ := S32x32768x1x4) (pre := 0) (i := ix4 p q c u)
  all_goals try (first | exact h | rfl)
  all_goals first
    | (show (0 : Nat) < 4; decide)
    | (intro a ha
       match a with
       | ⟨0, _⟩ => rfl
       | ⟨1, _⟩ => rfl
       | ⟨2, _⟩ => exact absurd rfl ha
       | ⟨3, _⟩ => rfl)

/-- Rows 1–3 are degree 1. -/
theorem rows_deg1 (p : Fin 32) (q : Fin 32768) (c : Fin 3) (mm : Fin 16) (u : Fin 4) (h : 1 + c.val = mm.val) :
    val_main_v129 (F := Ideal) (up x) (up w0) (up b0) (up w1) (up w2) (up w3) (ix4 p q mm u)
      = val_main_v126 (F := Ideal) (up x) (up w1) (ix4 p q c u) := by
  unfold val_main_v129
  apply concatenate_apply_piece (k := 1) (s₁ := S32x32768x3x4) (pre := 1) (i := ix4 p q c u)
  all_goals try (first | exact h | rfl)
  all_goals first
    | (show (1 : Nat) < 4; decide)
    | (intro a ha
       match a with
       | ⟨0, _⟩ => rfl
       | ⟨1, _⟩ => rfl
       | ⟨2, _⟩ => exact absurd rfl ha
       | ⟨3, _⟩ => rfl)

/-- Rows 4–8 are degree 2. -/
theorem rows_deg2 (p : Fin 32) (q : Fin 32768) (c : Fin 5) (mm : Fin 16) (u : Fin 4) (h : 4 + c.val = mm.val) :
    val_main_v129 (F := Ideal) (up x) (up w0) (up b0) (up w1) (up w2) (up w3) (ix4 p q mm u)
      = val_main_v127 (F := Ideal) (up x) (up w2) (ix4 p q c u) := by
  unfold val_main_v129
  apply concatenate_apply_piece (k := 2) (s₁ := S32x32768x5x4) (pre := 4) (i := ix4 p q c u)
  all_goals try (first | exact h | rfl)
  all_goals first
    | (show (2 : Nat) < 4; decide)
    | (intro a ha
       match a with
       | ⟨0, _⟩ => rfl
       | ⟨1, _⟩ => rfl
       | ⟨2, _⟩ => exact absurd rfl ha
       | ⟨3, _⟩ => rfl)

/-- Rows 9–15 are degree 3. -/
theorem rows_deg3 (p : Fin 32) (q : Fin 32768) (c : Fin 7) (mm : Fin 16) (u : Fin 4) (h : 9 + c.val = mm.val) :
    val_main_v129 (F := Ideal) (up x) (up w0) (up b0) (up w1) (up w2) (up w3) (ix4 p q mm u)
      = val_main_v128 (F := Ideal) (up x) (up w3) (ix4 p q c u) := by
  unfold val_main_v129
  apply concatenate_apply_piece (k := 3) (s₁ := S32x32768x7x4) (pre := 9) (i := ix4 p q c u)
  all_goals try (first | exact h | rfl)
  all_goals first
    | (show (3 : Nat) < 4; decide)
    | (intro a ha
       match a with
       | ⟨0, _⟩ => rfl
       | ⟨1, _⟩ => rfl
       | ⟨2, _⟩ => exact absurd rfl ha
       | ⟨3, _⟩ => rfl)

/-! ## The sixteen rows -/

section Rows
include hκ

theorem row0 (p : Fin 32) (q : Fin 32768) (u : Fin 4) : val_main_v129 (F := Ideal) (up x) (up w0) (up b0) (up w1) (up w2) (up w3) (ix4 p q 0 u)
    = ((κ.c0 * w0 (ix2 0 u) + nsq x p q * (κ.c0 * w0 (ix2 1 u)) + b0 (ix1 u) : ℝ) : EReal) := by
  rw [rows_deg0 x w0 b0 w1 w2 w3 p q 0 0 u rfl, deg0_at κ hκ x w0 b0 p q u]
  congr 1; ring

theorem row1 (p : Fin 32) (q : Fin 32768) (u : Fin 4) : val_main_v129 (F := Ideal) (up x) (up w0) (up b0) (up w1) (up w2) (up w3) (ix4 p q 1 u)
    = ((κ.c1 * x (ix3 p q 1) * w1 (ix2 0 u) + nsq x p q * (κ.c1 * x (ix3 p q 1)) * w1 (ix2 1 u) : ℝ) : EReal) := by
  rw [rows_deg1 x w0 b0 w1 w2 w3 p q 0 1 u rfl, deg1_at x w1 p q 0 u, y1a_at κ hκ x p q]
  simp only [← EReal.coe_mul, ← EReal.coe_add]
  congr 1; ring

theorem row2 (p : Fin 32) (q : Fin 32768) (u : Fin 4) : val_main_v129 (F := Ideal) (up x) (up w0) (up b0) (up w1) (up w2) (up w3) (ix4 p q 2 u)
    = ((κ.c1 * x (ix3 p q 2) * w1 (ix2 0 u) + nsq x p q * (κ.c1 * x (ix3 p q 2)) * w1 (ix2 1 u) : ℝ) : EReal) := by
  rw [rows_deg1 x w0 b0 w1 w2 w3 p q 1 2 u rfl, deg1_at x w1 p q 1 u, y1b_at κ hκ x p q]
  simp only [← EReal.coe_mul, ← EReal.coe_add]
  congr 1; ring

theorem row3 (p : Fin 32) (q : Fin 32768) (u : Fin 4) : val_main_v129 (F := Ideal) (up x) (up w0) (up b0) (up w1) (up w2) (up w3) (ix4 p q 3 u)
    = ((κ.c1 * x (ix3 p q 0) * w1 (ix2 0 u) + nsq x p q * (κ.c1 * x (ix3 p q 0)) * w1 (ix2 1 u) : ℝ) : EReal) := by
  rw [rows_deg1 x w0 b0 w1 w2 w3 p q 2 3 u rfl, deg1_at x w1 p q 2 u, y1c_at κ hκ x p q]
  simp only [← EReal.coe_mul, ← EReal.coe_add]
  congr 1; ring

theorem row4 (p : Fin 32) (q : Fin 32768) (u : Fin 4) : val_main_v129 (F := Ideal) (up x) (up w0) (up b0) (up w1) (up w2) (up w3) (ix4 p q 4 u)
    = ((κ.cxy * x (ix3 p q 0) * x (ix3 p q 1) * w2 (ix2 0 u) : ℝ) : EReal) := by
  rw [rows_deg2 x w0 b0 w1 w2 w3 p q 0 4 u rfl, deg2_at x w2 p q 0 u, y2a_col κ hκ x p q]
  simp only [← EReal.coe_mul]
  congr 1; ring

theorem row5 (p : Fin 32) (q : Fin 32768) (u : Fin 4) : val_main_v129 (F := Ideal) (up x) (up w0) (up b0) (up w1) (up w2) (up w3) (ix4 p q 5 u)
    = ((κ.cxy * x (ix3 p q 1) * x (ix3 p q 2) * w2 (ix2 0 u) : ℝ) : EReal) := by
  rw [rows_deg2 x w0 b0 w1 w2 w3 p q 1 5 u rfl, deg2_at x w2 p q 1 u, y2b_col κ hκ x p q]
  simp only [← EReal.coe_mul]
  congr 1; ring

theorem row6 (p : Fin 32) (q : Fin 32768) (u : Fin 4) : val_main_v129 (F := Ideal) (up x) (up w0) (up b0) (up w1) (up w2) (up w3) (ix4 p q 6 u)
    = ((κ.c20 * (2 * (x (ix3 p q 2) * x (ix3 p q 2)) - x (ix3 p q 0) * x (ix3 p q 0) - x (ix3 p q 1) * x (ix3 p q 1)) * w2 (ix2 0 u) : ℝ) : EReal) := by
  rw [rows_deg2 x w0 b0 w1 w2 w3 p q 2 6 u rfl, deg2_at x w2 p q 2 u, y2c_col κ hκ x p q]
  simp only [← EReal.coe_mul]
  congr 1; ring

theorem row7 (p : Fin 32) (q : Fin 32768) (u : Fin 4) : val_main_v129 (F := Ideal) (up x) (up w0) (up b0) (up w1) (up w2) (up w3) (ix4 p q 7 u)
    = ((κ.cxy * x (ix3 p q 0) * x (ix3 p q 2) * w2 (ix2 0 u) : ℝ) : EReal) := by
  rw [rows_deg2 x w0 b0 w1 w2 w3 p q 3 7 u rfl, deg2_at x w2 p q 3 u, y2d_col κ hκ x p q]
  simp only [← EReal.coe_mul]
  congr 1; ring

theorem row8 (p : Fin 32) (q : Fin 32768) (u : Fin 4) : val_main_v129 (F := Ideal) (up x) (up w0) (up b0) (up w1) (up w2) (up w3) (ix4 p q 8 u)
    = ((κ.c22 * (x (ix3 p q 0) * x (ix3 p q 0) - x (ix3 p q 1) * x (ix3 p q 1)) * w2 (ix2 0 u) : ℝ) : EReal) := by
  rw [rows_deg2 x w0 b0 w1 w2 w3 p q 4 8 u rfl, deg2_at x w2 p q 4 u, y2e_col κ hκ x p q]
  simp only [← EReal.coe_mul]
  congr 1; ring

theorem row9 (p : Fin 32) (q : Fin 32768) (u : Fin 4) : val_main_v129 (F := Ideal) (up x) (up w0) (up b0) (up w1) (up w2) (up w3) (ix4 p q 9 u)
    = ((κ.c33 * x (ix3 p q 1) * (3 * (x (ix3 p q 0) * x (ix3 p q 0)) - x (ix3 p q 1) * x (ix3 p q 1)) * w3 (ix2 0 u) : ℝ) : EReal) := by
  rw [rows_deg3 x w0 b0 w1 w2 w3 p q 0 9 u rfl, deg3_at x w3 p q 0 u, y3a_col κ hκ x p q]
  simp only [← EReal.coe_mul]
  congr 1; ring

theorem row10 (p : Fin 32) (q : Fin 32768) (u : Fin 4) : val_main_v129 (F := Ideal) (up x) (up w0) (up b0) (up w1) (up w2) (up w3) (ix4 p q 10 u)
    = ((κ.c32 * x (ix3 p q 0) * x (ix3 p q 1) * x (ix3 p q 2) * w3 (ix2 0 u) : ℝ) : EReal) := by
  rw [rows_deg3 x w0 b0 w1 w2 w3 p q 1 10 u rfl, deg3_at x w3 p q 1 u, y3b_col κ hκ x p q]
  simp only [← EReal.coe_mul]
  congr 1; ring

theorem row11 (p : Fin 32) (q : Fin 32768) (u : Fin 4) : val_main_v129 (F := Ideal) (up x) (up w0) (up b0) (up w1) (up w2) (up w3) (ix4 p q 11 u)
    = ((κ.c31 * x (ix3 p q 1) * (4 * (x (ix3 p q 2) * x (ix3 p q 2)) - x (ix3 p q 0) * x (ix3 p q 0) - x (ix3 p q 1) * x (ix3 p q 1)) * w3 (ix2 0 u) : ℝ) : EReal) := by
  rw [rows_deg3 x w0 b0 w1 w2 w3 p q 2 11 u rfl, deg3_at x w3 p q 2 u, y3c_col κ hκ x p q]
  simp only [← EReal.coe_mul]
  congr 1; ring

theorem row12 (p : Fin 32) (q : Fin 32768) (u : Fin 4) : val_main_v129 (F := Ideal) (up x) (up w0) (up b0) (up w1) (up w2) (up w3) (ix4 p q 12 u)
    = ((κ.c30 * x (ix3 p q 2) * (2 * (x (ix3 p q 2) * x (ix3 p q 2)) - 3 * (x (ix3 p q 0) * x (ix3 p q 0)) - 3 * (x (ix3 p q 1) * x (ix3 p q 1))) * w3 (ix2 0 u) : ℝ) : EReal) := by
  rw [rows_deg3 x w0 b0 w1 w2 w3 p q 3 12 u rfl, deg3_at x w3 p q 3 u, y3d_col κ hκ x p q]
  simp only [← EReal.coe_mul]
  congr 1; ring

theorem row13 (p : Fin 32) (q : Fin 32768) (u : Fin 4) : val_main_v129 (F := Ideal) (up x) (up w0) (up b0) (up w1) (up w2) (up w3) (ix4 p q 13 u)
    = ((κ.c31 * x (ix3 p q 0) * (4 * (x (ix3 p q 2) * x (ix3 p q 2)) - x (ix3 p q 0) * x (ix3 p q 0) - x (ix3 p q 1) * x (ix3 p q 1)) * w3 (ix2 0 u) : ℝ) : EReal) := by
  rw [rows_deg3 x w0 b0 w1 w2 w3 p q 4 13 u rfl, deg3_at x w3 p q 4 u, y3e_col κ hκ x p q]
  simp only [← EReal.coe_mul]
  congr 1; ring

theorem row14 (p : Fin 32) (q : Fin 32768) (u : Fin 4) : val_main_v129 (F := Ideal) (up x) (up w0) (up b0) (up w1) (up w2) (up w3) (ix4 p q 14 u)
    = ((κ.c3p * x (ix3 p q 2) * (x (ix3 p q 0) * x (ix3 p q 0) - x (ix3 p q 1) * x (ix3 p q 1)) * w3 (ix2 0 u) : ℝ) : EReal) := by
  rw [rows_deg3 x w0 b0 w1 w2 w3 p q 5 14 u rfl, deg3_at x w3 p q 5 u, y3f_col κ hκ x p q]
  simp only [← EReal.coe_mul]
  congr 1; ring

theorem row15 (p : Fin 32) (q : Fin 32768) (u : Fin 4) : val_main_v129 (F := Ideal) (up x) (up w0) (up b0) (up w1) (up w2) (up w3) (ix4 p q 15 u)
    = ((κ.c33 * x (ix3 p q 0) * (x (ix3 p q 0) * x (ix3 p q 0) - 3 * (x (ix3 p q 1) * x (ix3 p q 1))) * w3 (ix2 0 u) : ℝ) : EReal) := by
  rw [rows_deg3 x w0 b0 w1 w2 w3 p q 6 15 u rfl, deg3_at x w3 p q 6 u, y3g_col κ hκ x p q]
  simp only [← EReal.coe_mul]
  congr 1; ring

end Rows

/-- **The reference's result is the specification.** -/
theorem ref_out (κ : Cert.Spec.Consts) (hκ : Cert.Spec.Lits κ)
    (x : Cert.ReferenceIdeal.S32x32768x3.Idx → ℝ) (w0 : Cert.ReferenceIdeal.S2x4.Idx → ℝ) (b0 : Cert.ReferenceIdeal.S4.Idx → ℝ)
    (w1 : Cert.ReferenceIdeal.S2x4.Idx → ℝ) (w2 w3 : Cert.ReferenceIdeal.S1x4.Idx → ℝ) :
    Cert.ReferenceIdeal.Read.val_main_v129 (F := Ideal) (fun i => ((x i : ℝ) : EReal)) (fun i => ((w0 i : ℝ) : EReal))
        (fun i => ((b0 i : ℝ) : EReal)) (fun i => ((w1 i : ℝ) : EReal)) (fun i => ((w2 i : ℝ) : EReal)) (fun i => ((w3 i : ℝ) : EReal))
      = Cert.Spec.out κ x w0 b0 w1 w2 w3 := by
  funext i
  obtain ⟨p, q, mm, u, rfl⟩ : ∃ (p : Fin 32) (q : Fin 32768) (mm : Fin 16) (u : Fin 4), i = ix4 p q mm u :=
    ⟨i 0, i 1, i 2, i 3, eq_ix4 i⟩
  fin_cases mm
  · exact row0 κ hκ x w0 b0 w1 w2 w3 p q u
  · exact row1 κ hκ x w0 b0 w1 w2 w3 p q u
  · exact row2 κ hκ x w0 b0 w1 w2 w3 p q u
  · exact row3 κ hκ x w0 b0 w1 w2 w3 p q u
  · exact row4 κ hκ x w0 b0 w1 w2 w3 p q u
  · exact row5 κ hκ x w0 b0 w1 w2 w3 p q u
  · exact row6 κ hκ x w0 b0 w1 w2 w3 p q u
  · exact row7 κ hκ x w0 b0 w1 w2 w3 p q u
  · exact row8 κ hκ x w0 b0 w1 w2 w3 p q u
  · exact row9 κ hκ x w0 b0 w1 w2 w3 p q u
  · exact row10 κ hκ x w0 b0 w1 w2 w3 p q u
  · exact row11 κ hκ x w0 b0 w1 w2 w3 p q u
  · exact row12 κ hκ x w0 b0 w1 w2 w3 p q u
  · exact row13 κ hκ x w0 b0 w1 w2 w3 p q u
  · exact row14 κ hκ x w0 b0 w1 w2 w3 p q u
  · exact row15 κ hκ x w0 b0 w1 w2 w3 p q u

end Cert.RefSide

end
-- ==== Proof.lean ====
/-
  The certificate: the kernel computes the reference's sixteen rows of four numbers at every point.

  A point p = (px, py, pz) with n2 = |p|² is sent to the real spherical harmonics of degrees 0 to 3 at p, each degree in
  its radial channels (1 and n2 for degrees 0 and 1, only 1 for degrees 2 and 3), each degree contracted with its own
  small weight array (degree 0 with a bias). The reference does exactly that with four small contractions. The kernel
  first folds the harmonic constants and the weights into one 20 x 64 matrix on the host — row k holds, in the four
  columns of the one output row that feature k feeds, the constant times the weights, zeros elsewhere — and then, for
  blocks of 8192 points, contracts twenty raw polynomial features of each point with that matrix.

  The frames: both kernel programs run their host stretch, their one region over the 32 x 4 grid and their closing
  reshape to the end, and write no argument array (Proof/FrameWord.lean at the word level, Proof/FrameIdeal.lean at the
  ideal values; the same argument, generic in the float instance). The reference's frame is its generated run.
  The idealization rewrote nothing, so there is nothing to preserve.
  The values, at the ideal instance and under the precondition that every input is finite: every argument array is an
  array of reals (Proof/Finite.lean); on reals the kernel's result is the specification's real polynomial
  (Proof/KBody.lean, KValue.lean, KOut.lean, MatSide.lean, KFinal.lean, over the law of Proof/Algebra.lean: a feature
  against a zero of the matrix contributes nothing, and the rest is distributivity), and so is the reference's
  (Proof/RefSide.lean). The ten harmonic constants are the same 32-bit patterns in both programs and enter only as
  finite numbers.
-/
import proofs.«118229_j8839042695322_2_alg».proof.Defs
import proofs.«118229_j8839042695322_2_alg».proof.Proof.Gen.Kernel
import proofs.«118229_j8839042695322_2_alg».proof.Proof.Gen.Kernel.Skeleton
import proofs.«118229_j8839042695322_2_alg».proof.Proof.Gen.Kernel.Launch
import proofs.«118229_j8839042695322_2_alg».proof.Proof.Gen.Kernel.Points
import proofs.«118229_j8839042695322_2_alg».proof.Proof.Gen.KernelIdeal
import proofs.«118229_j8839042695322_2_alg».proof.Proof.Gen.KernelIdeal.Skeleton
import proofs.«118229_j8839042695322_2_alg».proof.Proof.Gen.KernelIdeal.Launch
import proofs.«118229_j8839042695322_2_alg».proof.Proof.Gen.KernelIdeal.Points
import proofs.«118229_j8839042695322_2_alg».proof.Proof.Gen.ReferenceIdeal
import proofs.«118229_j8839042695322_2_alg».proof.Proof.Gen.Pre_finite_inputs
import proofs.«118229_j8839042695322_2_alg».proof.Proof.Gen.ReferenceIdeal.Read
import proofs.«118229_j8839042695322_2_alg».proof.Proof.FrameWord
import proofs.«118229_j8839042695322_2_alg».proof.Proof.KFinal
import proofs.«118229_j8839042695322_2_alg».proof.Proof.Finite
import proofs.«118229_j8839042695322_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_word : Cert.frame_Kernel := fun m ρ _ => Cert.Kernel.Frame.frame m ρ

/-- So does the idealized one. -/
theorem frame_ideal : Cert.frame_KernelIdeal := fun m ρ _ => Cert.KernelIdeal.Frame.frame m ρ

/-- The reference's frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end with the specification's array: the finite inputs are reals, and on reals each
    side is the specification. -/
theorem algebraic : Cert.algebraic_KernelIdeal_ReferenceIdeal := by
  intro m ρ m' ρ' hpre hagree
  obtain ⟨κ, hκ⟩ := Cert.Spec.exists_lits
  have hfin : ∀ c : Dev Cert.KernelIdeal.nD,
      (∃ x : Cert.KernelIdeal.S32x32768x3.Idx → ℝ,
        (m ((c.tc : Thread Cert.KernelIdeal.nD Cert.KernelIdeal.τ).loc Cert.KernelIdeal.main_arg0) : Cert.KernelIdeal.S32x32768x3.Idx → EReal) = fun i => ((x i : ℝ) : EReal))
      ∧ (∃ x : Cert.KernelIdeal.S2x4.Idx → ℝ,
        (m ((c.tc : Thread Cert.KernelIdeal.nD Cert.KernelIdeal.τ).loc Cert.KernelIdeal.main_arg1) : Cert.KernelIdeal.S2x4.Idx → EReal) = fun i => ((x i : ℝ) : EReal))
      ∧ (∃ x : Cert.KernelIdeal.S4.Idx → ℝ,
        (m ((c.tc : Thread Cert.KernelIdeal.nD Cert.KernelIdeal.τ).loc Cert.KernelIdeal.main_arg2) : Cert.KernelIdeal.S4.Idx → EReal) = fun i => ((x i : ℝ) : EReal))
      ∧ (∃ x : Cert.KernelIdeal.S2x4.Idx → ℝ,
        (m ((c.tc : Thread Cert.KernelIdeal.nD Cert.KernelIdeal.τ).loc Cert.KernelIdeal.main_arg3) : Cert.KernelIdeal.S2x4.Idx → EReal) = fun i => ((x i : ℝ) : EReal))
      ∧ (∃ x : Cert.KernelIdeal.S1x4.Idx → ℝ,
        (m ((c.tc : Thread Cert.KernelIdeal.nD Cert.KernelIdeal.τ).loc Cert.KernelIdeal.main_arg4) : Cert.KernelIdeal.S1x4.Idx → EReal) = fun i => ((x i : ℝ) : EReal))
      ∧ (∃ x : Cert.KernelIdeal.S1x4.Idx → ℝ,
        (m ((c.tc : Thread Cert.KernelIdeal.nD Cert.KernelIdeal.τ).loc Cert.KernelIdeal.main_arg5) : Cert.KernelIdeal.S1x4.Idx → EReal) = fun i => ((x i : ℝ) : EReal)) :=
    fun c => Cert.Finite.reals_of_pre _ _ _ _ _ _ (hpre c)
  choose x hx using fun c => (hfin c).1
  choose w0 hw0 using fun c => (hfin c).2.1
  choose b0 hb0 using fun c => (hfin c).2.2.1
  choose w1 hw1 using fun c => (hfin c).2.2.2.1
  choose w2 hw2 using fun c => (hfin c).2.2.2.2.1
  choose w3 hw3 using fun c => (hfin c).2.2.2.2.2
  refine ⟨fun c => Cert.Spec.out κ (x c) (w0 c) (b0 c) (w1 c) (w2 c) (w3 c), ?_, ?_⟩
  · refine (θ_run Cert.KernelIdeal.defs _ _).mono (fun r h c => ⟨(h c).1.trans ?_, (h c).2⟩) (Cert.KSide.run_value m ρ)
    exact Cert.KSide.kernel_out m κ hκ c (x c) (w0 c) (b0 c) (w1 c) (w2 c) (w3 c) (hx c) (hw0 c) (hb0 c) (hw1 c) (hw2 c) (hw3 c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v129_eq, (hagree c).1, (hagree c).2.1, (hagree c).2.2.1, (hagree c).2.2.2.1,
      (hagree c).2.2.2.2.1, (hagree c).2.2.2.2.2, hx c, hw0 c, hb0 c, hw1 c, hw2 c, hw3 c]
    exact Cert.RefSide.ref_out κ hκ (x c) (w0 c) (b0 c) (w1 c) (w2 c) (w3 c)

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
